-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S128x64 : Shape := ⟨2, ![128, 64]⟩
abbrev S128x128 : Shape := ⟨2, ![128, 128]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096 .f32) (main_arg5 : FVec F S1024x4096 .f32) (main_arg6 : FVec F S1024 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x2048 .f32) (main_arg1 : FVec F S4096x2048 .f32) (main_arg2 : FVec F S4096 .f32) (main_arg3 : FVec F S4096x4096 .f32) (main_arg4 : FVec F S4096 .f32) (main_arg5 : FVec F S1024x4096 .f32) (main_arg6 : FVec F S1024 .f32) (main_arg7 : IVec S128x64 1) (main_arg8 : IVec S128x128 1) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S8192x2048 : Shape := ⟨2, ![8192, 2048]⟩
abbrev S4096x2048 : Shape := ⟨2, ![4096, 2048]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S128x64 : Shape := ⟨2, ![128, 64]⟩
abbrev S128x128 : Shape := ⟨2, ![128, 128]⟩
abbrev S128x32x64 : Shape := ⟨3, ![128, 32, 64]⟩
abbrev S4096x64 : Shape := ⟨2, ![4096, 64]⟩
abbrev S4096x64x32 : Shape := ⟨3, ![4096, 64, 32]⟩
abbrev S128x32x128 : Shape := ⟨3, ![128, 32, 128]⟩
abbrev S4096x128 : Shape := ⟨2, ![4096, 128]⟩
abbrev S4096x128x32 : Shape := ⟨3, ![4096, 128, 32]⟩
abbrev S1x4096 : Shape := ⟨2, ![1, 4096]⟩
abbrev S1x1024 : Shape := ⟨2, ![1, 1024]⟩
abbrev S8192x4096 : Shape := ⟨2, ![8192, 4096]⟩
abbrev S1024x1024 : Shape := ⟨2, ![1024, 1024]⟩
abbrev S8192x1024 : Shape := ⟨2, ![8192, 1024]⟩

abbrev nBuf : Space → Nat
  | .hbm => 31
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S1024x4096, .f32⟩
  | .hbm, ⟨6, _⟩ => ⟨S1024, .f32⟩
  | .hbm, ⟨7, _⟩ => ⟨S128x64, .i1⟩
  | .hbm, ⟨8, _⟩ => ⟨S128x128, .i1⟩
  | .hbm, ⟨9, _⟩ => ⟨S128x32x64, .i1⟩
  | .hbm, ⟨10, _⟩ => ⟨S4096x64, .i1⟩
  | .hbm, ⟨11, _⟩ => ⟨S4096x64x32, .i1⟩
  | .hbm, ⟨12, _⟩ => ⟨S4096x2048, .i1⟩
  | .hbm, ⟨13, _⟩ => ⟨S4096x2048, .f32⟩
  | .hbm, ⟨14, _⟩ => ⟨S4096x2048, .f32⟩
  | .hbm, ⟨15, _⟩ => ⟨S4096x2048, .bf16⟩
  | .hbm, ⟨16, _⟩ => ⟨S128x32x128, .i1⟩
  | .hbm, ⟨17, _⟩ => ⟨S4096x128, .i1⟩
  | .hbm, ⟨18, _⟩ => ⟨S4096x128x32, .i1⟩
  | .hbm, ⟨19, _⟩ => ⟨S4096x4096, .i1⟩
  | .hbm, ⟨20, _⟩ => ⟨S4096x4096, .f32⟩
  | .hbm, ⟨21, _⟩ => ⟨S4096x4096, .f32⟩
  | .hbm, ⟨22, _⟩ => ⟨S4096x4096, .bf16⟩
  | .hbm, ⟨23, _⟩ => ⟨S1024x4096, .bf16⟩
  | .hbm, ⟨24, _⟩ => ⟨S8192x2048, .bf16⟩
  | .hbm, ⟨25, _⟩ => ⟨S1x4096, .f32⟩
  | .hbm, ⟨26, _⟩ => ⟨S1x4096, .f32⟩
  | .hbm, ⟨27, _⟩ => ⟨S1x1024, .f32⟩
  | .hbm, ⟨28, _⟩ => ⟨S8192x4096, .bf16⟩
  | .hbm, ⟨29, _⟩ => ⟨S8192x4096, .bf16⟩
  | .hbm, ⟨30, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 1, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  bcast_S128x64_S128x32x64_0_2 : S128x64.BroadcastsInDim S128x32x64 (![0, 2] : Fin 2 → Fin S128x32x64.rank)
  shapeCasts_S128x32x64_S4096x64 : S128x32x64.ShapeCasts S4096x64
  bcast_S4096x64_S4096x64x32_0_1 : S4096x64.BroadcastsInDim S4096x64x32 (![0, 1] : Fin 2 → Fin S4096x64x32.rank)
  shapeCasts_S4096x64x32_S4096x2048 : S4096x64x32.ShapeCasts S4096x2048
  bitsLt_bf16_f32 : FTy.bits .bf16 < FTy.bits .f32
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  shapeCasts_S4096_S1x4096 : S4096.ShapeCasts S1x4096
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x2048.size a
  hwx0_0 : ∀ i : grid0.Coords, EltTy.bits .bf16 = 32 ∨ (Rect.block (s := S8192x2048) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x2048.size a
  hwx0_1 : ∀ i : grid0.Coords, EltTy.bits .bf16 = 32 ∨ (Rect.block (s := S4096x2048) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .bf16 = 32 ∨ (Rect.block (s := S8192x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .bf16 = 32 ∨ (Rect.block (s := S8192x4096) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x4096.size a
  hwx2_0 : ∀ i : grid2.Coords, EltTy.bits .bf16 = 32 ∨ (Rect.block (s := S8192x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x4096.size a
  hwx2_1 : ∀ i : grid2.Coords, EltTy.bits .bf16 = 32 ∨ (Rect.block (s := S1024x4096) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v15) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v19) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v20) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x2048 : Shape := ⟨2, ![8192, 2048]⟩
abbrev S4096x2048 : Shape := ⟨2, ![4096, 2048]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S128x64 : Shape := ⟨2, ![128, 64]⟩
abbrev S128x128 : Shape := ⟨2, ![128, 128]⟩
abbrev S128x32x64 : Shape := ⟨3, ![128, 32, 64]⟩
abbrev S4096x64 : Shape := ⟨2, ![4096, 64]⟩
abbrev S4096x64x32 : Shape := ⟨3, ![4096, 64, 32]⟩
abbrev S2048x4096 : Shape := ⟨2, ![2048, 4096]⟩
abbrev S8192x4096 : Shape := ⟨2, ![8192, 4096]⟩
abbrev S1x4096 : Shape := ⟨2, ![1, 4096]⟩
abbrev S_ : Shape := ⟨0, ![]⟩
abbrev S128x32x128 : Shape := ⟨3, ![128, 32, 128]⟩
abbrev S4096x128 : Shape := ⟨2, ![4096, 128]⟩
abbrev S4096x128x32 : Shape := ⟨3, ![4096, 128, 32]⟩
abbrev S4096x1024 : Shape := ⟨2, ![4096, 1024]⟩
abbrev S8192x1024 : Shape := ⟨2, ![8192, 1024]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S1024x4096, .f32⟩
  | .hbm, ⟨6, _⟩ => ⟨S1024, .f32⟩
  | .hbm, ⟨7, _⟩ => ⟨S128x64, .i1⟩
  | .hbm, ⟨8, _⟩ => ⟨S128x128, .i1⟩
  | .hbm, ⟨9, _⟩ => ⟨S128x32x64, .i1⟩
  | .hbm, ⟨10, _⟩ => ⟨S4096x64, .i1⟩
  | .hbm, ⟨11, _⟩ => ⟨S4096x64x32, .i1⟩
  | .hbm, ⟨12, _⟩ => ⟨S4096x2048, .i1⟩
  | .hbm, ⟨13, _⟩ => ⟨S4096x2048, .f32⟩
  | .hbm, ⟨14, _⟩ => ⟨S4096x2048, .f32⟩
  | .hbm, ⟨15, _⟩ => ⟨S2048x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S128x32x128, .i1⟩
  | .hbm, ⟨24, _⟩ => ⟨S4096x128, .i1⟩
  | .hbm, ⟨25, _⟩ => ⟨S4096x128x32, .i1⟩
  | .hbm, ⟨26, _⟩ => ⟨S4096x4096, .i1⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S4096x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call1_cst : Ref sig .tc := ⟨.hbm, 34, rfl⟩
abbrev main_call1_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S128x64_S128x32x64_0_2 : S128x64.BroadcastsInDim S128x32x64 (![0, 2] : Fin 2 → Fin S128x32x64.rank)
  shapeCasts_S128x32x64_S4096x64 : S128x32x64.ShapeCasts S4096x64
  bcast_S4096x64_S4096x64x32_0_1 : S4096x64.BroadcastsInDim S4096x64x32 (![0, 1] : Fin 2 → Fin S4096x64x32.rank)
  shapeCasts_S4096x64x32_S4096x2048 : S4096x64x32.ShapeCasts S4096x2048
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  transposes_S4096x4096_S4096x4096_1_0 : S4096x4096.Transposes [1, 0] S4096x4096
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x2048_S2048x4096_S8192x4096_1_0_0_1_n_n_wf : DotDims.WF S8192x2048 S2048x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.KernelLayer0.lean ====
import proofs.«106102_j67216238182776_1_alg».proof.Proof.Gen.Kernel.Launch
import proofs.«106102_j67216238182776_1_alg».proof.Proof.Gen.Kernel.Skeleton
import proofs.«106102_j67216238182776_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! # One layer of the network as a pipelined region

Region 0 multiplies a row block of its first operand by a row block of its second along their shared second axis,
one 1024-wide slab of that axis per grid point, adding each slab's product into a scratch accumulator that is zeroed
at the first slab; at the last slab the accumulated block plus the bias row, clamped at zero, is stored into the
output window. This module states what the scratch and the output window hold after each grid point and proves that the
body does that at every point, which is the region's half of the frame. -/

namespace Cert.Kernel.Layer0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether or not it was fetched there: an unfetched
    window's block index has not moved. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the grid -/

/-- The accumulator is zeroed where the contraction coordinate is zero, -/
abbrev condF (i : grid0.Coords) : Prop := (Scalar.cmpi .ne (Scalar.extui (Scalar.cmpi .eq (BitVec.ofNat 32 (i 2).val) 0#32)) 0#32) = 1#1
theorem hcondF : ∀ t : Fin cfg0.N, condF (grid0.coords t) ↔ t.val % 2 = 0 :=
  (by decide +kernel : ∀ t : Fin grid0.N, condF (grid0.coords t) ↔ t.val % 2 = 0)
/-- and the output block is stored where it is the last. -/
abbrev condL (i : grid0.Coords) : Prop := k0_cond2 i = 1#1
theorem hcondL : ∀ t : Fin cfg0.N, condL (grid0.coords t) ↔ t.val % 2 = 1 :=
  (by decide +kernel : ∀ t : Fin grid0.N, condL (grid0.coords t) ↔ t.val % 2 = 1)

/-- Away from the last slab the output window is idle and not written back; at the last slab it is live. -/
theorem idle3 : ∀ t : Fin cfg0.N, ¬condL (grid0.coords t) → cfg0.idle 3 (grid0.coords t) = true := by decide +kernel
theorem noFlush3 : ∀ t : Fin cfg0.N, ¬condL (grid0.coords t) → (cfg0.win 3).flush t = false := by decide +kernel
theorem live3 : ∀ t : Fin cfg0.N, condL (grid0.coords t) → cfg0.idle 3 (grid0.coords t) = false := by decide +kernel

/-! ## The accumulator -/

/-- The scratch accumulator, a whole scoped buffer of the kernel's own. -/
abbrev scM : Memref sig .tc .vmem S1024x1024 .f32 := Memref.whole cc0_scratch0

/-- The scoped buffers that are neither staged nor the accumulator, unopened. -/
abbrev others (c : Dev nD) : sProp 𝕄 :=
  Pipeline.scopedRestBut (Ix := Unit) (Name := ℕ) (U := UR sig nD τ) (Lvl := ℕ) (Val := Elt F) spec0 c [cc0_scratch0]

/-- The class invariant with the accumulator split out of the scoped rest. -/
theorem PhiA_eq (c : Dev nD) :
    (Pipeline.ΦA spec0 c : sProp 𝕄)
      = iprop(((∃ d, owns (c : Thread nD τ) scM fullShare d) ∗ others c) ∗ (∃ r, prngReg c r)) := by
  unfold Pipeline.ΦA
  rw [Pipeline.scopedRest_split_of_list spec0 c [cc0_scratch0] (by decide) (by decide), bigSepL_singleton]
  simp only [scM, owns_whole]; rfl

/-! ## A whole-buffer store covers the buffer -/

theorem hz0 : (![0, 0] : Fin 2 → Nat) = fun _ => 0 := by funext a; fin_cases a <;> rfl
abbrev rW : Rect S1024x1024 := Rect.unit (s := S1024x1024) ![0, 0] S1024x1024.size inb_S1024x1024_S1024x1024_0_0
theorem cover1 {e : EltTy} (p : rW.shape.Idx → Elt F e) (y : S1024x1024.Idx) :
    ∃ pc ∈ ([⟨rW, p⟩] : List (View.Piece (Elt F) S1024x1024 e)), y ∈ pc.1.set :=
  ⟨⟨rW, p⟩, List.mem_singleton_self _, View.mem_set_unit_zero hz0 inb_S1024x1024_S1024x1024_0_0 y⟩
theorem cover2 {e : EltTy} (p q : rW.shape.Idx → Elt F e) (y : S1024x1024.Idx) :
    ∃ pc ∈ ([⟨rW, p⟩, ⟨rW, q⟩] : List (View.Piece (Elt F) S1024x1024 e)), y ∈ pc.1.set :=
  ⟨⟨rW, p⟩, List.mem_cons_self, View.mem_set_unit_zero hz0 inb_S1024x1024_S1024x1024_0_0 y⟩

/-! ## The body, case by case -/

set_option maxHeartbeats 1000000 in
/-- The body at a point that is the first of its run along the contraction axis: the scratch, at anything, is zeroed and
    takes the product of the two input blocks on top; the bias and the output buffer are not touched. -/
theorem sound_A (c : Dev nD) (E : Set ℕ) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole)
    (hF : condF i) (hL : ¬condL i)
    (x0 : Vec F S1024x1024 .bf16) (x1 : Vec F S1024x1024 .bf16) (K : PUnit → sProp 𝕄) :
    iprop(owns (c : Thread nD τ) arg3 fullShare x0 ∗ owns (c : Thread nD τ) arg4 fullShare x1
        ∗ (∃ d, owns (c : Thread nD τ) arg7 fullShare d)
        ∗ (iprop(owns (c : Thread nD τ) arg3 fullShare x0 ∗ owns (c : Thread nD τ) arg4 fullShare x1
            ∗ owns (c : Thread nD τ) arg7 fullShare (k0_pay2 (k0_pay1 (F := F)) x0 x1)) -∗ K ⟨⟩))
      ⊢ wp frame (wpE (defs₀ (F := F)) Variants.none c none) E (cc0__matmul_bias_relu_kernel i arg3 harg3 arg4 harg4 arg5 harg5 arg6 harg6 arg7 harg7) K := by
  simp only [cc0__matmul_bias_relu_kernel_eq_skeleton]; unfold cc0__matmul_bias_relu_kernel_skel
  unfold owns
  iintro ⟨⟨%f0, %hf0, H0⟩, ⟨%f1, %hf1, H1⟩, ⟨%ds, %fs, -, HS⟩, Hk⟩
  obtain rfl := harg3.eq_unread hf0; obtain rfl := harg4.eq_unread hf1
  sl_exec (disch := first | exact hF | exact hL)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover2 _ _), View.canon_cons_unit_zero hz0, View.readCov_unit_zero _ hz0]
  simp only [View.readAt_eq_ld, harg3.read_unread, harg4.read_unread, View.ld_unit_zero (S := S1024x1024) hz0]

set_option maxHeartbeats 1000000 in
/-- The body at the last point of a run along the contraction axis: the scratch at `xs` takes the product of the two
    input blocks on top, and the output buffer is stored whole with that sum plus the bias row, clamped at zero. -/
theorem sound_C (c : Dev nD) (E : Set ℕ) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole)
    (hF : ¬condF i) (hL : condL i)
    (x0 : Vec F S1024x1024 .bf16) (x1 : Vec F S1024x1024 .bf16) (x2 : Vec F S1x1024 .f32) (xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 xs x0 x1) x2) ∗ owns (c : Thread nD τ) arg7 fullShare (k0_pay2 xs x0 x1)) -∗ K ⟨⟩))
      ⊢ wp frame (wpE (defs₀ (F := F)) Variants.none c none) E (cc0__matmul_bias_relu_kernel i arg3 harg3 arg4 harg4 arg5 harg5 arg6 harg6 arg7 harg7) K := by
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hF | exact hL)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (cover1 _), View.canon_unit_zero hz0, View.readCov_unit_zero _ hz0]
    simp only [View.readAt_eq_ld, harg3.read_unread, harg4.read_unread, harg5.read_unread, harg7.read_unread, View.ld_unit_zero (S := S1024x1024) hz0, View.ld_unit_zero (S := S1x1024) hz0]
  · iexists _; isplitr
    swap; · iexact HS
    ipureintro
    sl_unfold_words
    rw [View.read_writes_eq_canon _ _ _ (cover1 _), View.canon_unit_zero hz0]
    simp only [View.readAt_eq_ld, harg3.read_unread, harg4.read_unread, harg7.read_unread, View.ld_unit_zero (S := S1024x1024) hz0, View.ld_unit_zero (S := S1x1024) hz0]

/-! ## What the accumulator holds after each point -/

/-- The accumulator after the body at position `n`: at the first slab of a run the product of the point's two input
    blocks on top of zeros, afterwards on top of what the point before left. -/
def accOf (c : Dev nD) : (n : ℕ) → n < cfg0.N → Vec F S1024x1024 .f32
  | 0, hn => k0_pay2 (k0_pay1 (F := F)) (iblk V c 0 ⟨0, hn⟩) (iblk V c 1 ⟨0, hn⟩)
  | n + 1, hn =>
    if (n + 1) % 2 = 0 then k0_pay2 (k0_pay1 (F := F)) (iblk V c 0 ⟨n + 1, hn⟩) (iblk V c 1 ⟨n + 1, hn⟩)
    else k0_pay2 (accOf c n (Nat.lt_of_succ_lt hn)) (iblk V c 0 ⟨n + 1, hn⟩) (iblk V c 1 ⟨n + 1, hn⟩)

theorem accOf_first (c : Dev nD) (t : Fin cfg0.N) (h : t.val % 2 = 0) :
    accOf V c t.val t.isLt = k0_pay2 (k0_pay1 (F := F)) (iblk V c 0 t) (iblk V c 1 t) := by
  obtain ⟨n, hn⟩ := t
  cases n with
  | zero => rfl
  | succ n => exact if_pos h

theorem accOf_next (c : Dev nD) (t : Fin cfg0.N) (h : ¬t.val % 2 = 0) :
    accOf V c t.val t.isLt = k0_pay2 (accOf V c (t.val - 1) (Nat.lt_of_le_of_lt (Nat.sub_le _ _) t.isLt)) (iblk V c 0 t) (iblk V c 1 t) := by
  obtain ⟨n, hn⟩ := t
  cases n with
  | zero => exact absurd (Nat.zero_mod _) h
  | succ n => exact if_neg h

/-- The region invariant before position `n`: the class's before the first point, afterwards the accumulator at what
    the point before left, the other scoped buffers and the generator register at anything. -/
def PhiS (c : Dev nD) : (n : ℕ) → n ≤ cfg0.N → sProp 𝕄
  | 0, _ => Pipeline.ΦA spec0 c
  | n + 1, hn => iprop((owns (c : Thread nD τ) scM fullShare (accOf V c n hn) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM fullShare (accOf V c n hn) ∗ others c) ∗ (∃ r, prngReg c r)) := rfl
theorem PhiS_pos (c : Dev nD) (n : ℕ) (h : n ≤ cfg0.N) (hz : n ≠ 0) :
    PhiS V c n h = iprop((owns (c : Thread nD τ) scM fullShare (accOf V c (n - 1) (by omega)) ∗ others c) ∗ (∃ r, prngReg c r)) := by
  cases n with
  | zero => exact absurd rfl hz
  | succ n => rfl

/-! ## The proof data -/

/-- After the body at point `t`: each input window's buffer at its block; the output window's at the accumulated block
    plus the bias row, clamped at zero (read only at the last slab of a run, where it is stored); the invariant
    `PhiS`; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (accOf V c t.val t.isLt) (iblk V c 2 t)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = k0_pay3 (accOf V c t.val t.isLt) (iblk V c 2 t) := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The closed forms of the two conditions say which case the point is in; the invariant hands the
    body the accumulator at what the point before left (at anything before the first point) and takes it back at this
    point's contents; away from the last slab the output window's buffer is handed back as found. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (st0_0 t) fullShare ((dat V c).after 0 t) from rfl, after_0,
    show (dat V c).leavesExact 1 t = owns (c : Thread nD τ) (st0_1 t) fullShare ((dat V c).after 1 t) from rfl, after_1,
    show (dat V c).leavesExact 2 t = owns (c : Thread nD τ) (st0_2 t) fullShare ((dat V c).after 2 t) from rfl, after_2]
  by_cases hF : t.val % 2 = 0
  · have hL : ¬t.val % 2 = 1 := by omega
    rw [Dat.leavesExact_idle (dat V c) 3 t (idle3 t (fun h => hL ((hcondL t).mp h))) (noFlush3 t (fun h => hL ((hcondL t).mp h)))]
    rw [accOf_first V c t hF]
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, H3⟩
      iapply (sound_A c Set.univ (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (Memref.isWhole_whole _) ((hcondF t).mpr hF) (fun h => hL ((hcondL t).mp h)) (iblk V c 0 t) (iblk V c 1 t) _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨HS, Hrest⟩, Hg⟩, Ho, ⟨%d0, H0⟩, ⟨%d1, H1⟩, ⟨%d2, H2⟩, H3⟩
      iapply (sound_A c Set.univ (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (Memref.isWhole_whole _) ((hcondF t).mpr hF) (fun h => hL ((hcondL t).mp h)) (iblk V c 0 t) (iblk V c 1 t) _)
      isplitl [H0]; · iexact H0
      isplitl [H1]; · iexact H1
      isplitl [HS]; · iexists _; iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
  · have hz : t.val ≠ 0 := fun h => hF (by rw [h])
    rw [accOf_next V c t hF]
    by_cases hL : t.val % 2 = 1
    · rw [show (dat V c).leavesExact 3 t = owns (c : Thread nD τ) (st0_3 t) fullShare ((dat V c).after 3 t) from by
      unfold Dat.leavesExact; rw [live3 t ((hcondL t).mpr hL)], after_3]
      rw [accOf_next V c t hF]
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩⟩
      iapply (sound_C c Set.univ (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (Memref.isWhole_whole _) (fun h => hF ((hcondF t).mp h)) ((hcondL t).mpr hL) (iblk V c 0 t) (iblk V c 1 t) (iblk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · exfalso; omega

/-- The body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point; -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- after the last point the invariant gives it back, the accumulator's contents forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA_eq]
  iintro ⟨⟨HS, Hrest⟩, Hg⟩
  isplitl [HS Hrest]
  · isplitl [HS]; · iexists _; iexact HS
    iexact Hrest
  iexact Hg

end Cert.Kernel.Layer0

end
-- ==== Proof.KernelLayer1.lean ====
import proofs.«106102_j67216238182776_1_alg».proof.Proof.Gen.Kernel.Launch
import proofs.«106102_j67216238182776_1_alg».proof.Proof.Gen.Kernel.Skeleton
import proofs.«106102_j67216238182776_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! # One layer of the network as a pipelined region

Region 1 multiplies a row block of its first operand by a row block of its second along their shared second axis,
one 1024-wide slab of that axis per grid point, adding each slab's product into a scratch accumulator that is zeroed
at the first slab; at the last slab the accumulated block plus the bias row, clamped at zero, is stored into the
output window. This module states what the scratch and the output window hold after each grid point and proves that the
body does that at every point, which is the region's half of the frame. -/

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether or not it was fetched there: an unfetched
    window's block index has not moved. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the grid -/

/-- The accumulator is zeroed where the contraction coordinate is zero, -/
abbrev condF (i : grid1.Coords) : Prop := (Scalar.cmpi .ne (Scalar.extui (Scalar.cmpi .eq (BitVec.ofNat 32 (i 2).val) 0#32)) 0#32) = 1#1
theorem hcondF : ∀ t : Fin cfg1.N, condF (grid1.coords t) ↔ t.val % 4 = 0 :=
  (by decide +kernel : ∀ t : Fin grid1.N, condF (grid1.coords t) ↔ t.val % 4 = 0)
/-- and the output block is stored where it is the last. -/
abbrev condL (i : grid1.Coords) : Prop := k1_cond2 i = 1#1
theorem hcondL : ∀ t : Fin cfg1.N, condL (grid1.coords t) ↔ t.val % 4 = 3 :=
  (by decide +kernel : ∀ t : Fin grid1.N, condL (grid1.coords t) ↔ t.val % 4 = 3)

/-- Away from the last slab the output window is idle and not written back; at the last slab it is live. -/
theorem idle3 : ∀ t : Fin cfg1.N, ¬condL (grid1.coords t) → cfg1.idle 3 (grid1.coords t) = true := by decide +kernel
theorem noFlush3 : ∀ t : Fin cfg1.N, ¬condL (grid1.coords t) → (cfg1.win 3).flush t = false := by decide +kernel
theorem live3 : ∀ t : Fin cfg1.N, condL (grid1.coords t) → cfg1.idle 3 (grid1.coords t) = false := by decide +kernel

/-! ## The accumulator -/

/-- The scratch accumulator, a whole scoped buffer of the kernel's own. -/
abbrev scM : Memref sig .tc .vmem S1024x1024 .f32 := Memref.whole cc1_scratch0

/-- The scoped buffers that are neither staged nor the accumulator, unopened. -/
abbrev others (c : Dev nD) : sProp 𝕄 :=
  Pipeline.scopedRestBut (Ix := Unit) (Name := ℕ) (U := UR sig nD τ) (Lvl := ℕ) (Val := Elt F) spec1 c [cc1_scratch0]

/-- The class invariant with the accumulator split out of the scoped rest. -/
theorem PhiA_eq (c : Dev nD) :
    (Pipeline.ΦA spec1 c : sProp 𝕄)
      = iprop(((∃ d, owns (c : Thread nD τ) scM fullShare d) ∗ others c) ∗ (∃ r, prngReg c r)) := by
  unfold Pipeline.ΦA
  rw [Pipeline.scopedRest_split_of_list spec1 c [cc1_scratch0] (by decide) (by decide), bigSepL_singleton]
  simp only [scM, owns_whole]; rfl

/-! ## A whole-buffer store covers the buffer -/

theorem hz0 : (![0, 0] : Fin 2 → Nat) = fun _ => 0 := by funext a; fin_cases a <;> rfl
abbrev rW : Rect S1024x1024 := Rect.unit (s := S1024x1024) ![0, 0] S1024x1024.size inb_S1024x1024_S1024x1024_0_0
theorem cover1 {e : EltTy} (p : rW.shape.Idx → Elt F e) (y : S1024x1024.Idx) :
    ∃ pc ∈ ([⟨rW, p⟩] : List (View.Piece (Elt F) S1024x1024 e)), y ∈ pc.1.set :=
  ⟨⟨rW, p⟩, List.mem_singleton_self _, View.mem_set_unit_zero hz0 inb_S1024x1024_S1024x1024_0_0 y⟩
theorem cover2 {e : EltTy} (p q : rW.shape.Idx → Elt F e) (y : S1024x1024.Idx) :
    ∃ pc ∈ ([⟨rW, p⟩, ⟨rW, q⟩] : List (View.Piece (Elt F) S1024x1024 e)), y ∈ pc.1.set :=
  ⟨⟨rW, p⟩, List.mem_cons_self, View.mem_set_unit_zero hz0 inb_S1024x1024_S1024x1024_0_0 y⟩

/-! ## The body, case by case -/

set_option maxHeartbeats 1000000 in
/-- The body at a point that is the first of its run along the contraction axis: the scratch, at anything, is zeroed and
    takes the product of the two input blocks on top; the bias and the output buffer are not touched. -/
theorem sound_A (c : Dev nD) (E : Set ℕ) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole)
    (hF : condF i) (hL : ¬condL i)
    (x0 : Vec F S1024x1024 .bf16) (x1 : Vec F S1024x1024 .bf16) (K : PUnit → sProp 𝕄) :
    iprop(owns (c : Thread nD τ) arg3 fullShare x0 ∗ owns (c : Thread nD τ) arg4 fullShare x1
        ∗ (∃ d, owns (c : Thread nD τ) arg7 fullShare d)
        ∗ (iprop(owns (c : Thread nD τ) arg3 fullShare x0 ∗ owns (c : Thread nD τ) arg4 fullShare x1
            ∗ owns (c : Thread nD τ) arg7 fullShare (k1_pay2 (k1_pay1 (F := F)) x0 x1)) -∗ K ⟨⟩))
      ⊢ wp frame (wpE (defs₀ (F := F)) Variants.none c none) E (cc1__matmul_bias_relu_kernel i arg3 harg3 arg4 harg4 arg5 harg5 arg6 harg6 arg7 harg7) K := by
  simp only [cc1__matmul_bias_relu_kernel_eq_skeleton]; unfold cc1__matmul_bias_relu_kernel_skel
  unfold owns
  iintro ⟨⟨%f0, %hf0, H0⟩, ⟨%f1, %hf1, H1⟩, ⟨%ds, %fs, -, HS⟩, Hk⟩
  obtain rfl := harg3.eq_unread hf0; obtain rfl := harg4.eq_unread hf1
  sl_exec (disch := first | exact hF | exact hL)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover2 _ _), View.canon_cons_unit_zero hz0, View.readCov_unit_zero _ hz0]
  simp only [View.readAt_eq_ld, harg3.read_unread, harg4.read_unread, View.ld_unit_zero (S := S1024x1024) hz0]

set_option maxHeartbeats 1000000 in
/-- The body at a point that is neither the first nor the last of its run along the contraction axis: the scratch, at `xs`,
    takes the product of the two input blocks on top; the bias and the output buffer are not touched. -/
theorem sound_B (c : Dev nD) (E : Set ℕ) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole)
    (hF : ¬condF i) (hL : ¬condL i)
    (x0 : Vec F S1024x1024 .bf16) (x1 : Vec F S1024x1024 .bf16) (xs : Vec F S1024x1024 .f32) (K : PUnit → sProp 𝕄) :
    iprop(owns (c : Thread nD τ) arg3 fullShare x0 ∗ owns (c : Thread nD τ) arg4 fullShare x1
        ∗ owns (c : Thread nD τ) arg7 fullShare xs
        ∗ (iprop(owns (c : Thread nD τ) arg3 fullShare x0 ∗ owns (c : Thread nD τ) arg4 fullShare x1
            ∗ owns (c : Thread nD τ) arg7 fullShare (k1_pay2 xs x0 x1)) -∗ K ⟨⟩))
      ⊢ wp frame (wpE (defs₀ (F := F)) Variants.none c none) E (cc1__matmul_bias_relu_kernel i arg3 harg3 arg4 harg4 arg5 harg5 arg6 harg6 arg7 harg7) K := by
  simp only [cc1__matmul_bias_relu_kernel_eq_skeleton]; unfold cc1__matmul_bias_relu_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hF | exact hL)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover1 _), View.canon_unit_zero hz0]
  simp only [View.readAt_eq_ld, harg3.read_unread, harg4.read_unread, harg7.read_unread, View.ld_unit_zero (S := S1024x1024) hz0]

set_option maxHeartbeats 1000000 in
/-- The body at the last point of a run along the contraction axis: the scratch at `xs` takes the product of the two
    input blocks on top, and the output buffer is stored whole with that sum plus the bias row, clamped at zero. -/
theorem sound_C (c : Dev nD) (E : Set ℕ) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole)
    (hF : ¬condF i) (hL : condL i)
    (x0 : Vec F S1024x1024 .bf16) (x1 : Vec F S1024x1024 .bf16) (x2 : Vec F S1x1024 .f32) (xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 xs x0 x1) x2) ∗ owns (c : Thread nD τ) arg7 fullShare (k1_pay2 xs x0 x1)) -∗ K ⟨⟩))
      ⊢ wp frame (wpE (defs₀ (F := F)) Variants.none c none) E (cc1__matmul_bias_relu_kernel i arg3 harg3 arg4 harg4 arg5 harg5 arg6 harg6 arg7 harg7) K := by
  simp only [cc1__matmul_bias_relu_kernel_eq_skeleton]; unfold cc1__matmul_bias_relu_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hF | exact hL)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (cover1 _), View.canon_unit_zero hz0, View.readCov_unit_zero _ hz0]
    simp only [View.readAt_eq_ld, harg3.read_unread, harg4.read_unread, harg5.read_unread, harg7.read_unread, View.ld_unit_zero (S := S1024x1024) hz0, View.ld_unit_zero (S := S1x1024) hz0]
  · iexists _; isplitr
    swap; · iexact HS
    ipureintro
    sl_unfold_words
    rw [View.read_writes_eq_canon _ _ _ (cover1 _), View.canon_unit_zero hz0]
    simp only [View.readAt_eq_ld, harg3.read_unread, harg4.read_unread, harg7.read_unread, View.ld_unit_zero (S := S1024x1024) hz0, View.ld_unit_zero (S := S1x1024) hz0]

/-! ## What the accumulator holds after each point -/

/-- The accumulator after the body at position `n`: at the first slab of a run the product of the point's two input
    blocks on top of zeros, afterwards on top of what the point before left. -/
def accOf (c : Dev nD) : (n : ℕ) → n < cfg1.N → Vec F S1024x1024 .f32
  | 0, hn => k1_pay2 (k1_pay1 (F := F)) (iblk V c 0 ⟨0, hn⟩) (iblk V c 1 ⟨0, hn⟩)
  | n + 1, hn =>
    if (n + 1) % 4 = 0 then k1_pay2 (k1_pay1 (F := F)) (iblk V c 0 ⟨n + 1, hn⟩) (iblk V c 1 ⟨n + 1, hn⟩)
    else k1_pay2 (accOf c n (Nat.lt_of_succ_lt hn)) (iblk V c 0 ⟨n + 1, hn⟩) (iblk V c 1 ⟨n + 1, hn⟩)

theorem accOf_first (c : Dev nD) (t : Fin cfg1.N) (h : t.val % 4 = 0) :
    accOf V c t.val t.isLt = k1_pay2 (k1_pay1 (F := F)) (iblk V c 0 t) (iblk V c 1 t) := by
  obtain ⟨n, hn⟩ := t
  cases n with
  | zero => rfl
  | succ n => exact if_pos h

theorem accOf_next (c : Dev nD) (t : Fin cfg1.N) (h : ¬t.val % 4 = 0) :
    accOf V c t.val t.isLt = k1_pay2 (accOf V c (t.val - 1) (Nat.lt_of_le_of_lt (Nat.sub_le _ _) t.isLt)) (iblk V c 0 t) (iblk V c 1 t) := by
  obtain ⟨n, hn⟩ := t
  cases n with
  | zero => exact absurd (Nat.zero_mod _) h
  | succ n => exact if_neg h

/-- The region invariant before position `n`: the class's before the first point, afterwards the accumulator at what
    the point before left, the other scoped buffers and the generator register at anything. -/
def PhiS (c : Dev nD) : (n : ℕ) → n ≤ cfg1.N → sProp 𝕄
  | 0, _ => Pipeline.ΦA spec1 c
  | n + 1, hn => iprop((owns (c : Thread nD τ) scM fullShare (accOf V c n hn) ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop((owns (c : Thread nD τ) scM fullShare (accOf V c n hn) ∗ others c) ∗ (∃ r, prngReg c r)) := rfl
theorem PhiS_pos (c : Dev nD) (n : ℕ) (h : n ≤ cfg1.N) (hz : n ≠ 0) :
    PhiS V c n h = iprop((owns (c : Thread nD τ) scM fullShare (accOf V c (n - 1) (by omega)) ∗ others c) ∗ (∃ r, prngReg c r)) := by
  cases n with
  | zero => exact absurd rfl hz
  | succ n => rfl

/-! ## The proof data -/

/-- After the body at point `t`: each input window's buffer at its block; the output window's at the accumulated block
    plus the bias row, clamped at zero (read only at the last slab of a run, where it is stored); the invariant
    `PhiS`; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay3 (accOf V c t.val t.isLt) (iblk V c 2 t)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = k1_pay3 (accOf V c t.val t.isLt) (iblk V c 2 t) := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The closed forms of the two conditions say which case the point is in; the invariant hands the
    body the accumulator at what the point before left (at anything before the first point) and takes it back at this
    point's contents; away from the last slab the output window's buffer is handed back as found. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg1.N = 128 from N_1)
  rw [show (dat V c).leavesExact 0 t = owns (c : Thread nD τ) (st1_0 t) fullShare ((dat V c).after 0 t) from rfl, after_0,
    show (dat V c).leavesExact 1 t = owns (c : Thread nD τ) (st1_1 t) fullShare ((dat V c).after 1 t) from rfl, after_1,
    show (dat V c).leavesExact 2 t = owns (c : Thread nD τ) (st1_2 t) fullShare ((dat V c).after 2 t) from rfl, after_2]
  by_cases hF : t.val % 4 = 0
  · have hL : ¬t.val % 4 = 3 := by omega
    rw [Dat.leavesExact_idle (dat V c) 3 t (idle3 t (fun h => hL ((hcondL t).mp h))) (noFlush3 t (fun h => hL ((hcondL t).mp h)))]
    rw [accOf_first V c t hF]
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, H3⟩
      iapply (sound_A c Set.univ (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (Memref.isWhole_whole _) ((hcondF t).mpr hF) (fun h => hL ((hcondL t).mp h)) (iblk V c 0 t) (iblk V c 1 t) _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨HS, Hrest⟩, Hg⟩, Ho, ⟨%d0, H0⟩, ⟨%d1, H1⟩, ⟨%d2, H2⟩, H3⟩
      iapply (sound_A c Set.univ (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (Memref.isWhole_whole _) ((hcondF t).mpr hF) (fun h => hL ((hcondL t).mp h)) (iblk V c 0 t) (iblk V c 1 t) _)
      isplitl [H0]; · iexact H0
      isplitl [H1]; · iexact H1
      isplitl [HS]; · iexists _; iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
  · have hz : t.val ≠ 0 := fun h => hF (by rw [h])
    rw [accOf_next V c t hF]
    by_cases hL : t.val % 4 = 3
    · rw [show (dat V c).leavesExact 3 t = owns (c : Thread nD τ) (st1_3 t) fullShare ((dat V c).after 3 t) from by
      unfold Dat.leavesExact; rw [live3 t ((hcondL t).mpr hL)], after_3]
      rw [accOf_next V c t hF]
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩⟩
      iapply (sound_C c Set.univ (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (Memref.isWhole_whole _) (fun h => hF ((hcondF t).mp h)) ((hcondL t).mpr hL) (iblk V c 0 t) (iblk V c 1 t) (iblk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · rw [Dat.leavesExact_idle (dat V c) 3 t (idle3 t (fun h => hL ((hcondL t).mp h))) (noFlush3 t (fun h => hL ((hcondL t).mp h)))]
      rw [PhiS_castSucc V c t, PhiS_pos V c _ _ hz]
      iintro ⟨⟨⟨HS, Hrest⟩, Hg⟩, Ho, ⟨%d0, H0⟩, ⟨%d1, H1⟩, ⟨%d2, H2⟩, H3⟩
      iapply (sound_B c Set.univ (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (Memref.isWhole_whole _) (fun h => hF ((hcondF t).mp h)) (fun h => hL ((hcondL t).mp h)) (iblk V c 0 t) (iblk V c 1 t) _ _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point; -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- after the last point the invariant gives it back, the accumulator's contents forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA_eq]
  iintro ⟨⟨HS, Hrest⟩, Hg⟩
  isplitl [HS Hrest]
  · isplitl [HS]; · iexists _; iexact HS
    iexact Hrest
  iexact Hg

end Cert.Kernel.Layer1

end
-- ==== Proof.KernelLayer2.lean ====
import proofs.«106102_j67216238182776_1_alg».proof.Proof.Gen.Kernel.Launch
import proofs.«106102_j67216238182776_1_alg».proof.Proof.Gen.Kernel.Skeleton
import proofs.«106102_j67216238182776_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! # One layer of the network as a pipelined region

Region 2 multiplies a row block of its first operand by a row block of its second along their shared second axis,
one 1024-wide slab of that axis per grid point, adding each slab's product into a scratch accumulator that is zeroed
at the first slab; at the last slab the accumulated block plus the bias row is stored into the
output window. This module states what the scratch and the output window hold after each grid point and proves that the
body does that at every point, which is the region's half of the frame. -/

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at grid point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, whether or not it was fetched there: an unfetched
    window's block index has not moved. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the grid -/

/-- The accumulator is zeroed where the contraction coordinate is zero, -/
abbrev condF (i : grid2.Coords) : Prop := (Scalar.cmpi .ne (Scalar.extui (Scalar.cmpi .eq (BitVec.ofNat 32 (i 2).val) 0#32)) 0#32) = 1#1
theorem hcondF : ∀ t : Fin cfg2.N, condF (grid2.coords t) ↔ t.val % 4 = 0 :=
  (by decide +kernel : ∀ t : Fin grid2.N, condF (grid2.coords t) ↔ t.val % 4 = 0)
/-- and the output block is stored where it is the last. -/
abbrev condL (i : grid2.Coords) : Prop := k2_cond2 i = 1#1
theorem hcondL : ∀ t : Fin cfg2.N, condL (grid2.coords t) ↔ t.val % 4 = 3 :=
  (by decide +kernel : ∀ t : Fin grid2.N, condL (grid2.coords t) ↔ t.val % 4 = 3)

/-- Away from the last slab the output window is idle and not written back; at the last slab it is live. -/
theorem idle3 : ∀ t : Fin cfg2.N, ¬condL (grid2.coords t) → cfg2.idle 3 (grid2.coords t) = true := by decide +kernel
theorem noFlush3 : ∀ t : Fin cfg2.N, ¬condL (grid2.coords t) → (cfg2.win 3).flush t = false := by decide +kernel
theorem live3 : ∀ t : Fin cfg2.N, condL (grid2.coords t) → cfg2.idle 3 (grid2.coords t) = false := by decide +kernel

/-! ## The accumulator -/

/-- The scratch accumulator, a whole scoped buffer of the kernel's own. -/
abbrev scM : Memref sig .tc .vmem S1024x1024 .f32 := Memref.whole cc2_scratch0

/-- The scoped buffers that are neither staged nor the accumulator, unopened. -/
abbrev others (c : Dev nD) : sProp 𝕄 :=
  Pipeline.scopedRestBut (Ix := Unit) (Name := ℕ) (U := UR sig nD τ) (Lvl := ℕ) (Val := Elt F) spec2 c [cc2_scratch0]

/-- The class invariant with the accumulator split out of the scoped rest. -/
theorem PhiA_eq (c : Dev nD) :
    (Pipeline.ΦA spec2 c : sProp 𝕄)
      = iprop(((∃ d, owns (c : Thread nD τ) scM fullShare d) ∗ others c) ∗ (∃ r, prngReg c r)) := by
  unfold Pipeline.ΦA
  rw [Pipeline.scopedRest_split_of_list spec2 c [cc2_scratch0] (by decide) (by decide), bigSepL_singleton]
  simp only [scM, owns_whole]; rfl

/-! ## A whole-buffer store covers the buffer -/

theorem hz0 : (![0, 0] : Fin 2 → Nat) = fun _ => 0 := by funext a; fin_cases a <;> rfl
abbrev rW : Rect S1024x1024 := Rect.unit (s := S1024x1024) ![0, 0] S1024x1024.size inb_S1024x1024_S1024x1024_0_0
theorem cover1 {e : EltTy} (p : rW.shape.Idx → Elt F e) (y : S1024x1024.Idx) :
    ∃ pc ∈ ([⟨rW, p⟩] : List (View.Piece (Elt F) S1024x1024 e)), y ∈ pc.1.set :=
  ⟨⟨rW, p⟩, List.mem_singleton_self _, View.mem_set_unit_zero hz0 inb_S1024x1024_S1024x1024_0_0 y⟩
theorem cover2 {e : EltTy} (p q : rW.shape.Idx → Elt F e) (y : S1024x1024.Idx) :
    ∃ pc ∈ ([⟨rW, p⟩, ⟨rW, q⟩] : List (View.Piece (Elt F) S1024x1024 e)), y ∈ pc.1.set :=
  ⟨⟨rW, p⟩, List.mem_cons_self, View.mem_set_unit_zero hz0 inb_S1024x1024_S1024x1024_0_0 y⟩

/-! ## The body, case by case -/

set_option maxHeartbeats 1000000 in
/-- The body at a point that is the first of its run along the contraction axis: the scratch, at anything, is zeroed and
    takes the product of the two input blocks on top; the bias and the output buffer are not touched. -/
theorem sound_A (c : Dev nD) (E : Set ℕ) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hF : condF i) (hL : ¬condL i)
    (x0 : Vec F S1024x1024 .bf16) (x1 : Vec F S1024x1024 .bf16) (K : PUnit → sProp 𝕄) :
    iprop(owns (c : Thread nD τ) arg3 fullShare x0 ∗ owns (c : Thread nD τ) arg4 fullShare x1
        ∗ (∃ d, owns (c : Thread nD τ) arg7 fullShare d)
        ∗ (iprop(owns (c : Thread nD τ) arg3 fullShare x0 ∗ owns (c : Thread nD τ) arg4 fullShare x1
            ∗ owns (c : Thread nD τ) arg7 fullShare (k2_pay2 (k2_pay1 (F := F)) x0 x1)) -∗ K ⟨⟩))
      ⊢ wp frame (wpE (defs₀ (F := F)) Variants.none c none) E (cc2__matmul_bias_relu_kernel i arg3 harg3 arg4 harg4 arg5 harg5 arg6 harg6 arg7 harg7) K := by
  simp only [cc2__matmul_bias_relu_kernel_eq_skeleton]; unfold cc2__matmul_bias_relu_kernel_skel
  unfold owns
  iintro ⟨⟨%f0, %hf0, H0⟩, ⟨%f1, %hf1, H1⟩, ⟨%ds, %fs, -, HS⟩, Hk⟩
  obtain rfl := harg3.eq_unread hf0; obtain rfl := harg4.eq_unread hf1
  sl_exec (disch := first | exact hF | exact hL)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover2 _ _), View.canon_cons_unit_zero hz0, View.readCov_unit_zero _ hz0]
  simp only [View.readAt_eq_ld, harg3.read_unread, harg4.read_unread, View.ld_unit_zero (S := S1024x1024) hz0]

set_option maxHeartbeats 1000000 in
/-- The body at a point that is neither the first nor the last of its run along the contraction axis: the scratch, at `xs`,
    takes the product of the two input blocks on top; the bias and the output buffer are not touched. -/
theorem sound_B (c : Dev nD) (E : Set ℕ) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hF : ¬condF i) (hL : ¬condL i)
    (x0 : Vec F S1024x1024 .bf16) (x1 : Vec F S1024x1024 .bf16) (xs : Vec F S1024x1024 .f32) (K : PUnit → sProp 𝕄) :
    iprop(owns (c : Thread nD τ) arg3 fullShare x0 ∗ owns (c : Thread nD τ) arg4 fullShare x1
        ∗ owns (c : Thread nD τ) arg7 fullShare xs
        ∗ (iprop(owns (c : Thread nD τ) arg3 fullShare x0 ∗ owns (c : Thread nD τ) arg4 fullShare x1
            ∗ owns (c : Thread nD τ) arg7 fullShare (k2_pay2 xs x0 x1)) -∗ K ⟨⟩))
      ⊢ wp frame (wpE (defs₀ (F := F)) Variants.none c none) E (cc2__matmul_bias_relu_kernel i arg3 harg3 arg4 harg4 arg5 harg5 arg6 harg6 arg7 harg7) K := by
  simp only [cc2__matmul_bias_relu_kernel_eq_skeleton]; unfold cc2__matmul_bias_relu_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hF | exact hL)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover1 _), View.canon_unit_zero hz0]
  simp only [View.readAt_eq_ld, harg3.read_unread, harg4.read_unread, harg7.read_unread, View.ld_unit_zero (S := S1024x1024) hz0]

set_option maxHeartbeats 1000000 in
/-- The body at the last point of a run along the contraction axis: the scratch at `xs` takes the product of the two
    input blocks on top, and the output buffer is stored whole with that sum plus the bias row. -/
theorem sound_C (c : Dev nD) (E : Set ℕ) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hF : ¬condF i) (hL : condL i)
    (x0 : Vec F S1024x1024 .bf16) (x1 : Vec F S1024x1024 .bf16) (x2 : Vec F S1x1024 .f32) (xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k2_pay3 (k2_pay2 xs x0 x1) x2) ∗ owns (c : Thread nD τ) arg7 fullShare (k2_pay2 xs x0 x1)) -∗ K ⟨⟩))
      ⊢ wp frame (wpE (defs₀ (F := F)) Variants.none c none) E (cc2__matmul_bias_relu_kernel i arg3 harg3 arg4 harg4 arg5 harg5 arg6 harg6 arg7 harg7) K := by
  simp only [cc2__matmul_bias_relu_kernel_eq_skeleton]; unfold cc2__matmul_bias_relu_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hF | exact hL)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (cover1 _), View.canon_unit_zero hz0, View.readCov_unit_zero _ hz0]
    simp only [View.readAt_eq_ld, harg3.read_unread, harg4.read_unread, harg5.read_unread, harg7.read_unread, View.ld_unit_zero (S := S1024x1024) hz0, View.ld_unit_zero (S := S1x1024) hz0]
  · iexists _; isplitr
    swap; · iexact HS
    ipureintro
    sl_unfold_words
    rw [View.read_writes_eq_canon _ _ _ (cover1 _), View.canon_unit_zero hz0]
    simp only [View.readAt_eq_ld, harg3.read_unread, harg4.read_unread, harg7.read_unread, View.ld_unit_zero (S := S1024x1024) hz0, View.ld_unit_zero (S := S1x1024) hz0]

/-! ## What the accumulator holds after each point -/

/-- The accumulator after the body at position `n`: at the first slab of a run the product of the point's two input
    blocks on top of zeros, afterwards on top of what the point before left. -/
def accOf (c : Dev nD) : (n : ℕ) → n < cfg2.N → Vec F S1024x1024 .f32
  | 0, hn => k2_pay2 (k2_pay1 (F := F)) (iblk V c 0 ⟨0, hn⟩) (iblk V c 1 ⟨0, hn⟩)
  | n + 1, hn =>
    if (n + 1) % 4 = 0 then k2_pay2 (k2_pay1 (F := F)) (iblk V c 0 ⟨n + 1, hn⟩) (iblk V c 1 ⟨n + 1, hn⟩)
    else k2_pay2 (accOf c n (Nat.lt_of_succ_lt hn)) (iblk V c 0 ⟨n + 1, hn⟩) (iblk V c 1 ⟨n + 1, hn⟩)

theorem accOf_first (c : Dev nD) (t : Fin cfg2.N) (h : t.val % 4 = 0) :
    accOf V c t.val t.isLt = k2_pay2 (k2_pay1 (F := F)) (iblk V c 0 t) (iblk V c 1 t) := by
  obtain ⟨n, hn⟩ := t
  cases n with
  | zero => rfl
  | succ n => exact if_pos h

theorem accOf_next (c : Dev nD) (t : Fin cfg2.N) (h : ¬t.val % 4 = 0) :
    accOf V c t.val t.isLt = k2_pay2 (accOf V c (t.val - 1) (Nat.lt_of_le_of_lt (Nat.sub_le _ _) t.isLt)) (iblk V c 0 t) (iblk V c 1 t) := by
  obtain ⟨n, hn⟩ := t
  cases n with
  | zero => exact absurd (Nat.zero_mod _) h
  | succ n => exact if_neg h

/-- The region invariant before position `n`: the class's before the first point, afterwards the accumulator at what
    the point before left, the other scoped buffers and the generator register at anything. -/
def PhiS (c : Dev nD) : (n : ℕ) → n ≤ cfg2.N → sProp 𝕄
  | 0, _ => Pipeline.ΦA spec2 c
  | n + 1, hn => iprop((owns (c : Thread nD τ) scM fullShare (accOf V c n hn) ∗ others c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop((owns (c : Thread nD τ) scM fullShare (accOf V c n hn) ∗ others c) ∗ (∃ r, prngReg c r)) := rfl
theorem PhiS_pos (c : Dev nD) (n : ℕ) (h : n ≤ cfg2.N) (hz : n ≠ 0) :
    PhiS V c n h = iprop((owns (c : Thread nD τ) scM fullShare (accOf V c (n - 1) (by omega)) ∗ others c) ∗ (∃ r, prngReg c r)) := by
  cases n with
  | zero => exact absurd rfl hz
  | succ n => rfl

/-! ## The proof data -/

/-- After the body at point `t`: each input window's buffer at its block; the output window's at the accumulated block
    plus the bias row (read only at the last slab of a run, where it is stored); the invariant
    `PhiS`; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay3 (accOf V c t.val t.isLt) (iblk V c 2 t)
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = k2_pay3 (accOf V c t.val t.isLt) (iblk V c 2 t) := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The closed forms of the two conditions say which case the point is in; the invariant hands the
    body the accumulator at what the point before left (at anything before the first point) and takes it back at this
    point's contents; away from the last slab the output window's buffer is handed back as found. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg2.N = 32 from N_2)
  rw [show (dat V c).leavesExact 0 t = owns (c : Thread nD τ) (st2_0 t) fullShare ((dat V c).after 0 t) from rfl, after_0,
    show (dat V c).leavesExact 1 t = owns (c : Thread nD τ) (st2_1 t) fullShare ((dat V c).after 1 t) from rfl, after_1,
    show (dat V c).leavesExact 2 t = owns (c : Thread nD τ) (st2_2 t) fullShare ((dat V c).after 2 t) from rfl, after_2]
  by_cases hF : t.val % 4 = 0
  · have hL : ¬t.val % 4 = 3 := by omega
    rw [Dat.leavesExact_idle (dat V c) 3 t (idle3 t (fun h => hL ((hcondL t).mp h))) (noFlush3 t (fun h => hL ((hcondL t).mp h)))]
    rw [accOf_first V c t hF]
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, H3⟩
      iapply (sound_A c Set.univ (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (Memref.isWhole_whole _) ((hcondF t).mpr hF) (fun h => hL ((hcondL t).mp h)) (iblk V c 0 t) (iblk V c 1 t) _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨HS, Hrest⟩, Hg⟩, Ho, ⟨%d0, H0⟩, ⟨%d1, H1⟩, ⟨%d2, H2⟩, H3⟩
      iapply (sound_A c Set.univ (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (Memref.isWhole_whole _) ((hcondF t).mpr hF) (fun h => hL ((hcondL t).mp h)) (iblk V c 0 t) (iblk V c 1 t) _)
      isplitl [H0]; · iexact H0
      isplitl [H1]; · iexact H1
      isplitl [HS]; · iexists _; iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
  · have hz : t.val ≠ 0 := fun h => hF (by rw [h])
    rw [accOf_next V c t hF]
    by_cases hL : t.val % 4 = 3
    · rw [show (dat V c).leavesExact 3 t = owns (c : Thread nD τ) (st2_3 t) fullShare ((dat V c).after 3 t) from by
      unfold Dat.leavesExact; rw [live3 t ((hcondL t).mpr hL)], after_3]
      rw [accOf_next V c t hF]
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩⟩
      iapply (sound_C c Set.univ (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (Memref.isWhole_whole _) (fun h => hF ((hcondF t).mp h)) ((hcondL t).mpr hL) (iblk V c 0 t) (iblk V c 1 t) (iblk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · rw [Dat.leavesExact_idle (dat V c) 3 t (idle3 t (fun h => hL ((hcondL t).mp h))) (noFlush3 t (fun h => hL ((hcondL t).mp h)))]
      rw [PhiS_castSucc V c t, PhiS_pos V c _ _ hz]
      iintro ⟨⟨⟨HS, Hrest⟩, Hg⟩, Ho, ⟨%d0, H0⟩, ⟨%d1, H1⟩, ⟨%d2, H2⟩, H3⟩
      iapply (sound_B c Set.univ (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (Memref.isWhole_whole _) (fun h => hF ((hcondF t).mp h)) (fun h => hL ((hcondL t).mp h)) (iblk V c 0 t) (iblk V c 1 t) _ _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3

/-- The body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point; -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- after the last point the invariant gives it back, the accumulator's contents forgotten. -/
theorem hout (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 32 := N_2; omega), PhiA_eq]
  iintro ⟨⟨HS, Hrest⟩, Hg⟩
  isplitl [HS Hrest]
  · isplitl [HS]; · iexists _; iexact HS
    iexact Hrest
  iexact Hg

end Cert.Kernel.Layer2

end
-- ==== Proof.KernelRun.lean ====
import proofs.«106102_j67216238182776_1_alg».proof.Proof.KernelLayer0
import proofs.«106102_j67216238182776_1_alg».proof.Proof.KernelLayer1
import proofs.«106102_j67216238182776_1_alg».proof.Proof.KernelLayer2
import proofs.«106102_j67216238182776_1_alg».proof.Proof.Gen.Kernel.Regions

set_option maxRecDepth 16384

noncomputable section

/-! # The whole program: a host stretch, then the three layers' regions in order

The buffer contents at each boundary are a fold from the launch memory: the host stretch's results, then after each
region its output array at what its write-backs leave and every other buffer as it was. No host operation and no
region writes an argument, so each argument reads back to the launch memory; the last layer's output array is the
program's result. -/

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After the host stretch (the first region's entry). -/
abbrev W1 : Dev nD → Valuation τ sig (Elt F) := fun c => Gen.V1 m c
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (Layer0.dat (V1 m) c).arrAt w cfg0.N
theorem W2_arr (c : Dev nD) (w : Fin cfg0.W) :
    W2 m c (Proc.devRef .tc (Pipeline.arrRef spec0 w)) = (Layer0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Layer0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (Layer1.dat (V2 m) c).arrAt w cfg1.N
theorem W3_arr (c : Dev nD) (w : Fin cfg1.W) :
    W3 m c (Proc.devRef .tc (Pipeline.arrRef spec1 w)) = (Layer1.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Layer1.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m c) fun w => (Layer2.dat (V3 m) c).arrAt w cfg2.N
theorem W4_arr (c : Dev nD) (w : Fin cfg2.W) :
    W4 m c (Proc.devRef .tc (Pipeline.arrRef spec2 w)) = (Layer2.dat (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (Layer2.dat (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  (W4_of_ne m c main_arg0 (by decide)).trans <| (W3_of_ne m c main_arg0 (by decide)).trans <| (W2_of_ne m c main_arg0 (by decide)).trans <|
    (Gen.V1_of m c main_arg0 (by decide)).trans rfl
theorem W4_main_arg1 (c : Dev nD) : W4 m c (Proc.devRef .tc main_arg1) = m ((c : Thread nD τ).loc main_arg1) :=
  (W4_of_ne m c main_arg1 (by decide)).trans <| (W3_of_ne m c main_arg1 (by decide)).trans <| (W2_of_ne m c main_arg1 (by decide)).trans <|
    (Gen.V1_of m c main_arg1 (by decide)).trans rfl
theorem W4_main_arg2 (c : Dev nD) : W4 m c (Proc.devRef .tc main_arg2) = m ((c : Thread nD τ).loc main_arg2) :=
  (W4_of_ne m c main_arg2 (by decide)).trans <| (W3_of_ne m c main_arg2 (by decide)).trans <| (W2_of_ne m c main_arg2 (by decide)).trans <|
    (Gen.V1_of m c main_arg2 (by decide)).trans rfl
theorem W4_main_arg3 (c : Dev nD) : W4 m c (Proc.devRef .tc main_arg3) = m ((c : Thread nD τ).loc main_arg3) :=
  (W4_of_ne m c main_arg3 (by decide)).trans <| (W3_of_ne m c main_arg3 (by decide)).trans <| (W2_of_ne m c main_arg3 (by decide)).trans <|
    (Gen.V1_of m c main_arg3 (by decide)).trans rfl
theorem W4_main_arg4 (c : Dev nD) : W4 m c (Proc.devRef .tc main_arg4) = m ((c : Thread nD τ).loc main_arg4) :=
  (W4_of_ne m c main_arg4 (by decide)).trans <| (W3_of_ne m c main_arg4 (by decide)).trans <| (W2_of_ne m c main_arg4 (by decide)).trans <|
    (Gen.V1_of m c main_arg4 (by decide)).trans rfl
theorem W4_main_arg5 (c : Dev nD) : W4 m c (Proc.devRef .tc main_arg5) = m ((c : Thread nD τ).loc main_arg5) :=
  (W4_of_ne m c main_arg5 (by decide)).trans <| (W3_of_ne m c main_arg5 (by decide)).trans <| (W2_of_ne m c main_arg5 (by decide)).trans <|
    (Gen.V1_of m c main_arg5 (by decide)).trans rfl
theorem W4_main_arg6 (c : Dev nD) : W4 m c (Proc.devRef .tc main_arg6) = m ((c : Thread nD τ).loc main_arg6) :=
  (W4_of_ne m c main_arg6 (by decide)).trans <| (W3_of_ne m c main_arg6 (by decide)).trans <| (W2_of_ne m c main_arg6 (by decide)).trans <|
    (Gen.V1_of m c main_arg6 (by decide)).trans rfl
theorem W4_main_arg7 (c : Dev nD) : W4 m c (Proc.devRef .tc main_arg7) = m ((c : Thread nD τ).loc main_arg7) :=
  (W4_of_ne m c main_arg7 (by decide)).trans <| (W3_of_ne m c main_arg7 (by decide)).trans <| (W2_of_ne m c main_arg7 (by decide)).trans <|
    (Gen.V1_of m c main_arg7 (by decide)).trans rfl
theorem W4_main_arg8 (c : Dev nD) : W4 m c (Proc.devRef .tc main_arg8) = m ((c : Thread nD τ).loc main_arg8) :=
  (W4_of_ne m c main_arg8 (by decide)).trans <| (W3_of_ne m c main_arg8 (by decide)).trans <| (W2_of_ne m c main_arg8 (by decide)).trans <|
    (Gen.V1_of m c main_arg8 (by decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Layer0.dat (V1 m) c
  | ⟨1, _⟩ => fun c => Layer1.dat (V2 m) c
  | ⟨2, _⟩ => fun c => Layer2.dat (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The host stretch as a segment over the unscoped references from the launch contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`; its arrays split out of
    the unscoped buffers and put back at the exit contents; the generator register and the scoped rest into the region's
    invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Layer0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (Layer0.hin (V1 m) c)
    unfold Pipeline.ΦA
    iintro ⟨Hp, -, Hr⟩
    isplitl [Hr]; · iexact Hr
    iexact Hp
  hout c := by
    rw [Pipeline.ownSems0_none]
    refine (Layer0.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`; its arrays split out of
    the unscoped buffers and put back at the exit contents; the generator register and the scoped rest into the region's
    invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Layer1.hin (V2 m) c)
    unfold Pipeline.ΦA
    iintro ⟨Hp, -, Hr⟩
    isplitl [Hr]; · iexact Hr
    iexact Hp
  hout c := by
    rw [Pipeline.ownSems0_none]
    refine (Layer1.hout (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`; its arrays split out of
    the unscoped buffers and put back at the exit contents; the generator register and the scoped rest into the region's
    invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Layer2.body_obligation (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (Layer2.hin (V3 m) c)
    unfold Pipeline.ΦA
    iintro ⟨Hp, -, Hr⟩
    isplitl [Hr]; · iexact Hr
    iexact Hp
  hout c := by
    rw [Pipeline.ownSems0_none]
    refine (Layer2.hout (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg m), .region (reg0 m), .region (reg1 m), .region (reg2 m) ]
theorem main_run (c : Dev nD) : main (F := F) c = Pipeline.Seg.run (segs m) := (main_chain c).trans (by chain_rfl)

set_option backward.isDefEq.respectTransparency.types false in
/-- From any memory with zero counters every weakly fair execution of the program terminates, nothing faulting, and every
    final state has every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c)⟩) (run_all m ρ)

/-- The run with the result named: the last layer's output array at what its write-backs leave, the arguments unchanged. -/
theorem run_result : θ_run defs (onTc (τ := τ) (main (F := F))) ⟨m, fun _ => 0, ρ⟩ (fun r => ∀ c : Dev nD,
      r.2.mem ((c.tc : Thread nD τ).loc main_v21) = (Layer2.dat (V3 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v21 (by decide))).trans (W4_arr m c 3),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c)⟩) (run_all m ρ)

end Cert.Kernel.Run

end
-- ==== Proof.KernelIdealLayer0.lean ====
import proofs.«106102_j67216238182776_1_alg».proof.Proof.Gen.KernelIdeal.Launch
import proofs.«106102_j67216238182776_1_alg».proof.Proof.Gen.KernelIdeal.Skeleton
import proofs.«106102_j67216238182776_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! # One layer of the network as a pipelined region

Region 0 multiplies a row block of its first operand by a row block of its second along their shared second axis,
one 1024-wide slab of that axis per grid point, adding each slab's product into a scratch accumulator that is zeroed
at the first slab; at the last slab the accumulated block plus the bias row, clamped at zero, is stored into the
output window. This module states what the scratch and the output window hold after each grid point and proves that the
body does that at every point, which is the region's half of the frame. -/

namespace Cert.KernelIdeal.Layer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether or not it was fetched there: an unfetched
    window's block index has not moved. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the grid -/

/-- The accumulator is zeroed where the contraction coordinate is zero, -/
abbrev condF (i : grid0.Coords) : Prop := (Scalar.cmpi .ne (Scalar.extui (Scalar.cmpi .eq (BitVec.ofNat 32 (i 2).val) 0#32)) 0#32) = 1#1
theorem hcondF : ∀ t : Fin cfg0.N, condF (grid0.coords t) ↔ t.val % 2 = 0 :=
  (by decide +kernel : ∀ t : Fin grid0.N, condF (grid0.coords t) ↔ t.val % 2 = 0)
/-- and the output block is stored where it is the last. -/
abbrev condL (i : grid0.Coords) : Prop := k0_cond2 i = 1#1
theorem hcondL : ∀ t : Fin cfg0.N, condL (grid0.coords t) ↔ t.val % 2 = 1 :=
  (by decide +kernel : ∀ t : Fin grid0.N, condL (grid0.coords t) ↔ t.val % 2 = 1)

/-- Away from the last slab the output window is idle and not written back; at the last slab it is live. -/
theorem idle3 : ∀ t : Fin cfg0.N, ¬condL (grid0.coords t) → cfg0.idle 3 (grid0.coords t) = true := by decide +kernel
theorem noFlush3 : ∀ t : Fin cfg0.N, ¬condL (grid0.coords t) → (cfg0.win 3).flush t = false := by decide +kernel
theorem live3 : ∀ t : Fin cfg0.N, condL (grid0.coords t) → cfg0.idle 3 (grid0.coords t) = false := by decide +kernel

/-! ## The accumulator -/

/-- The scratch accumulator, a whole scoped buffer of the kernel's own. -/
abbrev scM : Memref sig .tc .vmem S1024x1024 .f32 := Memref.whole cc0_scratch0

/-- The scoped buffers that are neither staged nor the accumulator, unopened. -/
abbrev others (c : Dev nD) : sProp 𝕄 :=
  Pipeline.scopedRestBut (Ix := Unit) (Name := ℕ) (U := UR sig nD τ) (Lvl := ℕ) (Val := Elt F) spec0 c [cc0_scratch0]

/-- The class invariant with the accumulator split out of the scoped rest. -/
theorem PhiA_eq (c : Dev nD) :
    (Pipeline.ΦA spec0 c : sProp 𝕄)
      = iprop(((∃ d, owns (c : Thread nD τ) scM fullShare d) ∗ others c) ∗ (∃ r, prngReg c r)) := by
  unfold Pipeline.ΦA
  rw [Pipeline.scopedRest_split_of_list spec0 c [cc0_scratch0] (by decide) (by decide), bigSepL_singleton]
  simp only [scM, owns_whole]; rfl

/-! ## A whole-buffer store covers the buffer -/

theorem hz0 : (![0, 0] : Fin 2 → Nat) = fun _ => 0 := by funext a; fin_cases a <;> rfl
abbrev rW : Rect S1024x1024 := Rect.unit (s := S1024x1024) ![0, 0] S1024x1024.size inb_S1024x1024_S1024x1024_0_0
theorem cover1 {e : EltTy} (p : rW.shape.Idx → Elt F e) (y : S1024x1024.Idx) :
    ∃ pc ∈ ([⟨rW, p⟩] : List (View.Piece (Elt F) S1024x1024 e)), y ∈ pc.1.set :=
  ⟨⟨rW, p⟩, List.mem_singleton_self _, View.mem_set_unit_zero hz0 inb_S1024x1024_S1024x1024_0_0 y⟩
theorem cover2 {e : EltTy} (p q : rW.shape.Idx → Elt F e) (y : S1024x1024.Idx) :
    ∃ pc ∈ ([⟨rW, p⟩, ⟨rW, q⟩] : List (View.Piece (Elt F) S1024x1024 e)), y ∈ pc.1.set :=
  ⟨⟨rW, p⟩, List.mem_cons_self, View.mem_set_unit_zero hz0 inb_S1024x1024_S1024x1024_0_0 y⟩

/-! ## The body, case by case -/

set_option maxHeartbeats 1000000 in
/-- The body at a point that is the first of its run along the contraction axis: the scratch, at anything, is zeroed and
    takes the product of the two input blocks on top; the bias and the output buffer are not touched. -/
theorem sound_A (c : Dev nD) (E : Set ℕ) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole)
    (hF : condF i) (hL : ¬condL i)
    (x0 : Vec F S1024x1024 .bf16) (x1 : Vec F S1024x1024 .bf16) (K : PUnit → sProp 𝕄) :
    iprop(owns (c : Thread nD τ) arg3 fullShare x0 ∗ owns (c : Thread nD τ) arg4 fullShare x1
        ∗ (∃ d, owns (c : Thread nD τ) arg7 fullShare d)
        ∗ (iprop(owns (c : Thread nD τ) arg3 fullShare x0 ∗ owns (c : Thread nD τ) arg4 fullShare x1
            ∗ owns (c : Thread nD τ) arg7 fullShare (k0_pay2 (k0_pay1 (F := F)) x0 x1)) -∗ K ⟨⟩))
      ⊢ wp frame (wpE (defs₀ (F := F)) Variants.none c none) E (cc0__matmul_bias_relu_kernel i arg3 harg3 arg4 harg4 arg5 harg5 arg6 harg6 arg7 harg7) K := by
  simp only [cc0__matmul_bias_relu_kernel_eq_skeleton]; unfold cc0__matmul_bias_relu_kernel_skel
  unfold owns
  iintro ⟨⟨%f0, %hf0, H0⟩, ⟨%f1, %hf1, H1⟩, ⟨%ds, %fs, -, HS⟩, Hk⟩
  obtain rfl := harg3.eq_unread hf0; obtain rfl := harg4.eq_unread hf1
  sl_exec (disch := first | exact hF | exact hL)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover2 _ _), View.canon_cons_unit_zero hz0, View.readCov_unit_zero _ hz0]
  simp only [View.readAt_eq_ld, harg3.read_unread, harg4.read_unread, View.ld_unit_zero (S := S1024x1024) hz0]

set_option maxHeartbeats 1000000 in
/-- The body at the last point of a run along the contraction axis: the scratch at `xs` takes the product of the two
    input blocks on top, and the output buffer is stored whole with that sum plus the bias row, clamped at zero. -/
theorem sound_C (c : Dev nD) (E : Set ℕ) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole)
    (hF : ¬condF i) (hL : condL i)
    (x0 : Vec F S1024x1024 .bf16) (x1 : Vec F S1024x1024 .bf16) (x2 : Vec F S1x1024 .f32) (xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 xs x0 x1) x2) ∗ owns (c : Thread nD τ) arg7 fullShare (k0_pay2 xs x0 x1)) -∗ K ⟨⟩))
      ⊢ wp frame (wpE (defs₀ (F := F)) Variants.none c none) E (cc0__matmul_bias_relu_kernel i arg3 harg3 arg4 harg4 arg5 harg5 arg6 harg6 arg7 harg7) K := by
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hF | exact hL)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (cover1 _), View.canon_unit_zero hz0, View.readCov_unit_zero _ hz0]
    simp only [View.readAt_eq_ld, harg3.read_unread, harg4.read_unread, harg5.read_unread, harg7.read_unread, View.ld_unit_zero (S := S1024x1024) hz0, View.ld_unit_zero (S := S1x1024) hz0]
  · iexists _; isplitr
    swap; · iexact HS
    ipureintro
    sl_unfold_words
    rw [View.read_writes_eq_canon _ _ _ (cover1 _), View.canon_unit_zero hz0]
    simp only [View.readAt_eq_ld, harg3.read_unread, harg4.read_unread, harg7.read_unread, View.ld_unit_zero (S := S1024x1024) hz0, View.ld_unit_zero (S := S1x1024) hz0]

/-! ## What the accumulator holds after each point -/

/-- The accumulator after the body at position `n`: at the first slab of a run the product of the point's two input
    blocks on top of zeros, afterwards on top of what the point before left. -/
def accOf (c : Dev nD) : (n : ℕ) → n < cfg0.N → Vec F S1024x1024 .f32
  | 0, hn => k0_pay2 (k0_pay1 (F := F)) (iblk V c 0 ⟨0, hn⟩) (iblk V c 1 ⟨0, hn⟩)
  | n + 1, hn =>
    if (n + 1) % 2 = 0 then k0_pay2 (k0_pay1 (F := F)) (iblk V c 0 ⟨n + 1, hn⟩) (iblk V c 1 ⟨n + 1, hn⟩)
    else k0_pay2 (accOf c n (Nat.lt_of_succ_lt hn)) (iblk V c 0 ⟨n + 1, hn⟩) (iblk V c 1 ⟨n + 1, hn⟩)

theorem accOf_first (c : Dev nD) (t : Fin cfg0.N) (h : t.val % 2 = 0) :
    accOf V c t.val t.isLt = k0_pay2 (k0_pay1 (F := F)) (iblk V c 0 t) (iblk V c 1 t) := by
  obtain ⟨n, hn⟩ := t
  cases n with
  | zero => rfl
  | succ n => exact if_pos h

theorem accOf_next (c : Dev nD) (t : Fin cfg0.N) (h : ¬t.val % 2 = 0) :
    accOf V c t.val t.isLt = k0_pay2 (accOf V c (t.val - 1) (Nat.lt_of_le_of_lt (Nat.sub_le _ _) t.isLt)) (iblk V c 0 t) (iblk V c 1 t) := by
  obtain ⟨n, hn⟩ := t
  cases n with
  | zero => exact absurd (Nat.zero_mod _) h
  | succ n => exact if_neg h

/-- The region invariant before position `n`: the class's before the first point, afterwards the accumulator at what
    the point before left, the other scoped buffers and the generator register at anything. -/
def PhiS (c : Dev nD) : (n : ℕ) → n ≤ cfg0.N → sProp 𝕄
  | 0, _ => Pipeline.ΦA spec0 c
  | n + 1, hn => iprop((owns (c : Thread nD τ) scM fullShare (accOf V c n hn) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM fullShare (accOf V c n hn) ∗ others c) ∗ (∃ r, prngReg c r)) := rfl
theorem PhiS_pos (c : Dev nD) (n : ℕ) (h : n ≤ cfg0.N) (hz : n ≠ 0) :
    PhiS V c n h = iprop((owns (c : Thread nD τ) scM fullShare (accOf V c (n - 1) (by omega)) ∗ others c) ∗ (∃ r, prngReg c r)) := by
  cases n with
  | zero => exact absurd rfl hz
  | succ n => rfl

/-! ## The proof data -/

/-- After the body at point `t`: each input window's buffer at its block; the output window's at the accumulated block
    plus the bias row, clamped at zero (read only at the last slab of a run, where it is stored); the invariant
    `PhiS`; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (accOf V c t.val t.isLt) (iblk V c 2 t)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = k0_pay3 (accOf V c t.val t.isLt) (iblk V c 2 t) := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The closed forms of the two conditions say which case the point is in; the invariant hands the
    body the accumulator at what the point before left (at anything before the first point) and takes it back at this
    point's contents; away from the last slab the output window's buffer is handed back as found. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (st0_0 t) fullShare ((dat V c).after 0 t) from rfl, after_0,
    show (dat V c).leavesExact 1 t = owns (c : Thread nD τ) (st0_1 t) fullShare ((dat V c).after 1 t) from rfl, after_1,
    show (dat V c).leavesExact 2 t = owns (c : Thread nD τ) (st0_2 t) fullShare ((dat V c).after 2 t) from rfl, after_2]
  by_cases hF : t.val % 2 = 0
  · have hL : ¬t.val % 2 = 1 := by omega
    rw [Dat.leavesExact_idle (dat V c) 3 t (idle3 t (fun h => hL ((hcondL t).mp h))) (noFlush3 t (fun h => hL ((hcondL t).mp h)))]
    rw [accOf_first V c t hF]
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, H3⟩
      iapply (sound_A c Set.univ (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (Memref.isWhole_whole _) ((hcondF t).mpr hF) (fun h => hL ((hcondL t).mp h)) (iblk V c 0 t) (iblk V c 1 t) _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨HS, Hrest⟩, Hg⟩, Ho, ⟨%d0, H0⟩, ⟨%d1, H1⟩, ⟨%d2, H2⟩, H3⟩
      iapply (sound_A c Set.univ (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (Memref.isWhole_whole _) ((hcondF t).mpr hF) (fun h => hL ((hcondL t).mp h)) (iblk V c 0 t) (iblk V c 1 t) _)
      isplitl [H0]; · iexact H0
      isplitl [H1]; · iexact H1
      isplitl [HS]; · iexists _; iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
  · have hz : t.val ≠ 0 := fun h => hF (by rw [h])
    rw [accOf_next V c t hF]
    by_cases hL : t.val % 2 = 1
    · rw [show (dat V c).leavesExact 3 t = owns (c : Thread nD τ) (st0_3 t) fullShare ((dat V c).after 3 t) from by
      unfold Dat.leavesExact; rw [live3 t ((hcondL t).mpr hL)], after_3]
      rw [accOf_next V c t hF]
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩⟩
      iapply (sound_C c Set.univ (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (Memref.isWhole_whole _) (fun h => hF ((hcondF t).mp h)) ((hcondL t).mpr hL) (iblk V c 0 t) (iblk V c 1 t) (iblk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · exfalso; omega

/-- The body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point; -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- after the last point the invariant gives it back, the accumulator's contents forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA_eq]
  iintro ⟨⟨HS, Hrest⟩, Hg⟩
  isplitl [HS Hrest]
  · isplitl [HS]; · iexists _; iexact HS
    iexact Hrest
  iexact Hg

end Cert.KernelIdeal.Layer0

end
-- ==== Proof.KernelIdealLayer1.lean ====
import proofs.«106102_j67216238182776_1_alg».proof.Proof.Gen.KernelIdeal.Launch
import proofs.«106102_j67216238182776_1_alg».proof.Proof.Gen.KernelIdeal.Skeleton
import proofs.«106102_j67216238182776_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! # One layer of the network as a pipelined region

Region 1 multiplies a row block of its first operand by a row block of its second along their shared second axis,
one 1024-wide slab of that axis per grid point, adding each slab's product into a scratch accumulator that is zeroed
at the first slab; at the last slab the accumulated block plus the bias row, clamped at zero, is stored into the
output window. This module states what the scratch and the output window hold after each grid point and proves that the
body does that at every point, which is the region's half of the frame. -/

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether or not it was fetched there: an unfetched
    window's block index has not moved. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the grid -/

/-- The accumulator is zeroed where the contraction coordinate is zero, -/
abbrev condF (i : grid1.Coords) : Prop := (Scalar.cmpi .ne (Scalar.extui (Scalar.cmpi .eq (BitVec.ofNat 32 (i 2).val) 0#32)) 0#32) = 1#1
theorem hcondF : ∀ t : Fin cfg1.N, condF (grid1.coords t) ↔ t.val % 4 = 0 :=
  (by decide +kernel : ∀ t : Fin grid1.N, condF (grid1.coords t) ↔ t.val % 4 = 0)
/-- and the output block is stored where it is the last. -/
abbrev condL (i : grid1.Coords) : Prop := k1_cond2 i = 1#1
theorem hcondL : ∀ t : Fin cfg1.N, condL (grid1.coords t) ↔ t.val % 4 = 3 :=
  (by decide +kernel : ∀ t : Fin grid1.N, condL (grid1.coords t) ↔ t.val % 4 = 3)

/-- Away from the last slab the output window is idle and not written back; at the last slab it is live. -/
theorem idle3 : ∀ t : Fin cfg1.N, ¬condL (grid1.coords t) → cfg1.idle 3 (grid1.coords t) = true := by decide +kernel
theorem noFlush3 : ∀ t : Fin cfg1.N, ¬condL (grid1.coords t) → (cfg1.win 3).flush t = false := by decide +kernel
theorem live3 : ∀ t : Fin cfg1.N, condL (grid1.coords t) → cfg1.idle 3 (grid1.coords t) = false := by decide +kernel

/-! ## The accumulator -/

/-- The scratch accumulator, a whole scoped buffer of the kernel's own. -/
abbrev scM : Memref sig .tc .vmem S1024x1024 .f32 := Memref.whole cc1_scratch0

/-- The scoped buffers that are neither staged nor the accumulator, unopened. -/
abbrev others (c : Dev nD) : sProp 𝕄 :=
  Pipeline.scopedRestBut (Ix := Unit) (Name := ℕ) (U := UR sig nD τ) (Lvl := ℕ) (Val := Elt F) spec1 c [cc1_scratch0]

/-- The class invariant with the accumulator split out of the scoped rest. -/
theorem PhiA_eq (c : Dev nD) :
    (Pipeline.ΦA spec1 c : sProp 𝕄)
      = iprop(((∃ d, owns (c : Thread nD τ) scM fullShare d) ∗ others c) ∗ (∃ r, prngReg c r)) := by
  unfold Pipeline.ΦA
  rw [Pipeline.scopedRest_split_of_list spec1 c [cc1_scratch0] (by decide) (by decide), bigSepL_singleton]
  simp only [scM, owns_whole]; rfl

/-! ## A whole-buffer store covers the buffer -/

theorem hz0 : (![0, 0] : Fin 2 → Nat) = fun _ => 0 := by funext a; fin_cases a <;> rfl
abbrev rW : Rect S1024x1024 := Rect.unit (s := S1024x1024) ![0, 0] S1024x1024.size inb_S1024x1024_S1024x1024_0_0
theorem cover1 {e : EltTy} (p : rW.shape.Idx → Elt F e) (y : S1024x1024.Idx) :
    ∃ pc ∈ ([⟨rW, p⟩] : List (View.Piece (Elt F) S1024x1024 e)), y ∈ pc.1.set :=
  ⟨⟨rW, p⟩, List.mem_singleton_self _, View.mem_set_unit_zero hz0 inb_S1024x1024_S1024x1024_0_0 y⟩
theorem cover2 {e : EltTy} (p q : rW.shape.Idx → Elt F e) (y : S1024x1024.Idx) :
    ∃ pc ∈ ([⟨rW, p⟩, ⟨rW, q⟩] : List (View.Piece (Elt F) S1024x1024 e)), y ∈ pc.1.set :=
  ⟨⟨rW, p⟩, List.mem_cons_self, View.mem_set_unit_zero hz0 inb_S1024x1024_S1024x1024_0_0 y⟩

/-! ## The body, case by case -/

set_option maxHeartbeats 1000000 in
/-- The body at a point that is the first of its run along the contraction axis: the scratch, at anything, is zeroed and
    takes the product of the two input blocks on top; the bias and the output buffer are not touched. -/
theorem sound_A (c : Dev nD) (E : Set ℕ) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole)
    (hF : condF i) (hL : ¬condL i)
    (x0 : Vec F S1024x1024 .bf16) (x1 : Vec F S1024x1024 .bf16) (K : PUnit → sProp 𝕄) :
    iprop(owns (c : Thread nD τ) arg3 fullShare x0 ∗ owns (c : Thread nD τ) arg4 fullShare x1
        ∗ (∃ d, owns (c : Thread nD τ) arg7 fullShare d)
        ∗ (iprop(owns (c : Thread nD τ) arg3 fullShare x0 ∗ owns (c : Thread nD τ) arg4 fullShare x1
            ∗ owns (c : Thread nD τ) arg7 fullShare (k1_pay2 (k1_pay1 (F := F)) x0 x1)) -∗ K ⟨⟩))
      ⊢ wp frame (wpE (defs₀ (F := F)) Variants.none c none) E (cc1__matmul_bias_relu_kernel i arg3 harg3 arg4 harg4 arg5 harg5 arg6 harg6 arg7 harg7) K := by
  simp only [cc1__matmul_bias_relu_kernel_eq_skeleton]; unfold cc1__matmul_bias_relu_kernel_skel
  unfold owns
  iintro ⟨⟨%f0, %hf0, H0⟩, ⟨%f1, %hf1, H1⟩, ⟨%ds, %fs, -, HS⟩, Hk⟩
  obtain rfl := harg3.eq_unread hf0; obtain rfl := harg4.eq_unread hf1
  sl_exec (disch := first | exact hF | exact hL)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover2 _ _), View.canon_cons_unit_zero hz0, View.readCov_unit_zero _ hz0]
  simp only [View.readAt_eq_ld, harg3.read_unread, harg4.read_unread, View.ld_unit_zero (S := S1024x1024) hz0]

set_option maxHeartbeats 1000000 in
/-- The body at a point that is neither the first nor the last of its run along the contraction axis: the scratch, at `xs`,
    takes the product of the two input blocks on top; the bias and the output buffer are not touched. -/
theorem sound_B (c : Dev nD) (E : Set ℕ) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole)
    (hF : ¬condF i) (hL : ¬condL i)
    (x0 : Vec F S1024x1024 .bf16) (x1 : Vec F S1024x1024 .bf16) (xs : Vec F S1024x1024 .f32) (K : PUnit → sProp 𝕄) :
    iprop(owns (c : Thread nD τ) arg3 fullShare x0 ∗ owns (c : Thread nD τ) arg4 fullShare x1
        ∗ owns (c : Thread nD τ) arg7 fullShare xs
        ∗ (iprop(owns (c : Thread nD τ) arg3 fullShare x0 ∗ owns (c : Thread nD τ) arg4 fullShare x1
            ∗ owns (c : Thread nD τ) arg7 fullShare (k1_pay2 xs x0 x1)) -∗ K ⟨⟩))
      ⊢ wp frame (wpE (defs₀ (F := F)) Variants.none c none) E (cc1__matmul_bias_relu_kernel i arg3 harg3 arg4 harg4 arg5 harg5 arg6 harg6 arg7 harg7) K := by
  simp only [cc1__matmul_bias_relu_kernel_eq_skeleton]; unfold cc1__matmul_bias_relu_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hF | exact hL)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover1 _), View.canon_unit_zero hz0]
  simp only [View.readAt_eq_ld, harg3.read_unread, harg4.read_unread, harg7.read_unread, View.ld_unit_zero (S := S1024x1024) hz0]

set_option maxHeartbeats 1000000 in
/-- The body at the last point of a run along the contraction axis: the scratch at `xs` takes the product of the two
    input blocks on top, and the output buffer is stored whole with that sum plus the bias row, clamped at zero. -/
theorem sound_C (c : Dev nD) (E : Set ℕ) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole)
    (hF : ¬condF i) (hL : condL i)
    (x0 : Vec F S1024x1024 .bf16) (x1 : Vec F S1024x1024 .bf16) (x2 : Vec F S1x1024 .f32) (xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 xs x0 x1) x2) ∗ owns (c : Thread nD τ) arg7 fullShare (k1_pay2 xs x0 x1)) -∗ K ⟨⟩))
      ⊢ wp frame (wpE (defs₀ (F := F)) Variants.none c none) E (cc1__matmul_bias_relu_kernel i arg3 harg3 arg4 harg4 arg5 harg5 arg6 harg6 arg7 harg7) K := by
  simp only [cc1__matmul_bias_relu_kernel_eq_skeleton]; unfold cc1__matmul_bias_relu_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hF | exact hL)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (cover1 _), View.canon_unit_zero hz0, View.readCov_unit_zero _ hz0]
    simp only [View.readAt_eq_ld, harg3.read_unread, harg4.read_unread, harg5.read_unread, harg7.read_unread, View.ld_unit_zero (S := S1024x1024) hz0, View.ld_unit_zero (S := S1x1024) hz0]
  · iexists _; isplitr
    swap; · iexact HS
    ipureintro
    sl_unfold_words
    rw [View.read_writes_eq_canon _ _ _ (cover1 _), View.canon_unit_zero hz0]
    simp only [View.readAt_eq_ld, harg3.read_unread, harg4.read_unread, harg7.read_unread, View.ld_unit_zero (S := S1024x1024) hz0, View.ld_unit_zero (S := S1x1024) hz0]

/-! ## What the accumulator holds after each point -/

/-- The accumulator after the body at position `n`: at the first slab of a run the product of the point's two input
    blocks on top of zeros, afterwards on top of what the point before left. -/
def accOf (c : Dev nD) : (n : ℕ) → n < cfg1.N → Vec F S1024x1024 .f32
  | 0, hn => k1_pay2 (k1_pay1 (F := F)) (iblk V c 0 ⟨0, hn⟩) (iblk V c 1 ⟨0, hn⟩)
  | n + 1, hn =>
    if (n + 1) % 4 = 0 then k1_pay2 (k1_pay1 (F := F)) (iblk V c 0 ⟨n + 1, hn⟩) (iblk V c 1 ⟨n + 1, hn⟩)
    else k1_pay2 (accOf c n (Nat.lt_of_succ_lt hn)) (iblk V c 0 ⟨n + 1, hn⟩) (iblk V c 1 ⟨n + 1, hn⟩)

theorem accOf_first (c : Dev nD) (t : Fin cfg1.N) (h : t.val % 4 = 0) :
    accOf V c t.val t.isLt = k1_pay2 (k1_pay1 (F := F)) (iblk V c 0 t) (iblk V c 1 t) := by
  obtain ⟨n, hn⟩ := t
  cases n with
  | zero => rfl
  | succ n => exact if_pos h

theorem accOf_next (c : Dev nD) (t : Fin cfg1.N) (h : ¬t.val % 4 = 0) :
    accOf V c t.val t.isLt = k1_pay2 (accOf V c (t.val - 1) (Nat.lt_of_le_of_lt (Nat.sub_le _ _) t.isLt)) (iblk V c 0 t) (iblk V c 1 t) := by
  obtain ⟨n, hn⟩ := t
  cases n with
  | zero => exact absurd (Nat.zero_mod _) h
  | succ n => exact if_neg h

/-- The region invariant before position `n`: the class's before the first point, afterwards the accumulator at what
    the point before left, the other scoped buffers and the generator register at anything. -/
def PhiS (c : Dev nD) : (n : ℕ) → n ≤ cfg1.N → sProp 𝕄
  | 0, _ => Pipeline.ΦA spec1 c
  | n + 1, hn => iprop((owns (c : Thread nD τ) scM fullShare (accOf V c n hn) ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop((owns (c : Thread nD τ) scM fullShare (accOf V c n hn) ∗ others c) ∗ (∃ r, prngReg c r)) := rfl
theorem PhiS_pos (c : Dev nD) (n : ℕ) (h : n ≤ cfg1.N) (hz : n ≠ 0) :
    PhiS V c n h = iprop((owns (c : Thread nD τ) scM fullShare (accOf V c (n - 1) (by omega)) ∗ others c) ∗ (∃ r, prngReg c r)) := by
  cases n with
  | zero => exact absurd rfl hz
  | succ n => rfl

/-! ## The proof data -/

/-- After the body at point `t`: each input window's buffer at its block; the output window's at the accumulated block
    plus the bias row, clamped at zero (read only at the last slab of a run, where it is stored); the invariant
    `PhiS`; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay3 (accOf V c t.val t.isLt) (iblk V c 2 t)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = k1_pay3 (accOf V c t.val t.isLt) (iblk V c 2 t) := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The closed forms of the two conditions say which case the point is in; the invariant hands the
    body the accumulator at what the point before left (at anything before the first point) and takes it back at this
    point's contents; away from the last slab the output window's buffer is handed back as found. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg1.N = 128 from N_1)
  rw [show (dat V c).leavesExact 0 t = owns (c : Thread nD τ) (st1_0 t) fullShare ((dat V c).after 0 t) from rfl, after_0,
    show (dat V c).leavesExact 1 t = owns (c : Thread nD τ) (st1_1 t) fullShare ((dat V c).after 1 t) from rfl, after_1,
    show (dat V c).leavesExact 2 t = owns (c : Thread nD τ) (st1_2 t) fullShare ((dat V c).after 2 t) from rfl, after_2]
  by_cases hF : t.val % 4 = 0
  · have hL : ¬t.val % 4 = 3 := by omega
    rw [Dat.leavesExact_idle (dat V c) 3 t (idle3 t (fun h => hL ((hcondL t).mp h))) (noFlush3 t (fun h => hL ((hcondL t).mp h)))]
    rw [accOf_first V c t hF]
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, H3⟩
      iapply (sound_A c Set.univ (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (Memref.isWhole_whole _) ((hcondF t).mpr hF) (fun h => hL ((hcondL t).mp h)) (iblk V c 0 t) (iblk V c 1 t) _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨HS, Hrest⟩, Hg⟩, Ho, ⟨%d0, H0⟩, ⟨%d1, H1⟩, ⟨%d2, H2⟩, H3⟩
      iapply (sound_A c Set.univ (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (Memref.isWhole_whole _) ((hcondF t).mpr hF) (fun h => hL ((hcondL t).mp h)) (iblk V c 0 t) (iblk V c 1 t) _)
      isplitl [H0]; · iexact H0
      isplitl [H1]; · iexact H1
      isplitl [HS]; · iexists _; iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
  · have hz : t.val ≠ 0 := fun h => hF (by rw [h])
    rw [accOf_next V c t hF]
    by_cases hL : t.val % 4 = 3
    · rw [show (dat V c).leavesExact 3 t = owns (c : Thread nD τ) (st1_3 t) fullShare ((dat V c).after 3 t) from by
      unfold Dat.leavesExact; rw [live3 t ((hcondL t).mpr hL)], after_3]
      rw [accOf_next V c t hF]
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩⟩
      iapply (sound_C c Set.univ (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (Memref.isWhole_whole _) (fun h => hF ((hcondF t).mp h)) ((hcondL t).mpr hL) (iblk V c 0 t) (iblk V c 1 t) (iblk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · rw [Dat.leavesExact_idle (dat V c) 3 t (idle3 t (fun h => hL ((hcondL t).mp h))) (noFlush3 t (fun h => hL ((hcondL t).mp h)))]
      rw [PhiS_castSucc V c t, PhiS_pos V c _ _ hz]
      iintro ⟨⟨⟨HS, Hrest⟩, Hg⟩, Ho, ⟨%d0, H0⟩, ⟨%d1, H1⟩, ⟨%d2, H2⟩, H3⟩
      iapply (sound_B c Set.univ (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (Memref.isWhole_whole _) (fun h => hF ((hcondF t).mp h)) (fun h => hL ((hcondL t).mp h)) (iblk V c 0 t) (iblk V c 1 t) _ _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point; -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- after the last point the invariant gives it back, the accumulator's contents forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA_eq]
  iintro ⟨⟨HS, Hrest⟩, Hg⟩
  isplitl [HS Hrest]
  · isplitl [HS]; · iexists _; iexact HS
    iexact Hrest
  iexact Hg

end Cert.KernelIdeal.Layer1

end
-- ==== Proof.KernelIdealLayer2.lean ====
import proofs.«106102_j67216238182776_1_alg».proof.Proof.Gen.KernelIdeal.Launch
import proofs.«106102_j67216238182776_1_alg».proof.Proof.Gen.KernelIdeal.Skeleton
import proofs.«106102_j67216238182776_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! # One layer of the network as a pipelined region

Region 2 multiplies a row block of its first operand by a row block of its second along their shared second axis,
one 1024-wide slab of that axis per grid point, adding each slab's product into a scratch accumulator that is zeroed
at the first slab; at the last slab the accumulated block plus the bias row is stored into the
output window. This module states what the scratch and the output window hold after each grid point and proves that the
body does that at every point, which is the region's half of the frame. -/

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at grid point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, whether or not it was fetched there: an unfetched
    window's block index has not moved. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the grid -/

/-- The accumulator is zeroed where the contraction coordinate is zero, -/
abbrev condF (i : grid2.Coords) : Prop := (Scalar.cmpi .ne (Scalar.extui (Scalar.cmpi .eq (BitVec.ofNat 32 (i 2).val) 0#32)) 0#32) = 1#1
theorem hcondF : ∀ t : Fin cfg2.N, condF (grid2.coords t) ↔ t.val % 4 = 0 :=
  (by decide +kernel : ∀ t : Fin grid2.N, condF (grid2.coords t) ↔ t.val % 4 = 0)
/-- and the output block is stored where it is the last. -/
abbrev condL (i : grid2.Coords) : Prop := k2_cond2 i = 1#1
theorem hcondL : ∀ t : Fin cfg2.N, condL (grid2.coords t) ↔ t.val % 4 = 3 :=
  (by decide +kernel : ∀ t : Fin grid2.N, condL (grid2.coords t) ↔ t.val % 4 = 3)

/-- Away from the last slab the output window is idle and not written back; at the last slab it is live. -/
theorem idle3 : ∀ t : Fin cfg2.N, ¬condL (grid2.coords t) → cfg2.idle 3 (grid2.coords t) = true := by decide +kernel
theorem noFlush3 : ∀ t : Fin cfg2.N, ¬condL (grid2.coords t) → (cfg2.win 3).flush t = false := by decide +kernel
theorem live3 : ∀ t : Fin cfg2.N, condL (grid2.coords t) → cfg2.idle 3 (grid2.coords t) = false := by decide +kernel

/-! ## The accumulator -/

/-- The scratch accumulator, a whole scoped buffer of the kernel's own. -/
abbrev scM : Memref sig .tc .vmem S1024x1024 .f32 := Memref.whole cc2_scratch0

/-- The scoped buffers that are neither staged nor the accumulator, unopened. -/
abbrev others (c : Dev nD) : sProp 𝕄 :=
  Pipeline.scopedRestBut (Ix := Unit) (Name := ℕ) (U := UR sig nD τ) (Lvl := ℕ) (Val := Elt F) spec2 c [cc2_scratch0]

/-- The class invariant with the accumulator split out of the scoped rest. -/
theorem PhiA_eq (c : Dev nD) :
    (Pipeline.ΦA spec2 c : sProp 𝕄)
      = iprop(((∃ d, owns (c : Thread nD τ) scM fullShare d) ∗ others c) ∗ (∃ r, prngReg c r)) := by
  unfold Pipeline.ΦA
  rw [Pipeline.scopedRest_split_of_list spec2 c [cc2_scratch0] (by decide) (by decide), bigSepL_singleton]
  simp only [scM, owns_whole]; rfl

/-! ## A whole-buffer store covers the buffer -/

theorem hz0 : (![0, 0] : Fin 2 → Nat) = fun _ => 0 := by funext a; fin_cases a <;> rfl
abbrev rW : Rect S1024x1024 := Rect.unit (s := S1024x1024) ![0, 0] S1024x1024.size inb_S1024x1024_S1024x1024_0_0
theorem cover1 {e : EltTy} (p : rW.shape.Idx → Elt F e) (y : S1024x1024.Idx) :
    ∃ pc ∈ ([⟨rW, p⟩] : List (View.Piece (Elt F) S1024x1024 e)), y ∈ pc.1.set :=
  ⟨⟨rW, p⟩, List.mem_singleton_self _, View.mem_set_unit_zero hz0 inb_S1024x1024_S1024x1024_0_0 y⟩
theorem cover2 {e : EltTy} (p q : rW.shape.Idx → Elt F e) (y : S1024x1024.Idx) :
    ∃ pc ∈ ([⟨rW, p⟩, ⟨rW, q⟩] : List (View.Piece (Elt F) S1024x1024 e)), y ∈ pc.1.set :=
  ⟨⟨rW, p⟩, List.mem_cons_self, View.mem_set_unit_zero hz0 inb_S1024x1024_S1024x1024_0_0 y⟩

/-! ## The body, case by case -/

set_option maxHeartbeats 1000000 in
/-- The body at a point that is the first of its run along the contraction axis: the scratch, at anything, is zeroed and
    takes the product of the two input blocks on top; the bias and the output buffer are not touched. -/
theorem sound_A (c : Dev nD) (E : Set ℕ) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hF : condF i) (hL : ¬condL i)
    (x0 : Vec F S1024x1024 .bf16) (x1 : Vec F S1024x1024 .bf16) (K : PUnit → sProp 𝕄) :
    iprop(owns (c : Thread nD τ) arg3 fullShare x0 ∗ owns (c : Thread nD τ) arg4 fullShare x1
        ∗ (∃ d, owns (c : Thread nD τ) arg7 fullShare d)
        ∗ (iprop(owns (c : Thread nD τ) arg3 fullShare x0 ∗ owns (c : Thread nD τ) arg4 fullShare x1
            ∗ owns (c : Thread nD τ) arg7 fullShare (k2_pay2 (k2_pay1 (F := F)) x0 x1)) -∗ K ⟨⟩))
      ⊢ wp frame (wpE (defs₀ (F := F)) Variants.none c none) E (cc2__matmul_bias_relu_kernel i arg3 harg3 arg4 harg4 arg5 harg5 arg6 harg6 arg7 harg7) K := by
  simp only [cc2__matmul_bias_relu_kernel_eq_skeleton]; unfold cc2__matmul_bias_relu_kernel_skel
  unfold owns
  iintro ⟨⟨%f0, %hf0, H0⟩, ⟨%f1, %hf1, H1⟩, ⟨%ds, %fs, -, HS⟩, Hk⟩
  obtain rfl := harg3.eq_unread hf0; obtain rfl := harg4.eq_unread hf1
  sl_exec (disch := first | exact hF | exact hL)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover2 _ _), View.canon_cons_unit_zero hz0, View.readCov_unit_zero _ hz0]
  simp only [View.readAt_eq_ld, harg3.read_unread, harg4.read_unread, View.ld_unit_zero (S := S1024x1024) hz0]

set_option maxHeartbeats 1000000 in
/-- The body at a point that is neither the first nor the last of its run along the contraction axis: the scratch, at `xs`,
    takes the product of the two input blocks on top; the bias and the output buffer are not touched. -/
theorem sound_B (c : Dev nD) (E : Set ℕ) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hF : ¬condF i) (hL : ¬condL i)
    (x0 : Vec F S1024x1024 .bf16) (x1 : Vec F S1024x1024 .bf16) (xs : Vec F S1024x1024 .f32) (K : PUnit → sProp 𝕄) :
    iprop(owns (c : Thread nD τ) arg3 fullShare x0 ∗ owns (c : Thread nD τ) arg4 fullShare x1
        ∗ owns (c : Thread nD τ) arg7 fullShare xs
        ∗ (iprop(owns (c : Thread nD τ) arg3 fullShare x0 ∗ owns (c : Thread nD τ) arg4 fullShare x1
            ∗ owns (c : Thread nD τ) arg7 fullShare (k2_pay2 xs x0 x1)) -∗ K ⟨⟩))
      ⊢ wp frame (wpE (defs₀ (F := F)) Variants.none c none) E (cc2__matmul_bias_relu_kernel i arg3 harg3 arg4 harg4 arg5 harg5 arg6 harg6 arg7 harg7) K := by
  simp only [cc2__matmul_bias_relu_kernel_eq_skeleton]; unfold cc2__matmul_bias_relu_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hF | exact hL)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover1 _), View.canon_unit_zero hz0]
  simp only [View.readAt_eq_ld, harg3.read_unread, harg4.read_unread, harg7.read_unread, View.ld_unit_zero (S := S1024x1024) hz0]

set_option maxHeartbeats 1000000 in
/-- The body at the last point of a run along the contraction axis: the scratch at `xs` takes the product of the two
    input blocks on top, and the output buffer is stored whole with that sum plus the bias row. -/
theorem sound_C (c : Dev nD) (E : Set ℕ) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hF : ¬condF i) (hL : condL i)
    (x0 : Vec F S1024x1024 .bf16) (x1 : Vec F S1024x1024 .bf16) (x2 : Vec F S1x1024 .f32) (xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k2_pay3 (k2_pay2 xs x0 x1) x2) ∗ owns (c : Thread nD τ) arg7 fullShare (k2_pay2 xs x0 x1)) -∗ K ⟨⟩))
      ⊢ wp frame (wpE (defs₀ (F := F)) Variants.none c none) E (cc2__matmul_bias_relu_kernel i arg3 harg3 arg4 harg4 arg5 harg5 arg6 harg6 arg7 harg7) K := by
  simp only [cc2__matmul_bias_relu_kernel_eq_skeleton]; unfold cc2__matmul_bias_relu_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hF | exact hL)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (cover1 _), View.canon_unit_zero hz0, View.readCov_unit_zero _ hz0]
    simp only [View.readAt_eq_ld, harg3.read_unread, harg4.read_unread, harg5.read_unread, harg7.read_unread, View.ld_unit_zero (S := S1024x1024) hz0, View.ld_unit_zero (S := S1x1024) hz0]
  · iexists _; isplitr
    swap; · iexact HS
    ipureintro
    sl_unfold_words
    rw [View.read_writes_eq_canon _ _ _ (cover1 _), View.canon_unit_zero hz0]
    simp only [View.readAt_eq_ld, harg3.read_unread, harg4.read_unread, harg7.read_unread, View.ld_unit_zero (S := S1024x1024) hz0, View.ld_unit_zero (S := S1x1024) hz0]

/-! ## What the accumulator holds after each point -/

/-- The accumulator after the body at position `n`: at the first slab of a run the product of the point's two input
    blocks on top of zeros, afterwards on top of what the point before left. -/
def accOf (c : Dev nD) : (n : ℕ) → n < cfg2.N → Vec F S1024x1024 .f32
  | 0, hn => k2_pay2 (k2_pay1 (F := F)) (iblk V c 0 ⟨0, hn⟩) (iblk V c 1 ⟨0, hn⟩)
  | n + 1, hn =>
    if (n + 1) % 4 = 0 then k2_pay2 (k2_pay1 (F := F)) (iblk V c 0 ⟨n + 1, hn⟩) (iblk V c 1 ⟨n + 1, hn⟩)
    else k2_pay2 (accOf c n (Nat.lt_of_succ_lt hn)) (iblk V c 0 ⟨n + 1, hn⟩) (iblk V c 1 ⟨n + 1, hn⟩)

theorem accOf_first (c : Dev nD) (t : Fin cfg2.N) (h : t.val % 4 = 0) :
    accOf V c t.val t.isLt = k2_pay2 (k2_pay1 (F := F)) (iblk V c 0 t) (iblk V c 1 t) := by
  obtain ⟨n, hn⟩ := t
  cases n with
  | zero => rfl
  | succ n => exact if_pos h

theorem accOf_next (c : Dev nD) (t : Fin cfg2.N) (h : ¬t.val % 4 = 0) :
    accOf V c t.val t.isLt = k2_pay2 (accOf V c (t.val - 1) (Nat.lt_of_le_of_lt (Nat.sub_le _ _) t.isLt)) (iblk V c 0 t) (iblk V c 1 t) := by
  obtain ⟨n, hn⟩ := t
  cases n with
  | zero => exact absurd (Nat.zero_mod _) h
  | succ n => exact if_neg h

/-- The region invariant before position `n`: the class's before the first point, afterwards the accumulator at what
    the point before left, the other scoped buffers and the generator register at anything. -/
def PhiS (c : Dev nD) : (n : ℕ) → n ≤ cfg2.N → sProp 𝕄
  | 0, _ => Pipeline.ΦA spec2 c
  | n + 1, hn => iprop((owns (c : Thread nD τ) scM fullShare (accOf V c n hn) ∗ others c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop((owns (c : Thread nD τ) scM fullShare (accOf V c n hn) ∗ others c) ∗ (∃ r, prngReg c r)) := rfl
theorem PhiS_pos (c : Dev nD) (n : ℕ) (h : n ≤ cfg2.N) (hz : n ≠ 0) :
    PhiS V c n h = iprop((owns (c : Thread nD τ) scM fullShare (accOf V c (n - 1) (by omega)) ∗ others c) ∗ (∃ r, prngReg c r)) := by
  cases n with
  | zero => exact absurd rfl hz
  | succ n => rfl

/-! ## The proof data -/

/-- After the body at point `t`: each input window's buffer at its block; the output window's at the accumulated block
    plus the bias row (read only at the last slab of a run, where it is stored); the invariant
    `PhiS`; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay3 (accOf V c t.val t.isLt) (iblk V c 2 t)
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = k2_pay3 (accOf V c t.val t.isLt) (iblk V c 2 t) := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The closed forms of the two conditions say which case the point is in; the invariant hands the
    body the accumulator at what the point before left (at anything before the first point) and takes it back at this
    point's contents; away from the last slab the output window's buffer is handed back as found. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg2.N = 32 from N_2)
  rw [show (dat V c).leavesExact 0 t = owns (c : Thread nD τ) (st2_0 t) fullShare ((dat V c).after 0 t) from rfl, after_0,
    show (dat V c).leavesExact 1 t = owns (c : Thread nD τ) (st2_1 t) fullShare ((dat V c).after 1 t) from rfl, after_1,
    show (dat V c).leavesExact 2 t = owns (c : Thread nD τ) (st2_2 t) fullShare ((dat V c).after 2 t) from rfl, after_2]
  by_cases hF : t.val % 4 = 0
  · have hL : ¬t.val % 4 = 3 := by omega
    rw [Dat.leavesExact_idle (dat V c) 3 t (idle3 t (fun h => hL ((hcondL t).mp h))) (noFlush3 t (fun h => hL ((hcondL t).mp h)))]
    rw [accOf_first V c t hF]
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, H3⟩
      iapply (sound_A c Set.univ (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (Memref.isWhole_whole _) ((hcondF t).mpr hF) (fun h => hL ((hcondL t).mp h)) (iblk V c 0 t) (iblk V c 1 t) _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨HS, Hrest⟩, Hg⟩, Ho, ⟨%d0, H0⟩, ⟨%d1, H1⟩, ⟨%d2, H2⟩, H3⟩
      iapply (sound_A c Set.univ (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (Memref.isWhole_whole _) ((hcondF t).mpr hF) (fun h => hL ((hcondL t).mp h)) (iblk V c 0 t) (iblk V c 1 t) _)
      isplitl [H0]; · iexact H0
      isplitl [H1]; · iexact H1
      isplitl [HS]; · iexists _; iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
  · have hz : t.val ≠ 0 := fun h => hF (by rw [h])
    rw [accOf_next V c t hF]
    by_cases hL : t.val % 4 = 3
    · rw [show (dat V c).leavesExact 3 t = owns (c : Thread nD τ) (st2_3 t) fullShare ((dat V c).after 3 t) from by
      unfold Dat.leavesExact; rw [live3 t ((hcondL t).mpr hL)], after_3]
      rw [accOf_next V c t hF]
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩⟩
      iapply (sound_C c Set.univ (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (Memref.isWhole_whole _) (fun h => hF ((hcondF t).mp h)) ((hcondL t).mpr hL) (iblk V c 0 t) (iblk V c 1 t) (iblk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · rw [Dat.leavesExact_idle (dat V c) 3 t (idle3 t (fun h => hL ((hcondL t).mp h))) (noFlush3 t (fun h => hL ((hcondL t).mp h)))]
      rw [PhiS_castSucc V c t, PhiS_pos V c _ _ hz]
      iintro ⟨⟨⟨HS, Hrest⟩, Hg⟩, Ho, ⟨%d0, H0⟩, ⟨%d1, H1⟩, ⟨%d2, H2⟩, H3⟩
      iapply (sound_B c Set.univ (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (Memref.isWhole_whole _) (fun h => hF ((hcondF t).mp h)) (fun h => hL ((hcondL t).mp h)) (iblk V c 0 t) (iblk V c 1 t) _ _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3

/-- The body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point; -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- after the last point the invariant gives it back, the accumulator's contents forgotten. -/
theorem hout (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 32 := N_2; omega), PhiA_eq]
  iintro ⟨⟨HS, Hrest⟩, Hg⟩
  isplitl [HS Hrest]
  · isplitl [HS]; · iexists _; iexact HS
    iexact Hrest
  iexact Hg

end Cert.KernelIdeal.Layer2

end
-- ==== Proof.KernelIdealRun.lean ====
import proofs.«106102_j67216238182776_1_alg».proof.Proof.KernelIdealLayer0
import proofs.«106102_j67216238182776_1_alg».proof.Proof.KernelIdealLayer1
import proofs.«106102_j67216238182776_1_alg».proof.Proof.KernelIdealLayer2
import proofs.«106102_j67216238182776_1_alg».proof.Proof.Gen.KernelIdeal.Regions

set_option maxRecDepth 16384

noncomputable section

/-! # The whole program: a host stretch, then the three layers' regions in order

The buffer contents at each boundary are a fold from the launch memory: the host stretch's results, then after each
region its output array at what its write-backs leave and every other buffer as it was. No host operation and no
region writes an argument, so each argument reads back to the launch memory; the last layer's output array is the
program's result. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After the host stretch (the first region's entry). -/
abbrev W1 : Dev nD → Valuation τ sig (Elt F) := fun c => Gen.V1 m c
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (Layer0.dat (V1 m) c).arrAt w cfg0.N
theorem W2_arr (c : Dev nD) (w : Fin cfg0.W) :
    W2 m c (Proc.devRef .tc (Pipeline.arrRef spec0 w)) = (Layer0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Layer0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m c) fun w => (Layer1.dat (V2 m) c).arrAt w cfg1.N
theorem W3_arr (c : Dev nD) (w : Fin cfg1.W) :
    W3 m c (Proc.devRef .tc (Pipeline.arrRef spec1 w)) = (Layer1.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (Layer1.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m c) fun w => (Layer2.dat (V3 m) c).arrAt w cfg2.N
theorem W4_arr (c : Dev nD) (w : Fin cfg2.W) :
    W4 m c (Proc.devRef .tc (Pipeline.arrRef spec2 w)) = (Layer2.dat (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (Layer2.dat (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  (W4_of_ne m c main_arg0 (by decide)).trans <| (W3_of_ne m c main_arg0 (by decide)).trans <| (W2_of_ne m c main_arg0 (by decide)).trans <|
    (Gen.V1_of m c main_arg0 (by decide)).trans rfl
theorem W4_main_arg1 (c : Dev nD) : W4 m c (Proc.devRef .tc main_arg1) = m ((c : Thread nD τ).loc main_arg1) :=
  (W4_of_ne m c main_arg1 (by decide)).trans <| (W3_of_ne m c main_arg1 (by decide)).trans <| (W2_of_ne m c main_arg1 (by decide)).trans <|
    (Gen.V1_of m c main_arg1 (by decide)).trans rfl
theorem W4_main_arg2 (c : Dev nD) : W4 m c (Proc.devRef .tc main_arg2) = m ((c : Thread nD τ).loc main_arg2) :=
  (W4_of_ne m c main_arg2 (by decide)).trans <| (W3_of_ne m c main_arg2 (by decide)).trans <| (W2_of_ne m c main_arg2 (by decide)).trans <|
    (Gen.V1_of m c main_arg2 (by decide)).trans rfl
theorem W4_main_arg3 (c : Dev nD) : W4 m c (Proc.devRef .tc main_arg3) = m ((c : Thread nD τ).loc main_arg3) :=
  (W4_of_ne m c main_arg3 (by decide)).trans <| (W3_of_ne m c main_arg3 (by decide)).trans <| (W2_of_ne m c main_arg3 (by decide)).trans <|
    (Gen.V1_of m c main_arg3 (by decide)).trans rfl
theorem W4_main_arg4 (c : Dev nD) : W4 m c (Proc.devRef .tc main_arg4) = m ((c : Thread nD τ).loc main_arg4) :=
  (W4_of_ne m c main_arg4 (by decide)).trans <| (W3_of_ne m c main_arg4 (by decide)).trans <| (W2_of_ne m c main_arg4 (by decide)).trans <|
    (Gen.V1_of m c main_arg4 (by decide)).trans rfl
theorem W4_main_arg5 (c : Dev nD) : W4 m c (Proc.devRef .tc main_arg5) = m ((c : Thread nD τ).loc main_arg5) :=
  (W4_of_ne m c main_arg5 (by decide)).trans <| (W3_of_ne m c main_arg5 (by decide)).trans <| (W2_of_ne m c main_arg5 (by decide)).trans <|
    (Gen.V1_of m c main_arg5 (by decide)).trans rfl
theorem W4_main_arg6 (c : Dev nD) : W4 m c (Proc.devRef .tc main_arg6) = m ((c : Thread nD τ).loc main_arg6) :=
  (W4_of_ne m c main_arg6 (by decide)).trans <| (W3_of_ne m c main_arg6 (by decide)).trans <| (W2_of_ne m c main_arg6 (by decide)).trans <|
    (Gen.V1_of m c main_arg6 (by decide)).trans rfl
theorem W4_main_arg7 (c : Dev nD) : W4 m c (Proc.devRef .tc main_arg7) = m ((c : Thread nD τ).loc main_arg7) :=
  (W4_of_ne m c main_arg7 (by decide)).trans <| (W3_of_ne m c main_arg7 (by decide)).trans <| (W2_of_ne m c main_arg7 (by decide)).trans <|
    (Gen.V1_of m c main_arg7 (by decide)).trans rfl
theorem W4_main_arg8 (c : Dev nD) : W4 m c (Proc.devRef .tc main_arg8) = m ((c : Thread nD τ).loc main_arg8) :=
  (W4_of_ne m c main_arg8 (by decide)).trans <| (W3_of_ne m c main_arg8 (by decide)).trans <| (W2_of_ne m c main_arg8 (by decide)).trans <|
    (Gen.V1_of m c main_arg8 (by decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Layer0.dat (V1 m) c
  | ⟨1, _⟩ => fun c => Layer1.dat (V2 m) c
  | ⟨2, _⟩ => fun c => Layer2.dat (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The host stretch as a segment over the unscoped references from the launch contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`; its arrays split out of
    the unscoped buffers and put back at the exit contents; the generator register and the scoped rest into the region's
    invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Layer0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (Layer0.hin (V1 m) c)
    unfold Pipeline.ΦA
    iintro ⟨Hp, -, Hr⟩
    isplitl [Hr]; · iexact Hr
    iexact Hp
  hout c := by
    rw [Pipeline.ownSems0_none]
    refine (Layer0.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`; its arrays split out of
    the unscoped buffers and put back at the exit contents; the generator register and the scoped rest into the region's
    invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Layer1.hin (V2 m) c)
    unfold Pipeline.ΦA
    iintro ⟨Hp, -, Hr⟩
    isplitl [Hr]; · iexact Hr
    iexact Hp
  hout c := by
    rw [Pipeline.ownSems0_none]
    refine (Layer1.hout (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`; its arrays split out of
    the unscoped buffers and put back at the exit contents; the generator register and the scoped rest into the region's
    invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Layer2.body_obligation (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (Layer2.hin (V3 m) c)
    unfold Pipeline.ΦA
    iintro ⟨Hp, -, Hr⟩
    isplitl [Hr]; · iexact Hr
    iexact Hp
  hout c := by
    rw [Pipeline.ownSems0_none]
    refine (Layer2.hout (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg m), .region (reg0 m), .region (reg1 m), .region (reg2 m) ]
theorem main_run (c : Dev nD) : main (F := F) c = Pipeline.Seg.run (segs m) := (main_chain c).trans (by chain_rfl)

set_option backward.isDefEq.respectTransparency.types false in
/-- From any memory with zero counters every weakly fair execution of the program terminates, nothing faulting, and every
    final state has every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c)⟩) (run_all m ρ)

/-- The run with the result named: the last layer's output array at what its write-backs leave, the arguments unchanged. -/
theorem run_result : θ_run defs (onTc (τ := τ) (main (F := F))) ⟨m, fun _ => 0, ρ⟩ (fun r => ∀ c : Dev nD,
      r.2.mem ((c.tc : Thread nD τ).loc main_v21) = (Layer2.dat (V3 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v21 (by decide))).trans (W4_arr m c 3),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c)⟩) (run_all m ρ)

end Cert.KernelIdeal.Run

end
-- ==== Proof.Spec.lean ====
/-
  The network both programs compute, over the extended reals: three affine layers x ↦ x·Wᵀ + b, the first two
  followed by a clamp at zero.  A layer's entry (r, j) is the sum over the shared axis of row r of the input against
  row j of the weight, plus entry j of the bias.  The weights arrive already masked: the tile masks are applied by
  the same elementwise product in both programs, so this specification takes the masked matrices as given.
-/
import Idealize.ShloMosaic.PureOps.Ideal
import Idealize.ShloMosaic.Lib.ValueIdx

noncomputable section

namespace Cert.Spec

open Idealize.ShloMosaic Idealize.ShloMosaic.ValueIdx

/-- One affine layer: entry (r, j) is Σ_k x[r, k] · w[j, k] + b[j]. -/
def affine {A K B : Nat} (x : FVec Ideal ⟨2, ![A, K]⟩ .f32) (w : FVec Ideal ⟨2, ![B, K]⟩ .f32) (b : FVec Ideal ⟨1, ![B]⟩ .f32) :
    FVec Ideal ⟨2, ![A, B]⟩ .f32 :=
  fun i => (∑ k : Fin K, x (ix2 (i 0) k) * w (ix2 (i 1) k)) + b (ix1 (i 1))

/-- The clamp at zero, entry by entry (the zero kept as the float word both programs spell). -/
def clamp {S : Shape} (v : FVec Ideal S .f32) : FVec Ideal S .f32 :=
  fun i => max (v i) (Ideal.ofBits .f32 0x00000000#32)

/-- The whole network on a batch x: [8192, 2048] → [8192, 4096] → [8192, 4096] → [8192, 1024]. -/
def net (x : FVec Ideal ⟨2, ![8192, 2048]⟩ .f32) (w1 : FVec Ideal ⟨2, ![4096, 2048]⟩ .f32) (b1 : FVec Ideal ⟨1, ![4096]⟩ .f32)
    (w2 : FVec Ideal ⟨2, ![4096, 4096]⟩ .f32) (b2 : FVec Ideal ⟨1, ![4096]⟩ .f32)
    (wo : FVec Ideal ⟨2, ![1024, 4096]⟩ .f32) (bo : FVec Ideal ⟨1, ![1024]⟩ .f32) : FVec Ideal ⟨2, ![8192, 1024]⟩ .f32 :=
  affine (clamp (affine (clamp (affine x w1 b1)) w2 b2)) wo bo

theorem affine_apply {A K B : Nat} (x : FVec Ideal ⟨2, ![A, K]⟩ .f32) (w : FVec Ideal ⟨2, ![B, K]⟩ .f32) (b : FVec Ideal ⟨1, ![B]⟩ .f32)
    (r : Fin A) (j : Fin B) : affine x w b (ix2 r j) = (∑ k : Fin K, x (ix2 r k) * w (ix2 j k)) + b (ix1 j) := rfl

theorem clamp_apply {S : Shape} (v : FVec Ideal S .f32) (i : S.Idx) : clamp v i = max (v i) (Ideal.ofBits .f32 0x00000000#32) := rfl

end Cert.Spec

end
-- ==== Proof.LibMatmulNT.lean ====
/-
  A matrix product against a transposed right operand, read at one entry, over the extended reals.

  A product of an [A, K] matrix by a [B, K] matrix whose dimension numbers contract the second axis of both operands,
  accumulated into the zero matrix, has at entry (r, j) the value Σ_k lhs[r, k] · rhs[j, k]: row r of the left operand
  against row j of the right one.  Exact arithmetic leaves neither rounding nor a chunk order in it.  The plain product
  (the right operand contracted on its first axis) is `Cert.LibMatmul.plain_matmul_zero_apply`.
-/
import Idealize.ShloMosaic.PureOps.Ideal.Laws
import Idealize.ShloMosaic.Lib.ValueIdx

noncomputable section

namespace Cert.LibMatmulNT

open Idealize.ShloMosaic Idealize.ShloMosaic.ValueIdx

/-- Entry (r, j) of a product into a zero accumulator that contracts both operands' second axes is the sum over that
    axis of the left operand's row r against the right operand's row j. -/
theorem transposedRhs_matmul_zero_apply {A K B : Nat} {φ₁ φ₂ : FTy} (prec : Option ContractPrecision)
    (lhs : FVec Ideal ⟨2, ![A, K]⟩ φ₁) (rhs : FVec Ideal ⟨2, ![B, K]⟩ φ₂) (r : Fin A) (j : Fin B) :
    FloatOps.matmul (DotDims.transposedRhs A K B) prec lhs rhs (constant (F := Ideal) ⟨2, ![A, B]⟩ .f32 0x00000000#32) (ix2 r j)
      = ∑ k : Fin K, lhs (ix2 r k) * rhs (ix2 j k) := by
  rw [Ideal.matmul_constant_zero_apply, ← Equiv.sum_comp (contrEquiv1 (DotDims.transposedRhs A K B) K rfl rfl).symm]
  refine Finset.sum_congr rfl fun k _ => ?_
  have hk := contrEquiv1_symm_val (DotDims.transposedRhs A K B) K rfl rfl k
  have el : (DotDims.transposedRhs A K B).lhsIdx (ix2 r j) ((contrEquiv1 (DotDims.transposedRhs A K B) K rfl rfl).symm k) = ix2 r k :=
    funext fun a => Fin.ext (by
      match a with
      | ⟨0, _⟩ => rfl
      | ⟨1, _⟩ => exact ((DotDims.transposedRhs A K B).lhsIdx_val_of_single rfl (ix2 r j) _).trans hk)
  have er : (DotDims.transposedRhs A K B).rhsIdx (ix2 r j) ((contrEquiv1 (DotDims.transposedRhs A K B) K rfl rfl).symm k) = ix2 j k :=
    funext fun a => Fin.ext (by
      match a with
      | ⟨0, _⟩ => rfl
      | ⟨1, _⟩ => exact ((DotDims.transposedRhs A K B).rhsIdx_val_of_single rfl (ix2 r j) _).trans hk)
  rw [el, er]

end Cert.LibMatmulNT

end
-- ==== Proof.LibBlockSum.lean ====
/-
  Sums over an index range cut into equal blocks, and the running sum a blocked accumulation builds: general facts
  about finite sums in an additive commutative monoid, stated for Fin (a * b) against Fin a × Fin b.
-/
import Mathlib.Algebra.BigOperators.Fin
import Mathlib.Logic.Equiv.Fin.Basic
import Mathlib.Tactic.Ring
import Mathlib.Tactic.Linarith

namespace LibBlockSum

open Finset

/-- A sum over a * b indices is the sum over a blocks of the sums over the b indices of each block; index
    b·p + q is entry q of block p. -/
theorem sum_blocks {M : Type*} [AddCommMonoid M] (a b : ℕ) (f : Fin (a * b) → M) :
    ∑ j, f j = ∑ p : Fin a, ∑ q : Fin b, f ⟨b * p.val + q.val, by
      have hp := p.isLt; have hq := q.isLt
      calc b * p.val + q.val < b * p.val + b := by omega
        _ = b * (p.val + 1) := by ring
        _ ≤ b * a := Nat.mul_le_mul_left b hp
        _ = a * b := Nat.mul_comm b a⟩ := by
  rw [← Equiv.sum_comp (finProdFinEquiv : Fin a × Fin b ≃ Fin (a * b)) f, Fintype.sum_prod_type]
  refine sum_congr rfl fun p _ => sum_congr rfl fun q _ => congrArg f (Fin.ext ?_)
  simp only [finProdFinEquiv_apply_val]
  ring

/-- An accumulator that starts from its first term and adds one term per step holds, after step n, the sum of the
    terms up to n. -/
theorem acc_eq_sum {M : Type*} [AddCommMonoid M] (g : ℕ → M) (acc : ℕ → M) (h0 : acc 0 = g 0)
    (hs : ∀ n, acc (n + 1) = acc n + g (n + 1)) (n : ℕ) : acc n = ∑ k ∈ range (n + 1), g k := by
  induction n with
  | zero => simp [h0]
  | succ n ih => rw [hs, ih, sum_range_succ _ (n + 1)]

end LibBlockSum
-- ==== Proof.KernelIdealValue0.lean ====
import proofs.«106102_j67216238182776_1_alg».proof.Proof.KernelIdealLayer0
import proofs.«106102_j67216238182776_1_alg».proof.Proof.Spec
import proofs.«106102_j67216238182776_1_alg».proof.Proof.LibMatmulNT
import proofs.«106102_j67216238182776_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! # Layer 1 read at an entry

Over the extended reals the region's accumulator after the last slab of a run holds, at entry (p, q) of its block, the sum
over the whole shared axis of row p of the first operand's block row against row q of the second's: each slab adds its
own 1024 terms, and the slabs partition the axis. Adding the bias row and clamping at zero gives the block the
region writes back; the blocks tile the output array, so the array ends as one function of the three input arrays. -/

namespace Cert.KernelIdeal.Value0

open Cert.KernelIdeal Cert.KernelIdeal.Gen Cert.KernelIdeal.Layer0
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's three input arrays as it finds them, as functions into the extended reals. -/
abbrev arrA (c : Dev nD) : S8192x2048.Idx → EReal := V c main_v15
abbrev arrB (c : Dev nD) : S4096x2048.Idx → EReal := V c main_v6
abbrev arrBias (c : Dev nD) : S1x4096.Idx → EReal := V c main_v16

theorem pay1_apply (y : S1024x1024.Idx) : (k0_pay1 (F := Ideal)) y = Ideal.ofBits .f32 0x00000000#32 := by
  unfold k0_pay1
  simp only [shapeCast_self]
  rfl

theorem pay2_apply (v3 : Vec Ideal S1024x1024 .f32) (v4 v6 : Vec Ideal S1024x1024 .bf16) (p q : Fin 1024) :
    k0_pay2 v3 v4 v6 (ix2 p q) = v3 (ix2 p q) + ∑ k : Fin 1024, v4 (ix2 p k) * v6 (ix2 q k) := by
  unfold k0_pay2
  simp only [shapeCast_self]
  exact congrArg (v3 (ix2 p q) + ·) (Cert.LibMatmulNT.transposedRhs_matmul_zero_apply none v4 v6 p q)

theorem pay3_apply (v16 : Vec Ideal S1024x1024 .f32) (v17 : Vec Ideal S1x1024 .f32) (p q : Fin 1024) :
    k0_pay3 v16 v17 (ix2 p q) = max (v16 (ix2 p q) + v17 (ix2 (0 : Fin 1) q)) (Ideal.ofBits .f32 0x00000000#32) := by
  unfold k0_pay3
  simp only [shapeCast_self]
  show max (v16 (ix2 p q) + broadcastTo S1024x1024 v17 broadcasts_S1x1024_S1024x1024 (ix2 p q)) _ = _
  rw [broadcastTo_1b_ab_apply]
  rfl

theorem idx_facts : ∀ t : Fin cfg0.N,
    win0_0.index t (0 : Fin 2) = t.val / 8 ∧ win0_0.index t (1 : Fin 2) = t.val % 2
  ∧ win0_1.index t (0 : Fin 2) = t.val / 2 % 4 ∧ win0_1.index t (1 : Fin 2) = t.val % 2
  ∧ win0_2.index t (0 : Fin 2) = 0 ∧ win0_2.index t (1 : Fin 2) = t.val / 2 % 4
  ∧ win0_3.index t (0 : Fin 2) = t.val / 8 ∧ win0_3.index t (1 : Fin 2) = t.val / 2 % 4 :=
  (by decide +kernel : ∀ t : Fin grid0.N, _)

/-- The first operand as a function of two naturals (zero off the array). -/
def aN (c : Dev nD) (r k : ℕ) : EReal := if h : r < 8192 ∧ k < 2048 then arrA V c (ix2 ⟨r, h.1⟩ ⟨k, h.2⟩) else 0

theorem iblk0_apply (c : Dev nD) (t : Fin cfg0.N) (p kk : Fin 1024) :
    (iblk V c 0 t : Vec Ideal S1024x1024 .bf16) (ix2 p kk) = aN V c (1024 * (t.val / 8) + p.val) (1024 * (t.val % 2) + kk.val) := by
  have hN : cfg0.N = 64 := N_0
  have ht := t.isLt
  have hp := p.isLt
  have hk := kk.isLt
  unfold aN
  rw [dif_pos ⟨by omega, by omega⟩]
  unfold iblk
  rw [View.read_apply]
  show V c main_v15 _ = V c main_v15 _
  congr 1
  funext a
  apply Fin.ext
  obtain ⟨e0, e1, -⟩ := idx_facts t
  match a with
  | ⟨0, _⟩ => show win0_0.index t 0 * 1024 + 1 * p.val = 1024 * (t.val / 8) + p.val; rw [e0]; omega
  | ⟨1, _⟩ => show win0_0.index t 1 * 1024 + 1 * kk.val = 1024 * (t.val % 2) + kk.val; rw [e1]; omega

/-- The second operand as a function of two naturals (zero off the array). -/
def bN (c : Dev nD) (j k : ℕ) : EReal := if h : j < 4096 ∧ k < 2048 then arrB V c (ix2 ⟨j, h.1⟩ ⟨k, h.2⟩) else 0

theorem iblk1_apply (c : Dev nD) (t : Fin cfg0.N) (q kk : Fin 1024) :
    (iblk V c 1 t : Vec Ideal S1024x1024 .bf16) (ix2 q kk) = bN V c (1024 * (t.val / 2 % 4) + q.val) (1024 * (t.val % 2) + kk.val) := by
  have hN : cfg0.N = 64 := N_0
  have ht := t.isLt
  have hq := q.isLt
  have hk := kk.isLt
  unfold bN
  rw [dif_pos ⟨by omega, by omega⟩]
  unfold iblk
  rw [View.read_apply]
  show V c main_v6 _ = V c main_v6 _
  congr 1
  funext a
  apply Fin.ext
  obtain ⟨-, -, e2, e3, -⟩ := idx_facts t
  match a with
  | ⟨0, _⟩ => show win0_1.index t 0 * 1024 + 1 * q.val = 1024 * (t.val / 2 % 4) + q.val; rw [e2]; omega
  | ⟨1, _⟩ => show win0_1.index t 1 * 1024 + 1 * kk.val = 1024 * (t.val % 2) + kk.val; rw [e3]; omega

/-- The bias row as a function of a natural (zero off the row). -/
def biasN (c : Dev nD) (j : ℕ) : EReal := if h : j < 4096 then arrBias V c (ix2 (0 : Fin 1) ⟨j, h⟩) else 0

theorem iblk2_apply (c : Dev nD) (t : Fin cfg0.N) (q : Fin 1024) :
    (iblk V c 2 t : Vec Ideal S1x1024 .f32) (ix2 (0 : Fin 1) q) = biasN V c (1024 * (t.val / 2 % 4) + q.val) := by
  have hN : cfg0.N = 64 := N_0
  have ht := t.isLt
  have hq := q.isLt
  unfold biasN
  rw [dif_pos (by omega)]
  unfold iblk
  rw [View.read_apply]
  show V c main_v16 _ = V c main_v16 _
  congr 1
  funext a
  apply Fin.ext
  obtain ⟨-, -, -, -, e4, e5, -⟩ := idx_facts t
  match a with
  | ⟨0, _⟩ => show win0_2.index t 0 * 1 + 1 * 0 = 0; rw [e4]
  | ⟨1, _⟩ => show win0_2.index t 1 * 1024 + 1 * q.val = 1024 * (t.val / 2 % 4) + q.val; rw [e5]; omega

/-! ## The accumulator at an entry: the slabs' products summed in order -/

/-- Slab `s` of the contraction axis: the product of row `r` of the first operand with row `j` of the second over that slab. -/
def slab (c : Dev nD) (r j s : ℕ) : EReal := ∑ kk : Fin 1024, aN V c r (1024 * s + kk.val) * bN V c j (1024 * s + kk.val)

theorem acc_first (c : Dev nD) (t : Fin cfg0.N) (h0 : t.val % 2 = 0) (p q : Fin 1024) :
    accOf V c t.val t.isLt (ix2 p q)
      = slab V c (1024 * (t.val / 8) + p.val) (1024 * (t.val / 2 % 4) + q.val) (t.val % 2) := by
  refine (congrFun (accOf_first V c t h0) (ix2 p q)).trans ((pay2_apply _ (iblk V c 0 t) (iblk V c 1 t) p q).trans ?_)
  rw [pay1_apply, Ideal.ofBits_zero_f32, zero_add]
  unfold slab
  refine Finset.sum_congr rfl fun kk _ => ?_
  rw [iblk0_apply V c t p kk, iblk1_apply V c t q kk]

theorem acc_next (c : Dev nD) (t : Fin cfg0.N) (hne : ¬t.val % 2 = 0) (p q : Fin 1024) :
    accOf V c t.val t.isLt (ix2 p q)
      = accOf V c (t.val - 1) (Nat.lt_of_le_of_lt (Nat.sub_le _ _) t.isLt) (ix2 p q) + slab V c (1024 * (t.val / 8) + p.val) (1024 * (t.val / 2 % 4) + q.val) (t.val % 2) := by
  refine (congrFun (accOf_next V c t hne) (ix2 p q)).trans ((pay2_apply _ (iblk V c 0 t) (iblk V c 1 t) p q).trans ?_)
  unfold slab
  refine congrArg _ (Finset.sum_congr rfl fun kk _ => ?_)
  rw [iblk0_apply V c t p kk, iblk1_apply V c t q kk]

/-- After point `n` the accumulator's entry is zero plus the slabs of the run so far, in order. -/
theorem acc_apply (c : Dev nD) : ∀ (n : ℕ) (h : n < cfg0.N) (p q : Fin 1024),
    accOf V c n h (ix2 p q) = ∑ s ∈ Finset.range (n % 2 + 1), slab V c (1024 * (n / 8) + p.val) (1024 * (n / 2 % 4) + q.val) s
  | 0, h, p, q => by
    rw [acc_first V c ⟨0, h⟩ rfl p q]
    simp only [Nat.zero_mod, Nat.zero_add, Finset.sum_range_one]
  | n + 1, h, p, q => by
    by_cases hm : (n + 1) % 2 = 0
    · rw [acc_first V c ⟨n + 1, h⟩ hm p q]
      simp only [hm, Nat.zero_add, Finset.sum_range_one]
    · rw [acc_next V c ⟨n + 1, h⟩ hm p q]
      have ih := acc_apply c n (Nat.lt_of_succ_lt h) p q
      have e1 : (n + 1) / 8 = n / 8 := by omega
      have e2 : (n + 1) / 2 % 4 = n / 2 % 4 := by omega
      have e3 : (n + 1) % 2 = n % 2 + 1 := by omega
      show accOf V c n _ (ix2 p q) + slab V c (1024 * ((n + 1) / 8) + p.val) (1024 * ((n + 1) / 2 % 4) + q.val) ((n + 1) % 2) = _
      rw [ih, e1, e2, e3, Finset.sum_range_succ _ (n % 2 + 1)]

/-- All 2 slabs together are the whole contraction axis. -/
theorem slabs_sum (c : Dev nD) (r j : ℕ) :
    ∑ s ∈ Finset.range 2, slab V c r j s = ∑ k : Fin 2048, aN V c r k.val * bN V c j k.val := by
  rw [Finset.sum_range]
  have h := LibBlockSum.sum_blocks (M := EReal) 2 1024 (fun k : Fin (2 * 1024) => aN V c r k.val * bN V c j k.val)
  exact h.symm

/-! ## What the region leaves in its output array -/

/-- Entry (r, j) of the output array: row r of the first operand against row j of the second over the whole contraction
    axis, plus entry j of the bias row, clamped at zero. -/
def outArr (a : S8192x2048.Idx → EReal) (b : S4096x2048.Idx → EReal) (bias : S1x4096.Idx → EReal) : S8192x4096.Idx → EReal :=
  fun i => max ((∑ k : Fin 2048, a (ix2 (i 0) k) * b (ix2 (i 1) k)) + bias (ix2 (0 : Fin 1) (i 1))) (Ideal.ofBits .f32 0x00000000#32)

/-- What a flushing point writes back is its block of `outArr` of the arrays as the region finds them. -/
theorem flushed_eq (c : Dev nD) (t : Fin cfg0.N) (hf : (cfg0.win 3).flush t = true) :
    (dat V c).flushed 3 t = ((cfg0.win 3).blk t).view.read (Elt Ideal) (outArr (arrA V c) (arrB V c) (arrBias V c)) := by
  have hN : cfg0.N = 64 := N_0
  have ht := t.isLt
  have hl : t.val % 2 = 1 := (flush0_3 t).mp hf
  show (cfg0.win 3).cut (grid0.coords t) ((dat V c).after 3 t) = _
  rw [after_3]
  funext y
  show k0_pay3 (accOf V c t.val t.isLt) (iblk V c 2 t) y = outArr (arrA V c) (arrB V c) (arrBias V c) (((cfg0.win 3).blk t).view.emb y)
  have hy : (y : S1024x1024.Idx) = ix2 (y 0) (y 1) := eq_ix2 y
  have hp : (y 0).val < 1024 := (y 0).isLt
  have hq : (y 1).val < 1024 := (y 1).isLt
  have hemb : ((cfg0.win 3).blk t).view.emb y = (ix2 ⟨1024 * (t.val / 8) + (y 0).val, by omega⟩ ⟨1024 * (t.val / 2 % 4) + (y 1).val, by omega⟩ : S8192x4096.Idx) := by
    funext a
    apply Fin.ext
    obtain ⟨-, -, -, -, -, -, e6, e7⟩ := idx_facts t
    match a with
    | ⟨0, _⟩ => show win0_3.index t 0 * 1024 + 1 * (y 0).val = 1024 * (t.val / 8) + (y 0).val; rw [e6]; omega
    | ⟨1, _⟩ => show win0_3.index t 1 * 1024 + 1 * (y 1).val = 1024 * (t.val / 2 % 4) + (y 1).val; rw [e7]; omega
  rw [hemb]
  refine (congrArg (k0_pay3 (accOf V c t.val t.isLt) (iblk V c 2 t)) hy).trans ?_
  refine (pay3_apply _ (iblk V c 2 t) (y 0) (y 1)).trans ?_
  rw [acc_apply V c t.val t.isLt (y 0) (y 1), iblk2_apply V c t (y 1), hl, slabs_sum]
  have hr : 1024 * (t.val / 8) + (y 0).val < 8192 := by omega
  have hj : 1024 * (t.val / 2 % 4) + (y 1).val < 4096 := by omega
  have hsum : (∑ k : Fin 2048, aN V c (1024 * (t.val / 8) + (y 0).val) k.val * bN V c (1024 * (t.val / 2 % 4) + (y 1).val) k.val)
      = ∑ k : Fin 2048, arrA V c (ix2 ⟨1024 * (t.val / 8) + (y 0).val, hr⟩ k) * arrB V c (ix2 ⟨1024 * (t.val / 2 % 4) + (y 1).val, hj⟩ k) :=
    Finset.sum_congr rfl fun k _ => by unfold aN bN; rw [dif_pos ⟨hr, k.isLt⟩, dif_pos ⟨hj, k.isLt⟩]
  rw [hsum]
  unfold biasN
  rw [dif_pos hj]
  rfl

theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v19).slice (win0_3.rect t)).set ↔ _
  rw [View.set_slice_whole, Rect.mem_set_unit]
  exact Iff.rfl

/-- Every entry of the output array lies in the block of the last point of some run. -/
theorem cover (i : S8192x4096.Idx) : ∃ t : Fin cfg0.N, (cfg0.win 3).flush t = true ∧ i ∈ ((cfg0.win 3).blk t).view.set := by
  have hN : cfg0.N = 64 := N_0
  have hi0 : (i 0).val < 8192 := (i 0).isLt
  have hi1 : (i 1).val < 4096 := (i 1).isLt
  let n : ℕ := 8 * ((i 0).val / 1024) + 2 * ((i 1).val / 1024) + 1
  have hn : n < cfg0.N := by rw [hN]; show 8 * ((i 0).val / 1024) + 2 * ((i 1).val / 1024) + 1 < 64; omega
  refine ⟨⟨n, hn⟩, (flush0_3 ⟨n, hn⟩).mpr (by show (8 * ((i 0).val / 1024) + 2 * ((i 1).val / 1024) + 1) % 2 = 1; omega), ?_⟩
  rw [mem_blk]
  obtain ⟨-, -, -, -, -, -, e6, e7⟩ := idx_facts ⟨n, hn⟩
  intro a
  match a with
  | ⟨0, _⟩ =>
    show win0_3.index ⟨n, hn⟩ 0 * 1024 ≤ (i 0).val ∧ (i 0).val < win0_3.index ⟨n, hn⟩ 0 * 1024 + 1024
    rw [e6]; show (8 * ((i 0).val / 1024) + 2 * ((i 1).val / 1024) + 1) / 8 * 1024 ≤ (i 0).val ∧ (i 0).val < (8 * ((i 0).val / 1024) + 2 * ((i 1).val / 1024) + 1) / 8 * 1024 + 1024
    omega
  | ⟨1, _⟩ =>
    show win0_3.index ⟨n, hn⟩ 1 * 1024 ≤ (i 1).val ∧ (i 1).val < win0_3.index ⟨n, hn⟩ 1 * 1024 + 1024
    rw [e7]; show (8 * ((i 0).val / 1024) + 2 * ((i 1).val / 1024) + 1) / 2 % 4 * 1024 ≤ (i 1).val ∧ (i 1).val < (8 * ((i 0).val / 1024) + 2 * ((i 1).val / 1024) + 1) / 2 % 4 * 1024 + 1024
    omega

/-- The output array after the region. -/
theorem final (c : Dev nD) : (dat V c).arrAt 3 cfg0.N = outArr (arrA V c) (arrB V c) (arrBias V c) :=
  (dat V c).arrAt_eq_of_cover 3 _ (fun t hf => flushed_eq V c t hf) cover

end Cert.KernelIdeal.Value0

end
-- ==== Proof.KernelIdealValue1.lean ====
import proofs.«106102_j67216238182776_1_alg».proof.Proof.KernelIdealLayer1
import proofs.«106102_j67216238182776_1_alg».proof.Proof.Spec
import proofs.«106102_j67216238182776_1_alg».proof.Proof.LibMatmulNT
import proofs.«106102_j67216238182776_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! # Layer 2 read at an entry

Over the extended reals the region's accumulator after the last slab of a run holds, at entry (p, q) of its block, the sum
over the whole shared axis of row p of the first operand's block row against row q of the second's: each slab adds its
own 1024 terms, and the slabs partition the axis. Adding the bias row and clamping at zero gives the block the
region writes back; the blocks tile the output array, so the array ends as one function of the three input arrays. -/

namespace Cert.KernelIdeal.Value1

open Cert.KernelIdeal Cert.KernelIdeal.Gen Cert.KernelIdeal.Layer1
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's three input arrays as it finds them, as functions into the extended reals. -/
abbrev arrA (c : Dev nD) : S8192x4096.Idx → EReal := V c main_v19
abbrev arrB (c : Dev nD) : S4096x4096.Idx → EReal := V c main_v13
abbrev arrBias (c : Dev nD) : S1x4096.Idx → EReal := V c main_v17

theorem pay1_apply (y : S1024x1024.Idx) : (k1_pay1 (F := Ideal)) y = Ideal.ofBits .f32 0x00000000#32 := by
  unfold k1_pay1
  simp only [shapeCast_self]
  rfl

theorem pay2_apply (v3 : Vec Ideal S1024x1024 .f32) (v4 v6 : Vec Ideal S1024x1024 .bf16) (p q : Fin 1024) :
    k1_pay2 v3 v4 v6 (ix2 p q) = v3 (ix2 p q) + ∑ k : Fin 1024, v4 (ix2 p k) * v6 (ix2 q k) := by
  unfold k1_pay2
  simp only [shapeCast_self]
  exact congrArg (v3 (ix2 p q) + ·) (Cert.LibMatmulNT.transposedRhs_matmul_zero_apply none v4 v6 p q)

theorem pay3_apply (v16 : Vec Ideal S1024x1024 .f32) (v17 : Vec Ideal S1x1024 .f32) (p q : Fin 1024) :
    k1_pay3 v16 v17 (ix2 p q) = max (v16 (ix2 p q) + v17 (ix2 (0 : Fin 1) q)) (Ideal.ofBits .f32 0x00000000#32) := by
  unfold k1_pay3
  simp only [shapeCast_self]
  show max (v16 (ix2 p q) + broadcastTo S1024x1024 v17 broadcasts_S1x1024_S1024x1024 (ix2 p q)) _ = _
  rw [broadcastTo_1b_ab_apply]
  rfl

theorem idx_facts : ∀ t : Fin cfg1.N,
    win1_0.index t (0 : Fin 2) = t.val / 16 ∧ win1_0.index t (1 : Fin 2) = t.val % 4
  ∧ win1_1.index t (0 : Fin 2) = t.val / 4 % 4 ∧ win1_1.index t (1 : Fin 2) = t.val % 4
  ∧ win1_2.index t (0 : Fin 2) = 0 ∧ win1_2.index t (1 : Fin 2) = t.val / 4 % 4
  ∧ win1_3.index t (0 : Fin 2) = t.val / 16 ∧ win1_3.index t (1 : Fin 2) = t.val / 4 % 4 :=
  (by decide +kernel : ∀ t : Fin grid1.N, _)

/-- The first operand as a function of two naturals (zero off the array). -/
def aN (c : Dev nD) (r k : ℕ) : EReal := if h : r < 8192 ∧ k < 4096 then arrA V c (ix2 ⟨r, h.1⟩ ⟨k, h.2⟩) else 0

theorem iblk0_apply (c : Dev nD) (t : Fin cfg1.N) (p kk : Fin 1024) :
    (iblk V c 0 t : Vec Ideal S1024x1024 .bf16) (ix2 p kk) = aN V c (1024 * (t.val / 16) + p.val) (1024 * (t.val % 4) + kk.val) := by
  have hN : cfg1.N = 128 := N_1
  have ht := t.isLt
  have hp := p.isLt
  have hk := kk.isLt
  unfold aN
  rw [dif_pos ⟨by omega, by omega⟩]
  unfold iblk
  rw [View.read_apply]
  show V c main_v19 _ = V c main_v19 _
  congr 1
  funext a
  apply Fin.ext
  obtain ⟨e0, e1, -⟩ := idx_facts t
  match a with
  | ⟨0, _⟩ => show win1_0.index t 0 * 1024 + 1 * p.val = 1024 * (t.val / 16) + p.val; rw [e0]; omega
  | ⟨1, _⟩ => show win1_0.index t 1 * 1024 + 1 * kk.val = 1024 * (t.val % 4) + kk.val; rw [e1]; omega

/-- The second operand as a function of two naturals (zero off the array). -/
def bN (c : Dev nD) (j k : ℕ) : EReal := if h : j < 4096 ∧ k < 4096 then arrB V c (ix2 ⟨j, h.1⟩ ⟨k, h.2⟩) else 0

theorem iblk1_apply (c : Dev nD) (t : Fin cfg1.N) (q kk : Fin 1024) :
    (iblk V c 1 t : Vec Ideal S1024x1024 .bf16) (ix2 q kk) = bN V c (1024 * (t.val / 4 % 4) + q.val) (1024 * (t.val % 4) + kk.val) := by
  have hN : cfg1.N = 128 := N_1
  have ht := t.isLt
  have hq := q.isLt
  have hk := kk.isLt
  unfold bN
  rw [dif_pos ⟨by omega, by omega⟩]
  unfold iblk
  rw [View.read_apply]
  show V c main_v13 _ = V c main_v13 _
  congr 1
  funext a
  apply Fin.ext
  obtain ⟨-, -, e2, e3, -⟩ := idx_facts t
  match a with
  | ⟨0, _⟩ => show win1_1.index t 0 * 1024 + 1 * q.val = 1024 * (t.val / 4 % 4) + q.val; rw [e2]; omega
  | ⟨1, _⟩ => show win1_1.index t 1 * 1024 + 1 * kk.val = 1024 * (t.val % 4) + kk.val; rw [e3]; omega

/-- The bias row as a function of a natural (zero off the row). -/
def biasN (c : Dev nD) (j : ℕ) : EReal := if h : j < 4096 then arrBias V c (ix2 (0 : Fin 1) ⟨j, h⟩) else 0

theorem iblk2_apply (c : Dev nD) (t : Fin cfg1.N) (q : Fin 1024) :
    (iblk V c 2 t : Vec Ideal S1x1024 .f32) (ix2 (0 : Fin 1) q) = biasN V c (1024 * (t.val / 4 % 4) + q.val) := by
  have hN : cfg1.N = 128 := N_1
  have ht := t.isLt
  have hq := q.isLt
  unfold biasN
  rw [dif_pos (by omega)]
  unfold iblk
  rw [View.read_apply]
  show V c main_v17 _ = V c main_v17 _
  congr 1
  funext a
  apply Fin.ext
  obtain ⟨-, -, -, -, e4, e5, -⟩ := idx_facts t
  match a with
  | ⟨0, _⟩ => show win1_2.index t 0 * 1 + 1 * 0 = 0; rw [e4]
  | ⟨1, _⟩ => show win1_2.index t 1 * 1024 + 1 * q.val = 1024 * (t.val / 4 % 4) + q.val; rw [e5]; omega

/-! ## The accumulator at an entry: the slabs' products summed in order -/

/-- Slab `s` of the contraction axis: the product of row `r` of the first operand with row `j` of the second over that slab. -/
def slab (c : Dev nD) (r j s : ℕ) : EReal := ∑ kk : Fin 1024, aN V c r (1024 * s + kk.val) * bN V c j (1024 * s + kk.val)

theorem acc_first (c : Dev nD) (t : Fin cfg1.N) (h0 : t.val % 4 = 0) (p q : Fin 1024) :
    accOf V c t.val t.isLt (ix2 p q)
      = slab V c (1024 * (t.val / 16) + p.val) (1024 * (t.val / 4 % 4) + q.val) (t.val % 4) := by
  refine (congrFun (accOf_first V c t h0) (ix2 p q)).trans ((pay2_apply _ (iblk V c 0 t) (iblk V c 1 t) p q).trans ?_)
  rw [pay1_apply, Ideal.ofBits_zero_f32, zero_add]
  unfold slab
  refine Finset.sum_congr rfl fun kk _ => ?_
  rw [iblk0_apply V c t p kk, iblk1_apply V c t q kk]

theorem acc_next (c : Dev nD) (t : Fin cfg1.N) (hne : ¬t.val % 4 = 0) (p q : Fin 1024) :
    accOf V c t.val t.isLt (ix2 p q)
      = accOf V c (t.val - 1) (Nat.lt_of_le_of_lt (Nat.sub_le _ _) t.isLt) (ix2 p q) + slab V c (1024 * (t.val / 16) + p.val) (1024 * (t.val / 4 % 4) + q.val) (t.val % 4) := by
  refine (congrFun (accOf_next V c t hne) (ix2 p q)).trans ((pay2_apply _ (iblk V c 0 t) (iblk V c 1 t) p q).trans ?_)
  unfold slab
  refine congrArg _ (Finset.sum_congr rfl fun kk _ => ?_)
  rw [iblk0_apply V c t p kk, iblk1_apply V c t q kk]

/-- After point `n` the accumulator's entry is zero plus the slabs of the run so far, in order. -/
theorem acc_apply (c : Dev nD) : ∀ (n : ℕ) (h : n < cfg1.N) (p q : Fin 1024),
    accOf V c n h (ix2 p q) = ∑ s ∈ Finset.range (n % 4 + 1), slab V c (1024 * (n / 16) + p.val) (1024 * (n / 4 % 4) + q.val) s
  | 0, h, p, q => by
    rw [acc_first V c ⟨0, h⟩ rfl p q]
    simp only [Nat.zero_mod, Nat.zero_add, Finset.sum_range_one]
  | n + 1, h, p, q => by
    by_cases hm : (n + 1) % 4 = 0
    · rw [acc_first V c ⟨n + 1, h⟩ hm p q]
      simp only [hm, Nat.zero_add, Finset.sum_range_one]
    · rw [acc_next V c ⟨n + 1, h⟩ hm p q]
      have ih := acc_apply c n (Nat.lt_of_succ_lt h) p q
      have e1 : (n + 1) / 16 = n / 16 := by omega
      have e2 : (n + 1) / 4 % 4 = n / 4 % 4 := by omega
      have e3 : (n + 1) % 4 = n % 4 + 1 := by omega
      show accOf V c n _ (ix2 p q) + slab V c (1024 * ((n + 1) / 16) + p.val) (1024 * ((n + 1) / 4 % 4) + q.val) ((n + 1) % 4) = _
      rw [ih, e1, e2, e3, Finset.sum_range_succ _ (n % 4 + 1)]

/-- All 4 slabs together are the whole contraction axis. -/
theorem slabs_sum (c : Dev nD) (r j : ℕ) :
    ∑ s ∈ Finset.range 4, slab V c r j s = ∑ k : Fin 4096, aN V c r k.val * bN V c j k.val := by
  rw [Finset.sum_range]
  have h := LibBlockSum.sum_blocks (M := EReal) 4 1024 (fun k : Fin (4 * 1024) => aN V c r k.val * bN V c j k.val)
  exact h.symm

/-! ## What the region leaves in its output array -/

/-- Entry (r, j) of the output array: row r of the first operand against row j of the second over the whole contraction
    axis, plus entry j of the bias row, clamped at zero. -/
def outArr (a : S8192x4096.Idx → EReal) (b : S4096x4096.Idx → EReal) (bias : S1x4096.Idx → EReal) : S8192x4096.Idx → EReal :=
  fun i => max ((∑ k : Fin 4096, a (ix2 (i 0) k) * b (ix2 (i 1) k)) + bias (ix2 (0 : Fin 1) (i 1))) (Ideal.ofBits .f32 0x00000000#32)

/-- What a flushing point writes back is its block of `outArr` of the arrays as the region finds them. -/
theorem flushed_eq (c : Dev nD) (t : Fin cfg1.N) (hf : (cfg1.win 3).flush t = true) :
    (dat V c).flushed 3 t = ((cfg1.win 3).blk t).view.read (Elt Ideal) (outArr (arrA V c) (arrB V c) (arrBias V c)) := by
  have hN : cfg1.N = 128 := N_1
  have ht := t.isLt
  have hl : t.val % 4 = 3 := (flush1_3 t).mp hf
  show (cfg1.win 3).cut (grid1.coords t) ((dat V c).after 3 t) = _
  rw [after_3]
  funext y
  show k1_pay3 (accOf V c t.val t.isLt) (iblk V c 2 t) y = outArr (arrA V c) (arrB V c) (arrBias V c) (((cfg1.win 3).blk t).view.emb y)
  have hy : (y : S1024x1024.Idx) = ix2 (y 0) (y 1) := eq_ix2 y
  have hp : (y 0).val < 1024 := (y 0).isLt
  have hq : (y 1).val < 1024 := (y 1).isLt
  have hemb : ((cfg1.win 3).blk t).view.emb y = (ix2 ⟨1024 * (t.val / 16) + (y 0).val, by omega⟩ ⟨1024 * (t.val / 4 % 4) + (y 1).val, by omega⟩ : S8192x4096.Idx) := by
    funext a
    apply Fin.ext
    obtain ⟨-, -, -, -, -, -, e6, e7⟩ := idx_facts t
    match a with
    | ⟨0, _⟩ => show win1_3.index t 0 * 1024 + 1 * (y 0).val = 1024 * (t.val / 16) + (y 0).val; rw [e6]; omega
    | ⟨1, _⟩ => show win1_3.index t 1 * 1024 + 1 * (y 1).val = 1024 * (t.val / 4 % 4) + (y 1).val; rw [e7]; omega
  rw [hemb]
  refine (congrArg (k1_pay3 (accOf V c t.val t.isLt) (iblk V c 2 t)) hy).trans ?_
  refine (pay3_apply _ (iblk V c 2 t) (y 0) (y 1)).trans ?_
  rw [acc_apply V c t.val t.isLt (y 0) (y 1), iblk2_apply V c t (y 1), hl, slabs_sum]
  have hr : 1024 * (t.val / 16) + (y 0).val < 8192 := by omega
  have hj : 1024 * (t.val / 4 % 4) + (y 1).val < 4096 := by omega
  have hsum : (∑ k : Fin 4096, aN V c (1024 * (t.val / 16) + (y 0).val) k.val * bN V c (1024 * (t.val / 4 % 4) + (y 1).val) k.val)
      = ∑ k : Fin 4096, arrA V c (ix2 ⟨1024 * (t.val / 16) + (y 0).val, hr⟩ k) * arrB V c (ix2 ⟨1024 * (t.val / 4 % 4) + (y 1).val, hj⟩ k) :=
    Finset.sum_congr rfl fun k _ => by unfold aN bN; rw [dif_pos ⟨hr, k.isLt⟩, dif_pos ⟨hj, k.isLt⟩]
  rw [hsum]
  unfold biasN
  rw [dif_pos hj]
  rfl

theorem mem_blk (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v20).slice (win1_3.rect t)).set ↔ _
  rw [View.set_slice_whole, Rect.mem_set_unit]
  exact Iff.rfl

/-- Every entry of the output array lies in the block of the last point of some run. -/
theorem cover (i : S8192x4096.Idx) : ∃ t : Fin cfg1.N, (cfg1.win 3).flush t = true ∧ i ∈ ((cfg1.win 3).blk t).view.set := by
  have hN : cfg1.N = 128 := N_1
  have hi0 : (i 0).val < 8192 := (i 0).isLt
  have hi1 : (i 1).val < 4096 := (i 1).isLt
  let n : ℕ := 16 * ((i 0).val / 1024) + 4 * ((i 1).val / 1024) + 3
  have hn : n < cfg1.N := by rw [hN]; show 16 * ((i 0).val / 1024) + 4 * ((i 1).val / 1024) + 3 < 128; omega
  refine ⟨⟨n, hn⟩, (flush1_3 ⟨n, hn⟩).mpr (by show (16 * ((i 0).val / 1024) + 4 * ((i 1).val / 1024) + 3) % 4 = 3; omega), ?_⟩
  rw [mem_blk]
  obtain ⟨-, -, -, -, -, -, e6, e7⟩ := idx_facts ⟨n, hn⟩
  intro a
  match a with
  | ⟨0, _⟩ =>
    show win1_3.index ⟨n, hn⟩ 0 * 1024 ≤ (i 0).val ∧ (i 0).val < win1_3.index ⟨n, hn⟩ 0 * 1024 + 1024
    rw [e6]; show (16 * ((i 0).val / 1024) + 4 * ((i 1).val / 1024) + 3) / 16 * 1024 ≤ (i 0).val ∧ (i 0).val < (16 * ((i 0).val / 1024) + 4 * ((i 1).val / 1024) + 3) / 16 * 1024 + 1024
    omega
  | ⟨1, _⟩ =>
    show win1_3.index ⟨n, hn⟩ 1 * 1024 ≤ (i 1).val ∧ (i 1).val < win1_3.index ⟨n, hn⟩ 1 * 1024 + 1024
    rw [e7]; show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
    omega

/-- The output array after the region. -/
theorem final (c : Dev nD) : (dat V c).arrAt 3 cfg1.N = outArr (arrA V c) (arrB V c) (arrBias V c) :=
  (dat V c).arrAt_eq_of_cover 3 _ (fun t hf => flushed_eq V c t hf) cover

end Cert.KernelIdeal.Value1

end
-- ==== Proof.KernelIdealValue2.lean ====
import proofs.«106102_j67216238182776_1_alg».proof.Proof.KernelIdealLayer2
import proofs.«106102_j67216238182776_1_alg».proof.Proof.Spec
import proofs.«106102_j67216238182776_1_alg».proof.Proof.LibMatmulNT
import proofs.«106102_j67216238182776_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! # Layer 3 read at an entry

Over the extended reals the region's accumulator after the last slab of a run holds, at entry (p, q) of its block, the sum
over the whole shared axis of row p of the first operand's block row against row q of the second's: each slab adds its
own 1024 terms, and the slabs partition the axis. Adding the bias row gives the block the
region writes back; the blocks tile the output array, so the array ends as one function of the three input arrays. -/

namespace Cert.KernelIdeal.Value2

open Cert.KernelIdeal Cert.KernelIdeal.Gen Cert.KernelIdeal.Layer2
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's three input arrays as it finds them, as functions into the extended reals. -/
abbrev arrA (c : Dev nD) : S8192x4096.Idx → EReal := V c main_v20
abbrev arrB (c : Dev nD) : S1024x4096.Idx → EReal := V c main_v14
abbrev arrBias (c : Dev nD) : S1x1024.Idx → EReal := V c main_v18

theorem pay1_apply (y : S1024x1024.Idx) : (k2_pay1 (F := Ideal)) y = Ideal.ofBits .f32 0x00000000#32 := by
  unfold k2_pay1
  simp only [shapeCast_self]
  rfl

theorem pay2_apply (v3 : Vec Ideal S1024x1024 .f32) (v4 v6 : Vec Ideal S1024x1024 .bf16) (p q : Fin 1024) :
    k2_pay2 v3 v4 v6 (ix2 p q) = v3 (ix2 p q) + ∑ k : Fin 1024, v4 (ix2 p k) * v6 (ix2 q k) := by
  unfold k2_pay2
  simp only [shapeCast_self]
  exact congrArg (v3 (ix2 p q) + ·) (Cert.LibMatmulNT.transposedRhs_matmul_zero_apply none v4 v6 p q)

theorem pay3_apply (v16 : Vec Ideal S1024x1024 .f32) (v17 : Vec Ideal S1x1024 .f32) (p q : Fin 1024) :
    k2_pay3 v16 v17 (ix2 p q) = v16 (ix2 p q) + v17 (ix2 (0 : Fin 1) q) := by
  unfold k2_pay3
  simp only [shapeCast_self]
  show v16 (ix2 p q) + broadcastTo S1024x1024 v17 broadcasts_S1x1024_S1024x1024 (ix2 p q) = _
  rw [broadcastTo_1b_ab_apply]

theorem idx_facts : ∀ t : Fin cfg2.N,
    win2_0.index t (0 : Fin 2) = t.val / 4 ∧ win2_0.index t (1 : Fin 2) = t.val % 4
  ∧ win2_1.index t (0 : Fin 2) = t.val / 4 % 1 ∧ win2_1.index t (1 : Fin 2) = t.val % 4
  ∧ win2_2.index t (0 : Fin 2) = 0 ∧ win2_2.index t (1 : Fin 2) = t.val / 4 % 1
  ∧ win2_3.index t (0 : Fin 2) = t.val / 4 ∧ win2_3.index t (1 : Fin 2) = t.val / 4 % 1 :=
  (by decide +kernel : ∀ t : Fin grid2.N, _)

/-- The first operand as a function of two naturals (zero off the array). -/
def aN (c : Dev nD) (r k : ℕ) : EReal := if h : r < 8192 ∧ k < 4096 then arrA V c (ix2 ⟨r, h.1⟩ ⟨k, h.2⟩) else 0

theorem iblk0_apply (c : Dev nD) (t : Fin cfg2.N) (p kk : Fin 1024) :
    (iblk V c 0 t : Vec Ideal S1024x1024 .bf16) (ix2 p kk) = aN V c (1024 * (t.val / 4) + p.val) (1024 * (t.val % 4) + kk.val) := by
  have hN : cfg2.N = 32 := N_2
  have ht := t.isLt
  have hp := p.isLt
  have hk := kk.isLt
  unfold aN
  rw [dif_pos ⟨by omega, by omega⟩]
  unfold iblk
  rw [View.read_apply]
  show V c main_v20 _ = V c main_v20 _
  congr 1
  funext a
  apply Fin.ext
  obtain ⟨e0, e1, -⟩ := idx_facts t
  match a with
  | ⟨0, _⟩ => show win2_0.index t 0 * 1024 + 1 * p.val = 1024 * (t.val / 4) + p.val; rw [e0]; omega
  | ⟨1, _⟩ => show win2_0.index t 1 * 1024 + 1 * kk.val = 1024 * (t.val % 4) + kk.val; rw [e1]; omega

/-- The second operand as a function of two naturals (zero off the array). -/
def bN (c : Dev nD) (j k : ℕ) : EReal := if h : j < 1024 ∧ k < 4096 then arrB V c (ix2 ⟨j, h.1⟩ ⟨k, h.2⟩) else 0

theorem iblk1_apply (c : Dev nD) (t : Fin cfg2.N) (q kk : Fin 1024) :
    (iblk V c 1 t : Vec Ideal S1024x1024 .bf16) (ix2 q kk) = bN V c (1024 * (t.val / 4 % 1) + q.val) (1024 * (t.val % 4) + kk.val) := by
  have hN : cfg2.N = 32 := N_2
  have ht := t.isLt
  have hq := q.isLt
  have hk := kk.isLt
  unfold bN
  rw [dif_pos ⟨by omega, by omega⟩]
  unfold iblk
  rw [View.read_apply]
  show V c main_v14 _ = V c main_v14 _
  congr 1
  funext a
  apply Fin.ext
  obtain ⟨-, -, e2, e3, -⟩ := idx_facts t
  match a with
  | ⟨0, _⟩ => show win2_1.index t 0 * 1024 + 1 * q.val = 1024 * (t.val / 4 % 1) + q.val; rw [e2]; omega
  | ⟨1, _⟩ => show win2_1.index t 1 * 1024 + 1 * kk.val = 1024 * (t.val % 4) + kk.val; rw [e3]; omega

/-- The bias row as a function of a natural (zero off the row). -/
def biasN (c : Dev nD) (j : ℕ) : EReal := if h : j < 1024 then arrBias V c (ix2 (0 : Fin 1) ⟨j, h⟩) else 0

theorem iblk2_apply (c : Dev nD) (t : Fin cfg2.N) (q : Fin 1024) :
    (iblk V c 2 t : Vec Ideal S1x1024 .f32) (ix2 (0 : Fin 1) q) = biasN V c (1024 * (t.val / 4 % 1) + q.val) := by
  have hN : cfg2.N = 32 := N_2
  have ht := t.isLt
  have hq := q.isLt
  unfold biasN
  rw [dif_pos (by omega)]
  unfold iblk
  rw [View.read_apply]
  show V c main_v18 _ = V c main_v18 _
  congr 1
  funext a
  apply Fin.ext
  obtain ⟨-, -, -, -, e4, e5, -⟩ := idx_facts t
  match a with
  | ⟨0, _⟩ => show win2_2.index t 0 * 1 + 1 * 0 = 0; rw [e4]
  | ⟨1, _⟩ => show win2_2.index t 1 * 1024 + 1 * q.val = 1024 * (t.val / 4 % 1) + q.val; rw [e5]; omega

/-! ## The accumulator at an entry: the slabs' products summed in order -/

/-- Slab `s` of the contraction axis: the product of row `r` of the first operand with row `j` of the second over that slab. -/
def slab (c : Dev nD) (r j s : ℕ) : EReal := ∑ kk : Fin 1024, aN V c r (1024 * s + kk.val) * bN V c j (1024 * s + kk.val)

theorem acc_first (c : Dev nD) (t : Fin cfg2.N) (h0 : t.val % 4 = 0) (p q : Fin 1024) :
    accOf V c t.val t.isLt (ix2 p q)
      = slab V c (1024 * (t.val / 4) + p.val) (1024 * (t.val / 4 % 1) + q.val) (t.val % 4) := by
  refine (congrFun (accOf_first V c t h0) (ix2 p q)).trans ((pay2_apply _ (iblk V c 0 t) (iblk V c 1 t) p q).trans ?_)
  rw [pay1_apply, Ideal.ofBits_zero_f32, zero_add]
  unfold slab
  refine Finset.sum_congr rfl fun kk _ => ?_
  rw [iblk0_apply V c t p kk, iblk1_apply V c t q kk]

theorem acc_next (c : Dev nD) (t : Fin cfg2.N) (hne : ¬t.val % 4 = 0) (p q : Fin 1024) :
    accOf V c t.val t.isLt (ix2 p q)
      = accOf V c (t.val - 1) (Nat.lt_of_le_of_lt (Nat.sub_le _ _) t.isLt) (ix2 p q) + slab V c (1024 * (t.val / 4) + p.val) (1024 * (t.val / 4 % 1) + q.val) (t.val % 4) := by
  refine (congrFun (accOf_next V c t hne) (ix2 p q)).trans ((pay2_apply _ (iblk V c 0 t) (iblk V c 1 t) p q).trans ?_)
  unfold slab
  refine congrArg _ (Finset.sum_congr rfl fun kk _ => ?_)
  rw [iblk0_apply V c t p kk, iblk1_apply V c t q kk]

/-- After point `n` the accumulator's entry is zero plus the slabs of the run so far, in order. -/
theorem acc_apply (c : Dev nD) : ∀ (n : ℕ) (h : n < cfg2.N) (p q : Fin 1024),
    accOf V c n h (ix2 p q) = ∑ s ∈ Finset.range (n % 4 + 1), slab V c (1024 * (n / 4) + p.val) (1024 * (n / 4 % 1) + q.val) s
  | 0, h, p, q => by
    rw [acc_first V c ⟨0, h⟩ rfl p q]
    simp only [Nat.zero_mod, Nat.zero_add, Finset.sum_range_one]
  | n + 1, h, p, q => by
    by_cases hm : (n + 1) % 4 = 0
    · rw [acc_first V c ⟨n + 1, h⟩ hm p q]
      simp only [hm, Nat.zero_add, Finset.sum_range_one]
    · rw [acc_next V c ⟨n + 1, h⟩ hm p q]
      have ih := acc_apply c n (Nat.lt_of_succ_lt h) p q
      have e1 : (n + 1) / 4 = n / 4 := by omega
      have e2 : (n + 1) / 4 % 1 = n / 4 % 1 := by omega
      have e3 : (n + 1) % 4 = n % 4 + 1 := by omega
      show accOf V c n _ (ix2 p q) + slab V c (1024 * ((n + 1) / 4) + p.val) (1024 * ((n + 1) / 4 % 1) + q.val) ((n + 1) % 4) = _
      rw [ih]
      simp only [e1, e2, e3]
      rw [Finset.sum_range_succ _ (n % 4 + 1)]

/-- All 4 slabs together are the whole contraction axis. -/
theorem slabs_sum (c : Dev nD) (r j : ℕ) :
    ∑ s ∈ Finset.range 4, slab V c r j s = ∑ k : Fin 4096, aN V c r k.val * bN V c j k.val := by
  rw [Finset.sum_range]
  have h := LibBlockSum.sum_blocks (M := EReal) 4 1024 (fun k : Fin (4 * 1024) => aN V c r k.val * bN V c j k.val)
  exact h.symm

/-! ## What the region leaves in its output array -/

/-- Entry (r, j) of the output array: row r of the first operand against row j of the second over the whole contraction
    axis, plus entry j of the bias row. -/
def outArr (a : S8192x4096.Idx → EReal) (b : S1024x4096.Idx → EReal) (bias : S1x1024.Idx → EReal) : S8192x1024.Idx → EReal :=
  fun i => (∑ k : Fin 4096, a (ix2 (i 0) k) * b (ix2 (i 1) k)) + bias (ix2 (0 : Fin 1) (i 1))

/-- What a flushing point writes back is its block of `outArr` of the arrays as the region finds them. -/
theorem flushed_eq (c : Dev nD) (t : Fin cfg2.N) (hf : (cfg2.win 3).flush t = true) :
    (dat V c).flushed 3 t = ((cfg2.win 3).blk t).view.read (Elt Ideal) (outArr (arrA V c) (arrB V c) (arrBias V c)) := by
  have hN : cfg2.N = 32 := N_2
  have ht := t.isLt
  have hl : t.val % 4 = 3 := (flush2_3 t).mp hf
  show (cfg2.win 3).cut (grid2.coords t) ((dat V c).after 3 t) = _
  rw [after_3]
  funext y
  show k2_pay3 (accOf V c t.val t.isLt) (iblk V c 2 t) y = outArr (arrA V c) (arrB V c) (arrBias V c) (((cfg2.win 3).blk t).view.emb y)
  have hy : (y : S1024x1024.Idx) = ix2 (y 0) (y 1) := eq_ix2 y
  have hp : (y 0).val < 1024 := (y 0).isLt
  have hq : (y 1).val < 1024 := (y 1).isLt
  have hemb : ((cfg2.win 3).blk t).view.emb y = (ix2 ⟨1024 * (t.val / 4) + (y 0).val, by omega⟩ ⟨1024 * (t.val / 4 % 1) + (y 1).val, by omega⟩ : S8192x1024.Idx) := by
    funext a
    apply Fin.ext
    obtain ⟨-, -, -, -, -, -, e6, e7⟩ := idx_facts t
    match a with
    | ⟨0, _⟩ => show win2_3.index t 0 * 1024 + 1 * (y 0).val = 1024 * (t.val / 4) + (y 0).val; rw [e6]; omega
    | ⟨1, _⟩ => show win2_3.index t 1 * 1024 + 1 * (y 1).val = 1024 * (t.val / 4 % 1) + (y 1).val; rw [e7]; omega
  rw [hemb]
  refine (congrArg (k2_pay3 (accOf V c t.val t.isLt) (iblk V c 2 t)) hy).trans ?_
  refine (pay3_apply _ (iblk V c 2 t) (y 0) (y 1)).trans ?_
  rw [acc_apply V c t.val t.isLt (y 0) (y 1), iblk2_apply V c t (y 1), hl, slabs_sum]
  have hr : 1024 * (t.val / 4) + (y 0).val < 8192 := by omega
  have hj : 1024 * (t.val / 4 % 1) + (y 1).val < 1024 := by omega
  have hsum : (∑ k : Fin 4096, aN V c (1024 * (t.val / 4) + (y 0).val) k.val * bN V c (1024 * (t.val / 4 % 1) + (y 1).val) k.val)
      = ∑ k : Fin 4096, arrA V c (ix2 ⟨1024 * (t.val / 4) + (y 0).val, hr⟩ k) * arrB V c (ix2 ⟨1024 * (t.val / 4 % 1) + (y 1).val, hj⟩ k) :=
    Finset.sum_congr rfl fun k _ => by unfold aN bN; rw [dif_pos ⟨hr, k.isLt⟩, dif_pos ⟨hj, k.isLt⟩]
  rw [hsum]
  unfold biasN
  rw [dif_pos hj]
  rfl

theorem mem_blk (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v21).slice (win2_3.rect t)).set ↔ _
  rw [View.set_slice_whole, Rect.mem_set_unit]
  exact Iff.rfl

/-- Every entry of the output array lies in the block of the last point of some run. -/
theorem cover (i : S8192x1024.Idx) : ∃ t : Fin cfg2.N, (cfg2.win 3).flush t = true ∧ i ∈ ((cfg2.win 3).blk t).view.set := by
  have hN : cfg2.N = 32 := N_2
  have hi0 : (i 0).val < 8192 := (i 0).isLt
  have hi1 : (i 1).val < 1024 := (i 1).isLt
  let n : ℕ := 4 * ((i 0).val / 1024) + 4 * ((i 1).val / 1024) + 3
  have hn : n < cfg2.N := by rw [hN]; show 4 * ((i 0).val / 1024) + 4 * ((i 1).val / 1024) + 3 < 32; omega
  refine ⟨⟨n, hn⟩, (flush2_3 ⟨n, hn⟩).mpr (by show (4 * ((i 0).val / 1024) + 4 * ((i 1).val / 1024) + 3) % 4 = 3; omega), ?_⟩
  rw [mem_blk]
  obtain ⟨-, -, -, -, -, -, e6, e7⟩ := idx_facts ⟨n, hn⟩
  intro a
  match a with
  | ⟨0, _⟩ =>
    show win2_3.index ⟨n, hn⟩ 0 * 1024 ≤ (i 0).val ∧ (i 0).val < win2_3.index ⟨n, hn⟩ 0 * 1024 + 1024
    rw [e6]; show (4 * ((i 0).val / 1024) + 4 * ((i 1).val / 1024) + 3) / 4 * 1024 ≤ (i 0).val ∧ (i 0).val < (4 * ((i 0).val / 1024) + 4 * ((i 1).val / 1024) + 3) / 4 * 1024 + 1024
    omega
  | ⟨1, _⟩ =>
    show win2_3.index ⟨n, hn⟩ 1 * 1024 ≤ (i 1).val ∧ (i 1).val < win2_3.index ⟨n, hn⟩ 1 * 1024 + 1024
    rw [e7]; show (4 * ((i 0).val / 1024) + 4 * ((i 1).val / 1024) + 3) / 4 % 1 * 1024 ≤ (i 1).val ∧ (i 1).val < (4 * ((i 0).val / 1024) + 4 * ((i 1).val / 1024) + 3) / 4 % 1 * 1024 + 1024
    omega

/-- The output array after the region. -/
theorem final (c : Dev nD) : (dat V c).arrAt 3 cfg2.N = outArr (arrA V c) (arrB V c) (arrBias V c) :=
  (dat V c).arrAt_eq_of_cover 3 _ (fun t hf => flushed_eq V c t hf) cover

end Cert.KernelIdeal.Value2

end
-- ==== Proof.KernelIdealValue.lean ====
/-
  The kernel's result as the specified network.  The program is a stretch of host operations and then three regions,
  one per layer.  The host stretch masks the first two weights (the weight times the float image of its broadcast tile
  mask, entry by entry), changes the format of the batch and of the three weights — the identity on the extended
  reals — and turns each bias [n] into a one-row matrix [1, n].  Each region leaves in its output array, at (r, j), the sum
  over the shared axis of row r of its input against row j of its weight, plus entry j of its bias row, the first two
  clamped at zero; a region reads the arrays the host stretch or the region before it left, every other buffer passing
  through unchanged.  Reading the bias row back as the bias, the three output arrays are the three layers of the
  specification, and the last one is the network of the arguments.
-/
import proofs.«106102_j67216238182776_1_alg».proof.Proof.KernelIdealRun
import proofs.«106102_j67216238182776_1_alg».proof.Proof.KernelIdealValue0
import proofs.«106102_j67216238182776_1_alg».proof.Proof.KernelIdealValue1
import proofs.«106102_j67216238182776_1_alg».proof.Proof.KernelIdealValue2
import proofs.«106102_j67216238182776_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Value

open Cert.KernelIdeal Cert.KernelIdeal.Gen
open Idealize.ShloMosaic Idealize.ShloMosaic.TcCoe Idealize.ShloMosaic.ValueIdx Idealize.SL.Sem Idealize.ShloMosaic.StableHlo

/-! ## A region's output array is a layer of the specification -/

/-- The first region's array, its bias row a vector with one row added above, is the clamped first layer. -/
theorem out0_eq (a : FVec Ideal S8192x2048 .f32) (w : FVec Ideal S4096x2048 .f32) (b : FVec Ideal S4096 .f32) (h : S4096.ShapeCasts S1x4096) :
    Value0.outArr a w (shapeCast S1x4096 b h) = Cert.Spec.clamp (Cert.Spec.affine a w b) :=
  funext fun i => congrArg (fun t => max ((∑ k : Fin 2048, a (ix2 (i 0) k) * w (ix2 (i 1) k)) + t) (Ideal.ofBits .f32 0x00000000#32))
    (shapeCast_a_1a_apply b h 0 (i 1))

/-- The second region's array is the clamped second layer. -/
theorem out1_eq (a : FVec Ideal S8192x4096 .f32) (w : FVec Ideal S4096x4096 .f32) (b : FVec Ideal S4096 .f32) (h : S4096.ShapeCasts S1x4096) :
    Value1.outArr a w (shapeCast S1x4096 b h) = Cert.Spec.clamp (Cert.Spec.affine a w b) :=
  funext fun i => congrArg (fun t => max ((∑ k : Fin 4096, a (ix2 (i 0) k) * w (ix2 (i 1) k)) + t) (Ideal.ofBits .f32 0x00000000#32))
    (shapeCast_a_1a_apply b h 0 (i 1))

/-- The third region's array is the output layer. -/
theorem out2_eq (a : FVec Ideal S8192x4096 .f32) (w : FVec Ideal S1024x4096 .f32) (b : FVec Ideal S1024 .f32) (h : S1024.ShapeCasts S1x1024) :
    Value2.outArr a w (shapeCast S1x1024 b h) = Cert.Spec.affine a w b :=
  funext fun i => congrArg (fun t => (∑ k : Fin 4096, a (ix2 (i 0) k) * w (ix2 (i 1) k)) + t)
    (shapeCast_a_1a_apply b h 0 (i 1))

variable (m : (ℓ : Loc nD τ sig) → Buf (Elt Ideal) ℓ) (c : Dev nD)

/-! ## What the host stretch leaves -/

/-- The first masked weight: the first weight times the float image of its tile mask, broadcast up to the weight's shape. -/
abbrev w1e : FVec Ideal S4096x2048 .f32 := mulf (m ((c.tc : Thread nD τ).loc main_arg1)) (uitofp .f32 (shapeCast S4096x2048 (broadcastInDim S4096x64x32 ![0, 1] bcast_S4096x64_S4096x64x32_0_1 (shapeCast S4096x64 (broadcastInDim S128x32x64 ![0, 2] bcast_S128x64_S128x32x64_0_2 (m ((c.tc : Thread nD τ).loc main_arg7))) shapeCasts_S128x32x64_S4096x64)) shapeCasts_S4096x64x32_S4096x2048))
/-- The second masked weight. -/
abbrev w2e : FVec Ideal S4096x4096 .f32 := mulf (m ((c.tc : Thread nD τ).loc main_arg3)) (uitofp .f32 (shapeCast S4096x4096 (broadcastInDim S4096x128x32 ![0, 1] bcast_S4096x128_S4096x128x32_0_1 (shapeCast S4096x128 (broadcastInDim S128x32x128 ![0, 2] bcast_S128x128_S128x32x128_0_2 (m ((c.tc : Thread nD τ).loc main_arg8))) shapeCasts_S128x32x128_S4096x128)) shapeCasts_S4096x128x32_S4096x4096))

/-- The first layer's input is the batch: the change of format is the identity on the extended reals. -/
theorem host_x : @Eq (FVec Ideal S8192x2048 .f32) (Run.V1 m c main_v15) (m ((c.tc : Thread nD τ).loc main_arg0)) := by
  show StableHlo.after hostOps0 (fun b => m (c, b)) (Proc.devRef .tc main_v15) = _
  after_results
  rfl

/-- The first layer's weight is the first weight times its mask, entry by entry. -/
theorem host_w1 : @Eq (FVec Ideal S4096x2048 .f32) (Run.V1 m c main_v6) (w1e m c) := by
  show StableHlo.after hostOps0 (fun b => m (c, b)) (Proc.devRef .tc main_v6) = _
  after_results
  rfl

/-- The second layer's weight is the second weight times its mask. -/
theorem host_w2 : @Eq (FVec Ideal S4096x4096 .f32) (Run.V1 m c main_v13) (w2e m c) := by
  show StableHlo.after hostOps0 (fun b => m (c, b)) (Proc.devRef .tc main_v13) = _
  after_results
  rfl

/-- The output layer's weight is the output weight. -/
theorem host_wo : @Eq (FVec Ideal S1024x4096 .f32) (Run.V1 m c main_v14) (m ((c.tc : Thread nD τ).loc main_arg5)) := by
  show StableHlo.after hostOps0 (fun b => m (c, b)) (Proc.devRef .tc main_v14) = _
  after_results
  rfl

/-- The first bias as a one-row matrix. -/
theorem host_b1 : @Eq (FVec Ideal S1x4096 .f32) (Run.V1 m c main_v16) (shapeCast S1x4096 (m ((c.tc : Thread nD τ).loc main_arg2)) shapeCasts_S4096_S1x4096) := by
  show StableHlo.after hostOps0 (fun b => m (c, b)) (Proc.devRef .tc main_v16) = _
  after_results
  rfl

/-- The second bias as a one-row matrix. -/
theorem host_b2 : @Eq (FVec Ideal S1x4096 .f32) (Run.V1 m c main_v17) (shapeCast S1x4096 (m ((c.tc : Thread nD τ).loc main_arg4)) shapeCasts_S4096_S1x4096) := by
  show StableHlo.after hostOps0 (fun b => m (c, b)) (Proc.devRef .tc main_v17) = _
  after_results
  rfl

/-- The output bias as a one-row matrix. -/
theorem host_bo : @Eq (FVec Ideal S1x1024 .f32) (Run.V1 m c main_v18) (shapeCast S1x1024 (m ((c.tc : Thread nD τ).loc main_arg6)) shapeCasts_S1024_S1x1024) := by
  show StableHlo.after hostOps0 (fun b => m (c, b)) (Proc.devRef .tc main_v18) = _
  after_results
  rfl

/-! ## The three regions in order -/

/-- The first layer of the arguments. -/
abbrev layer1 : FVec Ideal S8192x4096 .f32 := Cert.Spec.clamp (Cert.Spec.affine (m ((c.tc : Thread nD τ).loc main_arg0)) (w1e m c) (m ((c.tc : Thread nD τ).loc main_arg2)))
/-- The second layer of the arguments. -/
abbrev layer2 : FVec Ideal S8192x4096 .f32 := Cert.Spec.clamp (Cert.Spec.affine (layer1 m c) (w2e m c) (m ((c.tc : Thread nD τ).loc main_arg4)))

/-- After the first region its output array holds the first layer. -/
theorem region0 : @Eq (FVec Ideal S8192x4096 .f32) (Run.V2 m c main_v19) (layer1 m c) := by
  refine (Run.W2_arr m c 3).trans ((Value0.final (Run.V1 m) c).trans ?_)
  show Value0.outArr (Run.V1 m c main_v15) (Run.V1 m c main_v6) (Run.V1 m c main_v16) = _
  rw [host_x, host_w1, host_b1]
  exact out0_eq _ _ _ _

/-- The first region leaves the second layer's weight as the host stretch left it. -/
theorem keep0_w2 : @Eq (FVec Ideal S4096x4096 .f32) (Run.V2 m c main_v13) (w2e m c) :=
  (Run.W2_of_ne m c main_v13 (by decide)).trans (host_w2 m c)
/-- … and the second bias row. -/
theorem keep0_b2 : @Eq (FVec Ideal S1x4096 .f32) (Run.V2 m c main_v17) (shapeCast S1x4096 (m ((c.tc : Thread nD τ).loc main_arg4)) shapeCasts_S4096_S1x4096) :=
  (Run.W2_of_ne m c main_v17 (by decide)).trans (host_b2 m c)

/-- After the second region its output array holds the second layer. -/
theorem region1 : @Eq (FVec Ideal S8192x4096 .f32) (Run.V3 m c main_v20) (layer2 m c) := by
  refine (Run.W3_arr m c 3).trans ((Value1.final (Run.V2 m) c).trans ?_)
  show Value1.outArr (Run.V2 m c main_v19) (Run.V2 m c main_v13) (Run.V2 m c main_v17) = _
  rw [region0, keep0_w2, keep0_b2]
  exact out1_eq _ _ _ _

/-- The first two regions leave the output layer's weight as the host stretch left it. -/
theorem keep1_wo : @Eq (FVec Ideal S1024x4096 .f32) (Run.V3 m c main_v14) (m ((c.tc : Thread nD τ).loc main_arg5)) :=
  (Run.W3_of_ne m c main_v14 (by decide)).trans ((Run.W2_of_ne m c main_v14 (by decide)).trans (host_wo m c))
/-- … and the output bias row. -/
theorem keep1_bo : @Eq (FVec Ideal S1x1024 .f32) (Run.V3 m c main_v18) (shapeCast S1x1024 (m ((c.tc : Thread nD τ).loc main_arg6)) shapeCasts_S1024_S1x1024) :=
  (Run.W3_of_ne m c main_v18 (by decide)).trans ((Run.W2_of_ne m c main_v18 (by decide)).trans (host_bo m c))

/-- The last region's output array, the program's result, is the specified network of the argument arrays, the masked
    weights the weights times the masks as the host stretch builds them. -/
theorem kernel_result :
    (Layer2.dat (Run.V3 m) c).arrAt 3 cfg2.N
      = Cert.Spec.net (m ((c.tc : Thread nD τ).loc main_arg0)) (mulf (m ((c.tc : Thread nD τ).loc main_arg1)) (uitofp .f32 (shapeCast S4096x2048 (broadcastInDim S4096x64x32 ![0, 1] bcast_S4096x64_S4096x64x32_0_1 (shapeCast S4096x64 (broadcastInDim S128x32x64 ![0, 2] bcast_S128x64_S128x32x64_0_2 (m ((c.tc : Thread nD τ).loc main_arg7))) shapeCasts_S128x32x64_S4096x64)) shapeCasts_S4096x64x32_S4096x2048))) (m ((c.tc : Thread nD τ).loc main_arg2))
        (mulf (m ((c.tc : Thread nD τ).loc main_arg3)) (uitofp .f32 (shapeCast S4096x4096 (broadcastInDim S4096x128x32 ![0, 1] bcast_S4096x128_S4096x128x32_0_1 (shapeCast S4096x128 (broadcastInDim S128x32x128 ![0, 2] bcast_S128x128_S128x32x128_0_2 (m ((c.tc : Thread nD τ).loc main_arg8))) shapeCasts_S128x32x128_S4096x128)) shapeCasts_S4096x128x32_S4096x4096))) (m ((c.tc : Thread nD τ).loc main_arg4)) (m ((c.tc : Thread nD τ).loc main_arg5)) (m ((c.tc : Thread nD τ).loc main_arg6)) := by
  refine (Value2.final (Run.V3 m) c).trans ?_
  show Value2.outArr (Run.V3 m c main_v20) (Run.V3 m c main_v14) (Run.V3 m c main_v18) = _
  rw [region1, keep1_wo, keep1_bo]
  exact out2_eq _ _ _ _

/-! ## The run -/

/-- From any memory with zero counters every weakly fair execution of the program terminates with the result array at the
    specified network of the arguments and every argument as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v21)
        = Cert.Spec.net (m ((c.tc : Thread nD τ).loc main_arg0)) (mulf (m ((c.tc : Thread nD τ).loc main_arg1)) (uitofp .f32 (shapeCast S4096x2048 (broadcastInDim S4096x64x32 ![0, 1] bcast_S4096x64_S4096x64x32_0_1 (shapeCast S4096x64 (broadcastInDim S128x32x64 ![0, 2] bcast_S128x64_S128x32x64_0_2 (m ((c.tc : Thread nD τ).loc main_arg7))) shapeCasts_S128x32x64_S4096x64)) shapeCasts_S4096x64x32_S4096x2048))) (m ((c.tc : Thread nD τ).loc main_arg2))
        (mulf (m ((c.tc : Thread nD τ).loc main_arg3)) (uitofp .f32 (shapeCast S4096x4096 (broadcastInDim S4096x128x32 ![0, 1] bcast_S4096x128_S4096x128x32_0_1 (shapeCast S4096x128 (broadcastInDim S128x32x128 ![0, 2] bcast_S128x128_S128x32x128_0_2 (m ((c.tc : Thread nD τ).loc main_arg8))) shapeCasts_S128x32x128_S4096x128)) shapeCasts_S4096x128x32_S4096x4096))) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (kernel_result m c), (h c).2⟩) (Run.run_result (F := Ideal) m ρ)

end Cert.KernelIdeal.Value

end
-- ==== Proof.RefValue.lean ====
/-
  The reference network read as the specification.  The reference computes three layers
  h ↦ h · Wᵀ + b on a batch x : [8192, 2048], the first two followed by a maximum with the constant zero,
  the first two weights multiplied entry by entry by a mask that was broadcast up from a tile mask and
  converted to a float.  Each matrix product is a contraction of axis 1 of the input with axis 0 of the
  TRANSPOSED weight, so entry (r, j) of a layer is Σ_k h[r, k] · W[j, k] + b[j]: the bias reaches [A, N] by two
  broadcasts ([N] → [1, N] → [A, N]) and is read at j, the zero is a scalar broadcast and is read as its word.
  The masks are left as the stages that produce them: they enter the specification as given matrices.
-/
import proofs.«106102_j67216238182776_1_alg».proof.Proof.Gen.ReferenceIdeal.Read
import proofs.«106102_j67216238182776_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## Where each layer reads its operands -/

/-- Layer 1, the input's row r at position k of the shared axis. -/
theorem lidx1 (r : Fin 8192) (j : Fin 4096) (k : Fin 2048) : lidx_main_v7 (ix2 r j) k = ix2 r k :=
  funext fun a => Fin.ext (by match a with | ⟨0, _⟩ => rfl | ⟨1, _⟩ => rfl)
/-- Layer 1, the transposed weight at (k, j) is the weight at (j, k). -/
theorem ridx1 (r : Fin 8192) (j : Fin 4096) (k : Fin 2048) : idx_main_v6 (ridx_main_v7 (ix2 r j) k) = ix2 j k :=
  funext fun a => Fin.ext (by match a with | ⟨0, _⟩ => rfl | ⟨1, _⟩ => rfl)
/-- Layer 1, the twice-broadcast bias at (r, j) is the bias at j. -/
theorem bidx1 (r : Fin 8192) (j : Fin 4096) : idx_main_v8 (idx_main_v9 (ix2 r j)) = ix1 j :=
  funext fun a => Fin.ext (by match a with | ⟨0, _⟩ => rfl)

/-- Layer 2, the hidden row r at position k. -/
theorem lidx2 (r : Fin 8192) (j : Fin 4096) (k : Fin 4096) : lidx_main_v19 (ix2 r j) k = ix2 r k :=
  funext fun a => Fin.ext (by match a with | ⟨0, _⟩ => rfl | ⟨1, _⟩ => rfl)
/-- Layer 2, the transposed weight at (k, j) is the weight at (j, k). -/
theorem ridx2 (r : Fin 8192) (j : Fin 4096) (k : Fin 4096) : idx_main_v18 (ridx_main_v19 (ix2 r j) k) = ix2 j k :=
  funext fun a => Fin.ext (by match a with | ⟨0, _⟩ => rfl | ⟨1, _⟩ => rfl)
/-- Layer 2, the bias at j. -/
theorem bidx2 (r : Fin 8192) (j : Fin 4096) : idx_main_v20 (idx_main_v21 (ix2 r j)) = ix1 j :=
  funext fun a => Fin.ext (by match a with | ⟨0, _⟩ => rfl)

/-- Layer 3, the hidden row r at position k. -/
theorem lidx3 (r : Fin 8192) (j : Fin 1024) (k : Fin 4096) : lidx_main_v25 (ix2 r j) k = ix2 r k :=
  funext fun a => Fin.ext (by match a with | ⟨0, _⟩ => rfl | ⟨1, _⟩ => rfl)
/-- Layer 3, the transposed weight at (k, j) is the weight at (j, k). -/
theorem ridx3 (r : Fin 8192) (j : Fin 1024) (k : Fin 4096) : idx_main_v24 (ridx_main_v25 (ix2 r j) k) = ix2 j k :=
  funext fun a => Fin.ext (by match a with | ⟨0, _⟩ => rfl | ⟨1, _⟩ => rfl)
/-- Layer 3, the bias at j. -/
theorem bidx3 (r : Fin 8192) (j : Fin 1024) : idx_main_v26 (idx_main_v27 (ix2 r j)) = ix1 j :=
  funext fun a => Fin.ext (by match a with | ⟨0, _⟩ => rfl)

/-! ## One layer at a time -/

/-- The first layer: the clamp at zero of x · (W1 ⊙ mask1)ᵀ + b1. -/
theorem layer1_eq (x0 : (⟨S8192x2048, .f32⟩ : BufTy).Contents (Elt Ideal)) (x1 : (⟨S4096x2048, .f32⟩ : BufTy).Contents (Elt Ideal)) (x2 : (⟨S4096, .f32⟩ : BufTy).Contents (Elt Ideal)) (x7 : (⟨S128x64, .i1⟩ : BufTy).Contents (Elt Ideal)) :
    val_main_v11 (F := Ideal) x0 x1 x2 x7
      = Cert.Spec.clamp (Cert.Spec.affine x0 (mulf x1 (val_main_v4 (F := Ideal) x7)) x2) := by
  funext i
  obtain ⟨r, j, rfl⟩ : ∃ (r : Fin 8192) (j : Fin 4096), i = ix2 r j := ⟨i 0, i 1, eq_ix2 i⟩
  rw [val_main_v11_apply, val_main_v10_apply, val_main_v7_apply, val_main_v9_apply, val_main_v8_apply,
    val_main_call0_v0_apply, val_main_call0_cst_apply, Cert.Spec.clamp_apply, Cert.Spec.affine_apply]
  simp only [val_main_v6_apply, val_main_v5_apply, lidx1, ridx1, bidx1, mulf_apply, Ideal.maximumf_def, Ideal.addf_def,
    Ideal.mulf_def, Ideal.ofBits_def]

/-- The second layer: the clamp at zero of h1 · (W2 ⊙ mask2)ᵀ + b2, h1 the first layer. -/
theorem layer2_eq (x0 : (⟨S8192x2048, .f32⟩ : BufTy).Contents (Elt Ideal)) (x1 : (⟨S4096x2048, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) (x7 : (⟨S128x64, .i1⟩ : BufTy).Contents (Elt Ideal)) (x8 : (⟨S128x128, .i1⟩ : BufTy).Contents (Elt Ideal)) :
    val_main_v23 (F := Ideal) x0 x1 x2 x3 x4 x7 x8
      = Cert.Spec.clamp (Cert.Spec.affine (val_main_v11 (F := Ideal) x0 x1 x2 x7) (mulf x3 (val_main_v16 (F := Ideal) x8)) x4) := by
  funext i
  obtain ⟨r, j, rfl⟩ : ∃ (r : Fin 8192) (j : Fin 4096), i = ix2 r j := ⟨i 0, i 1, eq_ix2 i⟩
  rw [val_main_v23_apply, val_main_v22_apply, val_main_v19_apply, val_main_v21_apply, val_main_v20_apply,
    val_main_call1_v0_apply, val_main_call1_cst_apply, Cert.Spec.clamp_apply, Cert.Spec.affine_apply]
  simp only [val_main_v18_apply, val_main_v17_apply, lidx2, ridx2, bidx2, mulf_apply, Ideal.maximumf_def, Ideal.addf_def,
    Ideal.mulf_def, Ideal.ofBits_def]

/-- The output layer: h2 · Woᵀ + bo, h2 the second layer. -/
theorem layer3_eq (x0 : (⟨S8192x2048, .f32⟩ : BufTy).Contents (Elt Ideal)) (x1 : (⟨S4096x2048, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) (x5 : (⟨S1024x4096, .f32⟩ : BufTy).Contents (Elt Ideal)) (x6 : (⟨S1024, .f32⟩ : BufTy).Contents (Elt Ideal)) (x7 : (⟨S128x64, .i1⟩ : BufTy).Contents (Elt Ideal)) (x8 : (⟨S128x128, .i1⟩ : BufTy).Contents (Elt Ideal)) :
    val_main_v28 (F := Ideal) x0 x1 x2 x3 x4 x5 x6 x7 x8
      = Cert.Spec.affine (val_main_v23 (F := Ideal) x0 x1 x2 x3 x4 x7 x8) x5 x6 := by
  funext i
  obtain ⟨r, j, rfl⟩ : ∃ (r : Fin 8192) (j : Fin 1024), i = ix2 r j := ⟨i 0, i 1, eq_ix2 i⟩
  rw [val_main_v28_apply, val_main_v25_apply, val_main_v27_apply, val_main_v26_apply, Cert.Spec.affine_apply]
  simp only [val_main_v24_apply, lidx3, ridx3, bidx3, Ideal.addf_def]

/-! ## The whole network -/

/-- The last stage of the reference is the specified network of the arguments, the masks as the reference's own
    stages (the float images of the broadcast tile masks). -/
theorem val_eq (x0 : (⟨S8192x2048, .f32⟩ : BufTy).Contents (Elt Ideal)) (x1 : (⟨S4096x2048, .f32⟩ : BufTy).Contents (Elt Ideal)) (x2 : (⟨S4096, .f32⟩ : BufTy).Contents (Elt Ideal)) (x3 : (⟨S4096x4096, .f32⟩ : BufTy).Contents (Elt Ideal)) (x4 : (⟨S4096, .f32⟩ : BufTy).Contents (Elt Ideal)) (x5 : (⟨S1024x4096, .f32⟩ : BufTy).Contents (Elt Ideal)) (x6 : (⟨S1024, .f32⟩ : BufTy).Contents (Elt Ideal)) (x7 : (⟨S128x64, .i1⟩ : BufTy).Contents (Elt Ideal)) (x8 : (⟨S128x128, .i1⟩ : BufTy).Contents (Elt Ideal)) :
    val_main_v28 (F := Ideal) x0 x1 x2 x3 x4 x5 x6 x7 x8
      = Cert.Spec.net x0 (mulf x1 (val_main_v4 (F := Ideal) x7)) x2 (mulf x3 (val_main_v16 (F := Ideal) x8)) x4 x5 x6 := by
  rw [layer3_eq, layer2_eq, layer1_eq]
  rfl

/-- The reference run's result term, at the extended reals, is the specified network of the argument arrays: the
    masked weights are the weights times the masks as the reference builds them, spelt out as the composed term. -/
theorem result_eq (x0 : FVec Ideal S8192x2048 .f32) (x1 : FVec Ideal S4096x2048 .f32) (x2 : FVec Ideal S4096 .f32) (x3 : FVec Ideal S4096x4096 .f32) (x4 : FVec Ideal S4096 .f32) (x5 : FVec Ideal S1024x4096 .f32) (x6 : FVec Ideal S1024 .f32) (x7 : (⟨S128x64, .i1⟩ : BufTy).Contents (Elt Ideal)) (x8 : (⟨S128x128, .i1⟩ : BufTy).Contents (Elt Ideal)) :
    addf (Host.dotGeneral dot_S8192x4096_S4096x1024_S8192x1024_1_0_0_1_n_n none (maximumf (addf (Host.dotGeneral dot_S8192x4096_S4096x4096_S8192x4096_1_0_0_1_n_n none (maximumf (addf (Host.dotGeneral dot_S8192x2048_S2048x4096_S8192x4096_1_0_0_1_n_n none (x0) (transpose S2048x4096 [1, 0] (mulf (x1) (uitofp .f32 (shapeCast _ (broadcastInDim S4096x64x32 ![0, 1] bcast_S4096x64_S4096x64x32_0_1 (shapeCast _ (broadcastInDim S128x32x64 ![0, 2] bcast_S128x64_S128x32x64_0_2 (x7)) shapeCasts_S128x32x64_S4096x64)) shapeCasts_S4096x64x32_S4096x2048))) transposes_S4096x2048_S2048x4096_1_0)) (broadcastInDim S8192x4096 ![0, 1] bcast_S1x4096_S8192x4096_0_1 (broadcastInDim S1x4096 ![1] bcast_S4096_S1x4096_1 (x2)))) (broadcastInDim S8192x4096 ![] bcast_S_S8192x4096 (constant S_ .f32 0x00000000#32))) (transpose S4096x4096 [1, 0] (mulf (x3) (uitofp .f32 (shapeCast _ (broadcastInDim S4096x128x32 ![0, 1] bcast_S4096x128_S4096x128x32_0_1 (shapeCast _ (broadcastInDim S128x32x128 ![0, 2] bcast_S128x128_S128x32x128_0_2 (x8)) shapeCasts_S128x32x128_S4096x128)) shapeCasts_S4096x128x32_S4096x4096))) transposes_S4096x4096_S4096x4096_1_0)) (broadcastInDim S8192x4096 ![0, 1] bcast_S1x4096_S8192x4096_0_1 (broadcastInDim S1x4096 ![1] bcast_S4096_S1x4096_1 (x4)))) (broadcastInDim S8192x4096 ![] bcast_S_S8192x4096 (constant S_ .f32 0x00000000#32))) (transpose S4096x1024 [1, 0] (x5) transposes_S1024x4096_S4096x1024_1_0)) (broadcastInDim S8192x1024 ![0, 1] bcast_S1x1024_S8192x1024_0_1 (broadcastInDim S1x1024 ![1] bcast_S1024_S1x1024_1 (x6)))
      = Cert.Spec.net x0 (mulf x1 (uitofp .f32 (shapeCast _ (broadcastInDim S4096x64x32 ![0, 1] bcast_S4096x64_S4096x64x32_0_1 (shapeCast _ (broadcastInDim S128x32x64 ![0, 2] bcast_S128x64_S128x32x64_0_2 (x7)) shapeCasts_S128x32x64_S4096x64)) shapeCasts_S4096x64x32_S4096x2048)) : FVec Ideal S4096x2048 .f32) x2 (mulf x3 (uitofp .f32 (shapeCast _ (broadcastInDim S4096x128x32 ![0, 1] bcast_S4096x128_S4096x128x32_0_1 (shapeCast _ (broadcastInDim S128x32x128 ![0, 2] bcast_S128x128_S128x32x128_0_2 (x8)) shapeCasts_S128x32x128_S4096x128)) shapeCasts_S4096x128x32_S4096x4096)) : FVec Ideal S4096x4096 .f32) x4 x5 x6 :=
  (val_main_v28_eq (F := Ideal) x0 x1 x2 x3 x4 x5 x6 x7 x8).trans (val_eq x0 x1 x2 x3 x4 x5 x6 x7 x8)

end Cert.ReferenceIdeal.RefValue

end
-- ==== Proof.lean ====
/-
  Three tile-masked linear layers, the first two followed by a clamp at zero, computed by a row-and-column-tiled matrix
  kernel launched three times, against the same network written with whole-matrix products.

  Each launch walks a grid (row tile, column tile, slab of the shared axis).  At the first slab of a run it zeroes an
  accumulator, at every slab it adds the product of a [1024, 1024] block of its left operand with the transpose of a
  [1024, 1024] block of its right operand, and at the last slab it stores the accumulated block plus the bias row
  (clamped at zero in the first two layers) into its output window.  Over the extended reals the accumulated block is
  the sum over the whole shared axis, because the slabs partition that axis and addition there is associative and
  commutative; so each launch leaves x·Wᵀ + b (clamped), entry by entry, which is what the reference's product with the
  transposed weight, its broadcast bias and its maximum with zero compute.  The tile masks enter both programs through
  the same elementwise product with the weights and are never opened.  No law used needs the inputs finite.

  The frames: the host stretch writes no argument, and each launch writes only its own output array, so every argument
  ends as launched; the accumulator is carried from grid point to grid point in the region's invariant.
-/
import proofs.«106102_j67216238182776_1_alg».proof.Defs
import proofs.«106102_j67216238182776_1_alg».proof.Proof.Gen.Kernel
import proofs.«106102_j67216238182776_1_alg».proof.Proof.Gen.KernelIdeal
import proofs.«106102_j67216238182776_1_alg».proof.Proof.Gen.ReferenceIdeal
import proofs.«106102_j67216238182776_1_alg».proof.Proof.Gen.Pre_finite_inputs
import proofs.«106102_j67216238182776_1_alg».proof.Proof.KernelRun
import proofs.«106102_j67216238182776_1_alg».proof.Proof.KernelIdealRun
import proofs.«106102_j67216238182776_1_alg».proof.Proof.KernelIdealValue
import proofs.«106102_j67216238182776_1_alg».proof.Proof.RefValue
import Idealize.ShloMosaic.Adequacy
import Idealize.ShloMosaic.Init

noncomputable section

namespace Cert.Proof

open Idealize.ShloMosaic Idealize.SL.Sem

/-- The kernel as printed runs to the end and leaves its arguments unchanged. -/
theorem frame_k : Cert.frame_Kernel := fun m ρ _ => Cert.Kernel.Run.frame (F := Bits) m ρ
/-- So does its reading over the extended reals. -/
theorem frame_ki : Cert.frame_KernelIdeal := fun m ρ _ => Cert.KernelIdeal.Run.frame (F := Ideal) m ρ
/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- No operation of the kernel was rewritten for the reading over the extended reals. -/
theorem preserves : Cert.preserves_Kernel_KernelIdeal := trivial

/-- Both programs end with the network's value of their (agreeing) arguments. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c =>
      ⟨(h c).1.trans ((Cert.ReferenceIdeal.RefValue.result_eq _ _ _ _ _ _ _ _ _).trans ?_), (h c).2⟩)
    (Cert.ReferenceIdeal.Value.run (F := Ideal) m' ρ')
  obtain ⟨a0, a1, a2, a3, a4, a5, a6, a7, a8⟩ := hagree c
  rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
